-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel

variable [Facts]

def fn {F : FTy → Type} [FloatOps F] (main_arg0 : FVec F S8x2048x1024 .f32) (main_arg1 : FVec F S8x2048x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  main_v8
-- ==== Kernel.lean ====
abbrev S8x2048x1024 : Shape := ⟨3, ![8, 2048, 1024]⟩
abbrev S1x512x1024 : Shape := ⟨3, ![1, 512, 1024]⟩
abbrev S1x2048x1024 : Shape := ⟨3, ![1, 2048, 1024]⟩
abbrev S512x1 : Shape := ⟨2, ![512, 1]⟩
abbrev S2048x1 : Shape := ⟨2, ![2048, 1]⟩
abbrev S512x1024 : Shape := ⟨2, ![512, 1024]⟩
abbrev S2048x1024 : Shape := ⟨2, ![2048, 1024]⟩
abbrev S512x512 : Shape := ⟨2, ![512, 512]⟩
abbrev S512 : Shape := ⟨1, ![512]⟩

abbrev nBuf : Space → Nat
  | .hbm => 6
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .bf16⟩
  | .hbm, ⟨3, _⟩ => ⟨S8x2048x1024, .bf16⟩
  | .hbm, ⟨4, _⟩ => ⟨S8x2048x1024, .f32⟩
  | .hbm, ⟨5, _⟩ => ⟨S8x2048x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .f32⟩
  | .local _ .vmem, ⟨5, _⟩ => ⟨S1x512x1024, .f32⟩
  | .local _ .vmem, ⟨6, _⟩ => ⟨S1x2048x1024, .f32⟩
  | .local _ .vmem, ⟨7, _⟩ => ⟨S1x2048x1024, .f32⟩
  | .local _ .vmem, ⟨8, _⟩ => ⟨S512x1, .f32⟩
  | .local _ .vmem, ⟨9, _⟩ => ⟨S512x1, .f32⟩
  | .local _ .vmem, ⟨10, _⟩ => ⟨S2048x1, .f32⟩
  | .local _ .vmem, ⟨11, _⟩ => ⟨S2048x1, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_mult1 (i : grid0.Coords) : BitVec 32 :=
  let arg2 : BitVec 32 := BitVec.ofNat 32 (i 2).val
  let c512_i32 : BitVec 32 := 512#32
  let v44 : BitVec 32 := Scalar.muli arg2 c512_i32
  v44
def k0_off1 (i : grid0.Coords) : Fin 2 → Nat :=
  let arg2 : BitVec 32 := BitVec.ofNat 32 (i 2).val
  let c512_i32 : BitVec 32 := 512#32
  let v44 : BitVec 32 := Scalar.muli arg2 c512_i32
  let v45 : BitVec 32 := v44
  let v46 : Index := Scalar.indexCast v45
  let c0_26 : Index := 0#32
  ![v46.toNat, 0]
def k0_off2 (i : grid0.Coords) : Fin 3 → Nat :=
  let c0_31 : Index := 0#32
  let arg2 : BitVec 32 := BitVec.ofNat 32 (i 2).val
  let c512_i32 : BitVec 32 := 512#32
  let v44 : BitVec 32 := Scalar.muli arg2 c512_i32
  let v45 : BitVec 32 := v44
  let v66 : Index := Scalar.indexCast v45
  let c0_32 : Index := 0#32
  ![0, v66.toNat, 0]
def k0_cond4 (i : grid0.Coords) : BitVec 1 :=
  let arg1 : BitVec 32 := BitVec.ofNat 32 (i 1).val
  let c3_i32_38 : BitVec 32 := 3#32
  let v85 : BitVec 1 := Scalar.cmpi .eq arg1 c3_i32_38
  let v86 : BitVec 32 := Scalar.extui v85
  let c0_i32_39 : BitVec 32 := 0#32
  let v87 : BitVec 1 := Scalar.cmpi .ne v86 c0_i32_39
  v87

def k0_off3 (i : grid0.Coords) : Fin 3 → Nat :=
  let c0_40 : Index := 0#32
  let arg2 : BitVec 32 := BitVec.ofNat 32 (i 2).val
  let c512_i32 : BitVec 32 := 512#32
  let v44 : BitVec 32 := Scalar.muli arg2 c512_i32
  let v45 : BitVec 32 := v44
  let v88 : Index := Scalar.indexCast v45
  let c0_41 : Index := 0#32
  ![0, v88.toNat, 0]
def k0_off4 (i : grid0.Coords) : Fin 2 → Nat :=
  let arg2 : BitVec 32 := BitVec.ofNat 32 (i 2).val
  let c512_i32 : BitVec 32 := 512#32
  let v44 : BitVec 32 := Scalar.muli arg2 c512_i32
  let v45 : BitVec 32 := v44
  let v91 : Index := Scalar.indexCast v45
  let c0_42 : Index := 0#32
  ![v91.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  shapeCasts_S2048x1024_S1x2048x1024 : S2048x1024.ShapeCasts S1x2048x1024
  reduces_S512x512_S512 : S512x512.Reduces [1] S512
  shapeCasts_S512_S512x1 : S512.ShapeCasts S512x1
  broadcasts_S512x1_S512x512 : S512x1.Broadcasts S512x512
  broadcasts_S512x1_S512x1024 : S512x1.Broadcasts S512x1024
  transposes_S512x512_p1_0_S512x512 : S512x512.Transposes [1, 0] S512x512
  dot_S512x1024_S512x1024_S512x512_1_1_0_0_n_n_wf : DotDims.WF S512x1024 S512x1024 S512x512 [1] [1] [0] [0] [] []
  dot_S512x512_S512x1024_S512x1024_1_0_0_1_n_n_wf : DotDims.WF S512x512 S512x1024 S512x1024 [1] [0] [0] [1] [] []
  hrank0 : 0 < grid0.rank
  k0_mult1_dvd : ∀ i : grid0.Coords, 512 ∣ (k0_mult1 i).toNat
  k0_off1_inb : ∀ i : grid0.Coords, ∀ a, (k0_off1 i) a + S512x1.size a ≤ S2048x1.size a
  k0_off2_inb : ∀ i : grid0.Coords, ∀ a, (k0_off2 i) a + S1x512x1024.size a ≤ S1x2048x1024.size a
  k0_off3_inb : ∀ i : grid0.Coords, ∀ (k0_h4 : k0_cond4 i = 1#1), ∀ a, (k0_off3 i) a + S1x512x1024.size a ≤ S1x2048x1024.size a
  k0_off4_inb : ∀ i : grid0.Coords, ∀ (k0_h4 : k0_cond4 i = 1#1), ∀ a, (k0_off4 i) a + S512x1.size a ≤ S2048x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x2048x1024.size a
  hwx0_0 : ∀ i : grid0.Coords, EltTy.bits .bf16 = 32 ∨ (Rect.block (s := S8x2048x1024) S1x512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S8x2048x1024.size a
  hwx0_1 : ∀ i : grid0.Coords, EltTy.bits .bf16 = 32 ∨ (Rect.block (s := S8x2048x1024) S1x512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S8x2048x1024.size a
  hwx0_2 : ∀ i : grid0.Coords, EltTy.bits .f32 = 32 ∨ (Rect.block (s := S8x2048x1024) S1x512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x1024.size a ≤ S8x2048x1024.size a
  hwx0_3 : ∀ i : grid0.Coords, EltTy.bits .f32 = 32 ∨ (Rect.block (s := S8x2048x1024) S1x2048x1024.size (cc0_transform_3 i) (hinb0_3 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_call0_v0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x512x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩

abbrev nBuf : Space → Nat
  | .hbm => 33
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x2048, .f32⟩
  | .hbm, ⟨3, _⟩ => ⟨S_, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S8x2048x1, .f32⟩
  | .hbm, ⟨9, _⟩ => ⟨S8x2048x2048, .f32⟩
  | .hbm, ⟨10, _⟩ => ⟨S8x2048x2048, .f32⟩
  | .hbm, ⟨11, _⟩ => ⟨S8x2048x2048, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S8x2048x2048, .f32⟩
  | .hbm, ⟨16, _⟩ => ⟨S8x2048x2048, .f32⟩
  | .hbm, ⟨17, _⟩ => ⟨S_, .f32⟩
  | .hbm, ⟨18, _⟩ => ⟨S8x2048, .f32⟩
  | .hbm, ⟨19, _⟩ => ⟨S_, .f32⟩
  | .hbm, ⟨20, _⟩ => ⟨S8x2048, .f32⟩
  | .hbm, ⟨21, _⟩ => ⟨S8x2048, .f32⟩
  | .hbm, ⟨22, _⟩ => ⟨S8x1x2048, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S_, .f32⟩
  | .hbm, ⟨27, _⟩ => ⟨S8x2048, .f32⟩
  | .hbm, ⟨28, _⟩ => ⟨S8x1x2048, .f32⟩
  | .hbm, ⟨29, _⟩ => ⟨S8x2048x2048, .f32⟩
  | .hbm, ⟨30, _⟩ => ⟨S8x2048x2048, .f32⟩
  | .hbm, ⟨31, _⟩ => ⟨S8x2048x1024, .f32⟩
  | .hbm, ⟨32, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]

class Facts₀ : Prop where
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  reducesTo_S8x2048x2048_S8x2048_d1 : S8x2048x2048.ReducesTo [1] S8x2048
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]
  dot_S8x2048x2048_S8x2048x1024_S8x2048x1024_1_1_2_2_0_0_wf : DotDims.WF S8x2048x2048 S8x2048x1024 S8x2048x1024 [1] [1] [2] [2] [0] [0]

variable [Facts₀]

def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf
def dot_S8x2048x2048_S8x2048x1024_S8x2048x1024_1_1_2_2_0_0 : DotDims S8x2048x2048 S8x2048x1024 S8x2048x1024 where
  lhsContracting := [1]
  rhsContracting := [1]
  lhsNonContracting := [2]
  rhsNonContracting := [2]
  lhsBatch := [0]
  rhsBatch := [0]
  wf := dot_S8x2048x2048_S8x2048x1024_S8x2048x1024_1_1_2_2_0_0_wf

class Facts : Prop extends Facts₀ where

variable [Facts]
-- ==== Proof.K.Cases.lean ====
/-
  The grid is 8 batches × 4 row tiles (qi) × 4 column tiles (ki), walked with ki innermost: point t is
  (b, qi, ki) with t = 16 b + 4 qi + ki. The body has four guarded regions, each a test of the coordinates:
  ki = 0 (the row statistics and the row accumulator start afresh), qi = 0 and ki = 0 (the column statistics and the
  column accumulator start afresh), ki = 3 (the row accumulator is normalised) and qi = 3 (the current column slice is
  normalised). This module states the four tests as the body computes them, decides where on the grid each holds, and
  names the memrefs the body is called with.
-/
import proofs.«118892_j1881195675895_2_alg».proof.Proof.Gen.Kernel.Frame
import proofs.«118892_j1881195675895_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The coordinates ki and qi as the words the body tests. -/
abbrev kiW (i : grid0.Coords) : BitVec 32 := BitVec.ofNat 32 (i 2).val
abbrev qiW (i : grid0.Coords) : BitVec 32 := BitVec.ofNat 32 (i 1).val

/-- ki = 0. -/
abbrev cond1 (i : grid0.Coords) : Prop := Scalar.cmpi .ne (Scalar.extui (Scalar.cmpi .eq (kiW i) 0#32)) 0#32 = 1#1
/-- qi = 0 and ki = 0. -/
abbrev cond2 (i : grid0.Coords) : Prop := Scalar.cmpi .ne (Scalar.extui (Scalar.andi (Scalar.cmpi .eq (qiW i) 0#32) (Scalar.cmpi .eq (kiW i) 0#32))) 0#32 = 1#1
/-- ki = 3. -/
abbrev cond3 (i : grid0.Coords) : Prop := Scalar.cmpi .ne (Scalar.extui (Scalar.cmpi .eq (kiW i) 3#32)) 0#32 = 1#1
/-- qi = 3. -/
abbrev cond4 (i : grid0.Coords) : Prop := k0_cond4 i = 1#1

/-- Where each test holds, by the point's number. -/
theorem hcond1 : ∀ t : Fin cfg0.N, cond1 (grid0.coords t) ↔ t.val % 4 = 0 :=
  (by decide +kernel : ∀ t : Fin grid0.N, cond1 (grid0.coords t) ↔ t.val % 4 = 0)
theorem hcond2 : ∀ t : Fin cfg0.N, cond2 (grid0.coords t) ↔ t.val % 16 = 0 :=
  (by decide +kernel : ∀ t : Fin grid0.N, cond2 (grid0.coords t) ↔ t.val % 16 = 0)
theorem hcond3 : ∀ t : Fin cfg0.N, cond3 (grid0.coords t) ↔ t.val % 4 = 3 :=
  (by decide +kernel : ∀ t : Fin grid0.N, cond3 (grid0.coords t) ↔ t.val % 4 = 3)
theorem hcond4 : ∀ t : Fin cfg0.N, cond4 (grid0.coords t) ↔ 12 ≤ t.val % 16 :=
  (by decide +kernel : ∀ t : Fin grid0.N, cond4 (grid0.coords t) ↔ 12 ≤ t.val % 16)

/-- Every window is stored into (or only read) at every point: none is ever idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel

/-- Each window's current staging memref at point `t`, as the pipeline passes it to the body, and its wholeness. -/
abbrev ms0 (t : Fin cfg0.N) : Memref sig .tc .vmem S1x512x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048x1024 .f32 := win0_3.stage (cfg0.slots t 3)
abbrev hs3 (t : Fin cfg0.N) : (ms3 t).IsWhole := hstage0_3 ((cfg0.slots t 3).cast nbuf0_3)
/-- The four scratch buffers: the running row maximum and row sum (one entry per row of the tile), the running column
    maximum and column sum (one entry per column of the whole score matrix of the batch). -/
abbrev scM0 : Memref sig .tc .vmem S512x1 .f32 := Memref.whole cc0_scratch0
abbrev scM1 : Memref sig .tc .vmem S512x1 .f32 := Memref.whole cc0_scratch1
abbrev scM2 : Memref sig .tc .vmem S2048x1 .f32 := Memref.whole cc0_scratch2
abbrev scM3 : Memref sig .tc .vmem S2048x1 .f32 := Memref.whole cc0_scratch3

/-- What the region hands the body beside the windows: the four scratch buffers, each at some contents, and the
    generator register at some state. -/
theorem PhiA_eq (c : Dev nD) :
    (Pipeline.ΦA spec0 c : sProp 𝕄)
      = iprop(iprop((∃ d, owns (c : Thread nD τ) scM0 fullShare d) ∗ (∃ d, owns (c : Thread nD τ) scM1 fullShare d)
          ∗ (∃ d, owns (c : Thread nD τ) scM2 fullShare d) ∗ (∃ d, owns (c : Thread nD τ) scM3 fullShare d)) ∗ (∃ r, prngReg c r)) := by
  unfold Pipeline.ΦA; rw [scopedRest0_eq]; simp only [scM0, scM1, scM2, scM3, owns_whole]; try rfl

end Cert.Kernel.Body

end
-- ==== Proof.K.RunG.lean ====
/-
  The body at a point with ki ≠ 0: nothing starts afresh, every buffer is read before it is stored into. Run once for any
  such point, from any contents of the two input blocks, the two output staging buffers and the four scratch buffers;
  the two normalisations (ki = 3, qi = 3) stay as conditionals in what the run finds each buffer to hold afterwards.
-/
import proofs.«118892_j1881195675895_2_alg».proof.Proof.K.Cases
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runG (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .f32) (harg5 : arg5.IsWhole) (arg6 : Memref sig .tc .vmem S1x2048x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S2048x1 .f32) (harg9 : arg9.IsWhole) (arg10 : Memref sig .tc .vmem S2048x1 .f32) (harg10 : arg10.IsWhole)
    (hc0 : ¬cond1 i) (hc1 : ¬cond2 i)
    (x0 : Vec F S1x512x1024 .bf16) (x1 : Vec F S1x512x1024 .bf16) (o2 : Vec F S1x512x1024 .f32) (o3 : Vec F S1x2048x1024 .f32) (s0 : Vec F S512x1 .f32) (s1 : Vec F S512x1 .f32) (s2 : Vec F S2048x1 .f32) (s3 : Vec F S2048x1 .f32) :
    Σ' (f2 : Buf (Elt F) (arg5.view.loc (c : Thread nD τ))) (f3 : Buf (Elt F) (arg6.view.loc (c : Thread nD τ))) (g0 : Buf (Elt F) (arg7.view.loc (c : Thread nD τ))) (g1 : Buf (Elt F) (arg8.view.loc (c : Thread nD τ))) (g2 : Buf (Elt F) (arg9.view.loc (c : Thread nD τ))), { g3 : Buf (Elt F) (arg10.view.loc (c : Thread nD τ)) //
      ∀ (E : Set ℕ) (K : PUnit → sProp 𝕄),
        iprop(owns (c : Thread nD τ) arg3 fullShare x0 ∗ owns (c : Thread nD τ) arg4 fullShare x1 ∗ owns (c : Thread nD τ) arg5 fullShare o2 ∗ owns (c : Thread nD τ) arg6 fullShare o3 ∗ owns (c : Thread nD τ) arg7 fullShare s0 ∗ owns (c : Thread nD τ) arg8 fullShare s1 ∗ owns (c : Thread nD τ) arg9 fullShare s2 ∗ owns (c : Thread nD τ) arg10 fullShare s3
            ∗ (iprop(owns (c : Thread nD τ) arg3 fullShare x0 ∗ owns (c : Thread nD τ) arg4 fullShare x1 ∗ (arg5.view.loc (c : Thread nD τ) ↦[arg5.view.set]{fullShare} f2) ∗ (arg6.view.loc (c : Thread nD τ) ↦[arg6.view.set]{fullShare} f3) ∗ (arg7.view.loc (c : Thread nD τ) ↦[arg7.view.set]{fullShare} g0) ∗ (arg8.view.loc (c : Thread nD τ) ↦[arg8.view.set]{fullShare} g1) ∗ (arg9.view.loc (c : Thread nD τ) ↦[arg9.view.set]{fullShare} g2) ∗ (arg10.view.loc (c : Thread nD τ) ↦[arg10.view.set]{fullShare} g3)) -∗ K ⟨⟩))
          ⊢ wp frame (wpE (defs₀ (F := F)) Variants.none c none) E (cc0__co_attention_kernel i arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0__co_attention_kernel_eq_skeleton]; unfold cc0__co_attention_kernel_skel
    unfold owns
    iintro ⟨⟨%f0, %hf0, H0⟩, ⟨%f1, %hf1, H1⟩, ⟨%f2, %hf2, H2⟩, ⟨%f3, %hf3, H3⟩, ⟨%g0, %hg0, S0⟩, ⟨%g1, %hg1, S1⟩, ⟨%g2, %hg2, S2⟩, ⟨%g3, %hg3, S3⟩, Hk⟩
    obtain rfl := harg3.eq_unread hf0; obtain rfl := harg4.eq_unread hf1; obtain rfl := harg5.eq_unread hf2; obtain rfl := harg6.eq_unread hf3; obtain rfl := harg7.eq_unread hg0; obtain rfl := harg8.eq_unread hg1; obtain rfl := harg9.eq_unread hg2; obtain rfl := harg10.eq_unread hg3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexact H2
    isplitl [H3]
    · iexact H3
    isplitl [S0]
    · iexact S0
    isplitl [S1]
    · iexact S1
    isplitl [S2]
    · iexact S2
    iexact S3

end Cert.Kernel.Body

end
-- ==== Proof.K.RunA.lean ====
/-
  The body at a batch's first point (qi = 0, ki = 0): every output staging buffer and every scratch buffer is stored
  whole before it is read, so what they hold afterwards does not depend on what they held before.
-/
import proofs.«118892_j1881195675895_2_alg».proof.Proof.K.RunG
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runA (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .f32) (harg5 : arg5.IsWhole) (arg6 : Memref sig .tc .vmem S1x2048x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S2048x1 .f32) (harg9 : arg9.IsWhole) (arg10 : Memref sig .tc .vmem S2048x1 .f32) (harg10 : arg10.IsWhole)
    (hc0 : cond1 i) (hc1 : cond2 i) (hc2 : ¬cond3 i) (hc3 : ¬cond4 i)
    (x0 : Vec F S1x512x1024 .bf16) (x1 : Vec F S1x512x1024 .bf16) :
    Σ' (L2 : List (View.Piece (Elt F) S1x512x1024 .f32)) (L3 : List (View.Piece (Elt F) S1x2048x1024 .f32)) (M0 : List (View.Piece (Elt F) S512x1 .f32)) (M1 : List (View.Piece (Elt F) S512x1 .f32)) (M2 : List (View.Piece (Elt F) S2048x1 .f32)), { M3 : List (View.Piece (Elt F) S2048x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f M0) ∗ (∃ f, arg8.view.loc (c : Thread nD τ) ↦[arg8.view.set]{fullShare} arg8.view.writes (Elt F) f M1) ∗ (∃ f, arg9.view.loc (c : Thread nD τ) ↦[arg9.view.set]{fullShare} arg9.view.writes (Elt F) f M2) ∗ (∃ f, arg10.view.loc (c : Thread nD τ) ↦[arg10.view.set]{fullShare} arg10.view.writes (Elt F) f M3)) -∗ K ⟨⟩))
          ⊢ wp frame (wpE (defs₀ (F := F)) Variants.none c none) E (cc0__co_attention_kernel i arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0__co_attention_kernel_eq_skeleton]; unfold cc0__co_attention_kernel_skel
    unfold owns
    iintro ⟨⟨%f0, %hf0, H0⟩, ⟨%f1, %hf1, H1⟩, ⟨%d5, %f2, -, H2⟩, ⟨%d6, %f3, -, H3⟩, ⟨%d7, %g0, -, S0⟩, ⟨%d8, %g1, -, S1⟩, ⟨%d9, %g2, -, S2⟩, ⟨%d10, %g3, -, S3⟩, Hk⟩
    obtain rfl := harg3.eq_unread hf0; obtain rfl := harg4.eq_unread hf1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    isplitl [H3]
    · iexists _; iexact H3
    isplitl [S0]
    · iexists _; iexact S0
    isplitl [S1]
    · iexists _; iexact S1
    isplitl [S2]
    · iexists _; iexact S2
    iexists _; iexact S3

end Cert.Kernel.Body

end
-- ==== Proof.K.RunD.lean ====
/-
  The body at the first point of a row tile that is neither the batch's first nor its last (ki = 0, qi = 1 or 2): the row
  accumulator and the row statistics are stored whole before they are read; the column accumulator and statistics carry on.
-/
import proofs.«118892_j1881195675895_2_alg».proof.Proof.K.RunA
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runD (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .f32) (harg5 : arg5.IsWhole) (arg6 : Memref sig .tc .vmem S1x2048x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S2048x1 .f32) (harg9 : arg9.IsWhole) (arg10 : Memref sig .tc .vmem S2048x1 .f32) (harg10 : arg10.IsWhole)
    (hc0 : cond1 i) (hc1 : ¬cond2 i) (hc2 : ¬cond3 i) (hc3 : ¬cond4 i)
    (x0 : Vec F S1x512x1024 .bf16) (x1 : Vec F S1x512x1024 .bf16) (o3 : Vec F S1x2048x1024 .f32) (s2 : Vec F S2048x1 .f32) (s3 : Vec F S2048x1 .f32) :
    Σ' (L2 : List (View.Piece (Elt F) S1x512x1024 .f32)) (f3 : Buf (Elt F) (arg6.view.loc (c : Thread nD τ))) (M0 : List (View.Piece (Elt F) S512x1 .f32)) (M1 : List (View.Piece (Elt F) S512x1 .f32)) (g2 : Buf (Elt F) (arg9.view.loc (c : Thread nD τ))), { g3 : Buf (Elt F) (arg10.view.loc (c : Thread nD τ)) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare o3 ∗ (∃ d, owns (c : Thread nD τ) arg7 fullShare d) ∗ (∃ d, owns (c : Thread nD τ) arg8 fullShare d) ∗ owns (c : Thread nD τ) arg9 fullShare s2 ∗ owns (c : Thread nD τ) arg10 fullShare s3
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (arg6.view.loc (c : Thread nD τ) ↦[arg6.view.set]{fullShare} f3) ∗ (∃ f, arg7.view.loc (c : Thread nD τ) ↦[arg7.view.set]{fullShare} arg7.view.writes (Elt F) f M0) ∗ (∃ f, arg8.view.loc (c : Thread nD τ) ↦[arg8.view.set]{fullShare} arg8.view.writes (Elt F) f M1) ∗ (arg9.view.loc (c : Thread nD τ) ↦[arg9.view.set]{fullShare} g2) ∗ (arg10.view.loc (c : Thread nD τ) ↦[arg10.view.set]{fullShare} g3)) -∗ K ⟨⟩))
          ⊢ wp frame (wpE (defs₀ (F := F)) Variants.none c none) E (cc0__co_attention_kernel i arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0__co_attention_kernel_eq_skeleton]; unfold cc0__co_attention_kernel_skel
    unfold owns
    iintro ⟨⟨%f0, %hf0, H0⟩, ⟨%f1, %hf1, H1⟩, ⟨%d5, %f2, -, H2⟩, ⟨%f3, %hf3, H3⟩, ⟨%d7, %g0, -, S0⟩, ⟨%d8, %g1, -, S1⟩, ⟨%g2, %hg2, S2⟩, ⟨%g3, %hg3, S3⟩, Hk⟩
    obtain rfl := harg3.eq_unread hf0; obtain rfl := harg4.eq_unread hf1; obtain rfl := harg6.eq_unread hf3; obtain rfl := harg9.eq_unread hg2; obtain rfl := harg10.eq_unread hg3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    isplitl [H3]
    · iexact H3
    isplitl [S0]
    · iexists _; iexact S0
    isplitl [S1]
    · iexists _; iexact S1
    isplitl [S2]
    · iexact S2
    iexact S3

end Cert.Kernel.Body

end
-- ==== Proof.K.RunE.lean ====
/-
  The body at the first point of a batch's last row tile (ki = 0, qi = 3): as for the other row tiles' first points, and the
  current column slice is normalised.
-/
import proofs.«118892_j1881195675895_2_alg».proof.Proof.K.RunD
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runE (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .f32) (harg5 : arg5.IsWhole) (arg6 : Memref sig .tc .vmem S1x2048x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S2048x1 .f32) (harg9 : arg9.IsWhole) (arg10 : Memref sig .tc .vmem S2048x1 .f32) (harg10 : arg10.IsWhole)
    (hc0 : cond1 i) (hc1 : ¬cond2 i) (hc2 : ¬cond3 i) (hc3 : cond4 i)
    (x0 : Vec F S1x512x1024 .bf16) (x1 : Vec F S1x512x1024 .bf16) (o3 : Vec F S1x2048x1024 .f32) (s2 : Vec F S2048x1 .f32) (s3 : Vec F S2048x1 .f32) :
    Σ' (L2 : List (View.Piece (Elt F) S1x512x1024 .f32)) (f3 : Buf (Elt F) (arg6.view.loc (c : Thread nD τ))) (M0 : List (View.Piece (Elt F) S512x1 .f32)) (M1 : List (View.Piece (Elt F) S512x1 .f32)) (g2 : Buf (Elt F) (arg9.view.loc (c : Thread nD τ))), { g3 : Buf (Elt F) (arg10.view.loc (c : Thread nD τ)) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare o3 ∗ (∃ d, owns (c : Thread nD τ) arg7 fullShare d) ∗ (∃ d, owns (c : Thread nD τ) arg8 fullShare d) ∗ owns (c : Thread nD τ) arg9 fullShare s2 ∗ owns (c : Thread nD τ) arg10 fullShare s3
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (arg6.view.loc (c : Thread nD τ) ↦[arg6.view.set]{fullShare} f3) ∗ (∃ f, arg7.view.loc (c : Thread nD τ) ↦[arg7.view.set]{fullShare} arg7.view.writes (Elt F) f M0) ∗ (∃ f, arg8.view.loc (c : Thread nD τ) ↦[arg8.view.set]{fullShare} arg8.view.writes (Elt F) f M1) ∗ (arg9.view.loc (c : Thread nD τ) ↦[arg9.view.set]{fullShare} g2) ∗ (arg10.view.loc (c : Thread nD τ) ↦[arg10.view.set]{fullShare} g3)) -∗ K ⟨⟩))
          ⊢ wp frame (wpE (defs₀ (F := F)) Variants.none c none) E (cc0__co_attention_kernel i arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0__co_attention_kernel_eq_skeleton]; unfold cc0__co_attention_kernel_skel
    unfold owns
    iintro ⟨⟨%f0, %hf0, H0⟩, ⟨%f1, %hf1, H1⟩, ⟨%d5, %f2, -, H2⟩, ⟨%f3, %hf3, H3⟩, ⟨%d7, %g0, -, S0⟩, ⟨%d8, %g1, -, S1⟩, ⟨%g2, %hg2, S2⟩, ⟨%g3, %hg3, S3⟩, Hk⟩
    obtain rfl := harg3.eq_unread hf0; obtain rfl := harg4.eq_unread hf1; obtain rfl := harg6.eq_unread hf3; obtain rfl := harg9.eq_unread hg2; obtain rfl := harg10.eq_unread hg3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    isplitl [H3]
    · iexact H3
    isplitl [S0]
    · iexists _; iexact S0
    isplitl [S1]
    · iexists _; iexact S1
    isplitl [S2]
    · iexact S2
    iexact S3

end Cert.Kernel.Body

end
-- ==== Proof.K.Data.lean ====
/-
  What the body carries from point to point: the two output staging buffers (the row accumulator, one 512×1024 block per
  row tile; the column accumulator, the batch's whole 2048×1024 block) and the four scratch buffers (row maximum, row sum,
  column maximum, column sum). `step` is one point: from what these six held before it to what they hold after it, the run
  chosen by the point's number (t ≡ 0 mod 16: everything starts afresh; t ≡ 4, 8 mod 16 and t ≡ 12 mod 16: the row side
  starts afresh; otherwise everything carries on). `stAt n` iterates it from the first point. The pipeline's proof data
  then says: after point t the inputs' buffers hold their blocks and the outputs' the two accumulators of `stAt t`, and
  between points the scratch buffers hold its four statistics.
-/
import proofs.«118892_j1881195675895_2_alg».proof.Proof.K.RunE
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents of the six buffers the body carries. -/
structure St (F : FTy → Type) where
  o2 : Vec F S1x512x1024 .f32
  o3 : Vec F S1x2048x1024 .f32
  s0 : Vec F S512x1 .f32
  s1 : Vec F S512x1 .f32
  s2 : Vec F S2048x1 .f32
  s3 : Vec F S2048x1 .f32

/-- Contents nothing depends on: what the buffers hold before the first point. -/
def St.any : St F :=
  ⟨(Memref.whole cc0_stg2_0 : Memref sig .tc .vmem S1x512x1024 .f32).view.read (Elt F) (Memref.whole cc0_stg2_0 : Memref sig .tc .vmem S1x512x1024 .f32).view.junk,
   (Memref.whole cc0_stg3_0 : Memref sig .tc .vmem S1x2048x1024 .f32).view.read (Elt F) (Memref.whole cc0_stg3_0 : Memref sig .tc .vmem S1x2048x1024 .f32).view.junk,
   scM0.view.read (Elt F) scM0.view.junk, scM1.view.read (Elt F) scM1.view.junk, scM2.view.read (Elt F) scM2.view.junk, scM3.view.read (Elt F) scM3.view.junk⟩

/-- After a batch's first point: every buffer's pieces read back (they cover it). -/
def stA (c : Dev nD) (t : Fin cfg0.N) (h1 : cond1 (grid0.coords t)) (h2 : cond2 (grid0.coords t)) (h3 : ¬cond3 (grid0.coords t)) (h4 : ¬cond4 (grid0.coords t)) (x0 x1 : Vec F S1x512x1024 .bf16) : St F :=
  ⟨(ms2 t).view.read (Elt F) ((ms2 t).view.writes (Elt F) (ms2 t).view.junk (runA c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) h1 h2 h3 h4 x0 x1).1),
   (ms3 t).view.read (Elt F) ((ms3 t).view.writes (Elt F) (ms3 t).view.junk (runA c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) h1 h2 h3 h4 x0 x1).2.1),
   scM0.view.read (Elt F) (scM0.view.writes (Elt F) scM0.view.junk (runA c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) h1 h2 h3 h4 x0 x1).2.2.1),
   scM1.view.read (Elt F) (scM1.view.writes (Elt F) scM1.view.junk (runA c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) h1 h2 h3 h4 x0 x1).2.2.2.1),
   scM2.view.read (Elt F) (scM2.view.writes (Elt F) scM2.view.junk (runA c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) h1 h2 h3 h4 x0 x1).2.2.2.2.1),
   scM3.view.read (Elt F) (scM3.view.writes (Elt F) scM3.view.junk (runA c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) h1 h2 h3 h4 x0 x1).2.2.2.2.2.1)⟩

/-- After the first point of a middle row tile: the row side's pieces read back, the column side as the run leaves it over `p`. -/
def stD (c : Dev nD) (t : Fin cfg0.N) (h1 : cond1 (grid0.coords t)) (h2 : ¬cond2 (grid0.coords t)) (h3 : ¬cond3 (grid0.coords t)) (h4 : ¬cond4 (grid0.coords t)) (x0 x1 : Vec F S1x512x1024 .bf16) (p : St F) : St F :=
  ⟨(ms2 t).view.read (Elt F) ((ms2 t).view.writes (Elt F) (ms2 t).view.junk (runD c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) h1 h2 h3 h4 x0 x1 p.o3 p.s2 p.s3).1),
   (ms3 t).view.read (Elt F) (runD c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) h1 h2 h3 h4 x0 x1 p.o3 p.s2 p.s3).2.1,
   scM0.view.read (Elt F) (scM0.view.writes (Elt F) scM0.view.junk (runD c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) h1 h2 h3 h4 x0 x1 p.o3 p.s2 p.s3).2.2.1),
   scM1.view.read (Elt F) (scM1.view.writes (Elt F) scM1.view.junk (runD c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) h1 h2 h3 h4 x0 x1 p.o3 p.s2 p.s3).2.2.2.1),
   scM2.view.read (Elt F) (runD c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) h1 h2 h3 h4 x0 x1 p.o3 p.s2 p.s3).2.2.2.2.1,
   scM3.view.read (Elt F) (runD c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) h1 h2 h3 h4 x0 x1 p.o3 p.s2 p.s3).2.2.2.2.2.1⟩

/-- After the first point of the last row tile. -/
def stE (c : Dev nD) (t : Fin cfg0.N) (h1 : cond1 (grid0.coords t)) (h2 : ¬cond2 (grid0.coords t)) (h3 : ¬cond3 (grid0.coords t)) (h4 : cond4 (grid0.coords t)) (x0 x1 : Vec F S1x512x1024 .bf16) (p : St F) : St F :=
  ⟨(ms2 t).view.read (Elt F) ((ms2 t).view.writes (Elt F) (ms2 t).view.junk (runE c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) h1 h2 h3 h4 x0 x1 p.o3 p.s2 p.s3).1),
   (ms3 t).view.read (Elt F) (runE c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) h1 h2 h3 h4 x0 x1 p.o3 p.s2 p.s3).2.1,
   scM0.view.read (Elt F) (scM0.view.writes (Elt F) scM0.view.junk (runE c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) h1 h2 h3 h4 x0 x1 p.o3 p.s2 p.s3).2.2.1),
   scM1.view.read (Elt F) (scM1.view.writes (Elt F) scM1.view.junk (runE c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) h1 h2 h3 h4 x0 x1 p.o3 p.s2 p.s3).2.2.2.1),
   scM2.view.read (Elt F) (runE c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) h1 h2 h3 h4 x0 x1 p.o3 p.s2 p.s3).2.2.2.2.1,
   scM3.view.read (Elt F) (runE c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) h1 h2 h3 h4 x0 x1 p.o3 p.s2 p.s3).2.2.2.2.2.1⟩

/-- After any other point: every buffer as the run leaves it over `p`. -/
def stG (c : Dev nD) (t : Fin cfg0.N) (h1 : ¬cond1 (grid0.coords t)) (h2 : ¬cond2 (grid0.coords t)) (x0 x1 : Vec F S1x512x1024 .bf16) (p : St F) : St F :=
  ⟨(ms2 t).view.read (Elt F) (runG c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) h1 h2 x0 x1 p.o2 p.o3 p.s0 p.s1 p.s2 p.s3).1,
   (ms3 t).view.read (Elt F) (runG c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) h1 h2 x0 x1 p.o2 p.o3 p.s0 p.s1 p.s2 p.s3).2.1,
   scM0.view.read (Elt F) (runG c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) h1 h2 x0 x1 p.o2 p.o3 p.s0 p.s1 p.s2 p.s3).2.2.1,
   scM1.view.read (Elt F) (runG c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) h1 h2 x0 x1 p.o2 p.o3 p.s0 p.s1 p.s2 p.s3).2.2.2.1,
   scM2.view.read (Elt F) (runG c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) h1 h2 x0 x1 p.o2 p.o3 p.s0 p.s1 p.s2 p.s3).2.2.2.2.1,
   scM3.view.read (Elt F) (runG c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) h1 h2 x0 x1 p.o2 p.o3 p.s0 p.s1 p.s2 p.s3).2.2.2.2.2.1⟩

/-- One point: the six buffers after the body at point `t`, from what they held before it (`p`). -/
def step (c : Dev nD) (t : Fin cfg0.N) (p : St F) : St F :=
  if h16 : t.val % 16 = 0 then
    stA c t ((hcond1 t).mpr (by omega)) ((hcond2 t).mpr h16) (fun h => by have := (hcond3 t).mp h; omega) (fun h => by have := (hcond4 t).mp h; omega) (iblk m c 0 t) (iblk m c 1 t)
  else if h12 : t.val % 16 = 12 then
    stE c t ((hcond1 t).mpr (by omega)) (fun h => h16 ((hcond2 t).mp h)) (fun h => by have := (hcond3 t).mp h; omega) ((hcond4 t).mpr (by omega)) (iblk m c 0 t) (iblk m c 1 t) p
  else if h4 : t.val % 4 = 0 then
    stD c t ((hcond1 t).mpr h4) (fun h => h16 ((hcond2 t).mp h)) (fun h => by have := (hcond3 t).mp h; omega) (fun h => by have := (hcond4 t).mp h; omega) (iblk m c 0 t) (iblk m c 1 t) p
  else
    stG c t (fun h => h4 ((hcond1 t).mp h)) (fun h => h16 ((hcond2 t).mp h)) (iblk m c 0 t) (iblk m c 1 t) p

/-- The same at any number (beyond the grid nothing changes). -/
def stepN (c : Dev nD) (n : ℕ) (p : St F) : St F := if h : n < cfg0.N then step m c ⟨n, h⟩ p else p

/-- The six buffers after point `n`. -/
def stAt (c : Dev nD) : ℕ → St F
  | 0 => stepN m c 0 St.any
  | n + 1 => stepN m c (n + 1) (stAt c n)

/-- What the six buffers held before point `n`: anything before the first, else what the point before left. -/
def stBefore (c : Dev nD) (n : ℕ) : St F := if n = 0 then St.any else stAt m c (n - 1)

theorem stAt_eq (c : Dev nD) (t : Fin cfg0.N) : stAt m c t.val = step m c t (stBefore m c t.val) := by
  obtain ⟨n, hn⟩ := t
  cases n with
  | zero => show stepN m c 0 St.any = _; unfold stepN stBefore; rw [dif_pos hn, if_pos rfl]
  | succ n => show stepN m c (n + 1) (stAt m c n) = _; unfold stepN stBefore; rw [dif_pos hn, if_neg (Nat.succ_ne_zero n)]; rfl

/-- The region invariant before position `n`: before the first point the scratch buffers hold anything; afterwards the
    four statistics the point before left. The generator register is never used. -/
def PhiS (c : Dev nD) : ℕ → sProp 𝕄
  | 0 => Pipeline.ΦA spec0 c
  | n + 1 => iprop(iprop(owns (c : Thread nD τ) scM0 fullShare (stAt m c n).s0 ∗ owns (c : Thread nD τ) scM1 fullShare (stAt m c n).s1
      ∗ owns (c : Thread nD τ) scM2 fullShare (stAt m c n).s2 ∗ owns (c : Thread nD τ) scM3 fullShare (stAt m c n).s3) ∗ (∃ r, prngReg c r))

theorem PhiS_succ (c : Dev nD) (n : ℕ) :
    PhiS m c (n + 1) = iprop(iprop(owns (c : Thread nD τ) scM0 fullShare (stAt m c n).s0 ∗ owns (c : Thread nD τ) scM1 fullShare (stAt m c n).s1
      ∗ owns (c : Thread nD τ) scM2 fullShare (stAt m c n).s2 ∗ owns (c : Thread nD τ) scM3 fullShare (stAt m c n).s3) ∗ (∃ r, prngReg c r)) := rfl

theorem PhiS_pos (c : Dev nD) (n : ℕ) (hz : n ≠ 0) :
    PhiS m c n = iprop(iprop(owns (c : Thread nD τ) scM0 fullShare (stBefore m c n).s0 ∗ owns (c : Thread nD τ) scM1 fullShare (stBefore m c n).s1
      ∗ owns (c : Thread nD τ) scM2 fullShare (stBefore m c n).s2 ∗ owns (c : Thread nD τ) scM3 fullShare (stBefore m c n).s3) ∗ (∃ r, prngReg c r)) := by
  cases n with
  | zero => exact absurd rfl hz
  | succ n => unfold stBefore; rw [if_neg (Nat.succ_ne_zero n)]; rfl

/-- Whatever the position, the invariant holds the four scratch buffers at SOME contents. -/
theorem PhiS_some (c : Dev nD) (n : ℕ) :
    PhiS m c n ⊢ iprop(iprop((∃ d, owns (c : Thread nD τ) scM0 fullShare d) ∗ (∃ d, owns (c : Thread nD τ) scM1 fullShare d)
          ∗ (∃ d, owns (c : Thread nD τ) scM2 fullShare d) ∗ (∃ d, owns (c : Thread nD τ) scM3 fullShare d)) ∗ (∃ r, prngReg c r)) := by
  cases n with
  | zero => show Pipeline.ΦA spec0 c ⊢ _; rw [PhiA_eq]
  | succ n =>
    show iprop(iprop(owns (c : Thread nD τ) scM0 fullShare (stAt m c n).s0 ∗ owns (c : Thread nD τ) scM1 fullShare (stAt m c n).s1
      ∗ owns (c : Thread nD τ) scM2 fullShare (stAt m c n).s2 ∗ owns (c : Thread nD τ) scM3 fullShare (stAt m c n).s3) ∗ (∃ r, prngReg c r)) ⊢ _
    iintro ⟨⟨H0, H1, H2, H3⟩, Hg⟩
    isplitr [Hg]
    · isplitl [H0]; · iexists _; iexact H0
      isplitl [H1]; · iexists _; iexact H1
      isplitl [H2]; · iexists _; iexact H2
      iexists _; iexact H3
    · iexact Hg

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (stAt m c t.val).o2
    | ⟨3, _⟩ => (stAt m c t.val).o3
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (stAt m c t.val).o2 := by dsimp only [dats]
theorem after3 (c : Dev nD) (t : Fin cfg0.N) : (dats m 0 c).after 3 t = (stAt m c t.val).o3 := by dsimp only [dats]

/-- Each input's current staging buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- The row accumulator's buffer is fresh at a row tile's first point (the tile before it was just written back), -/
theorem before2_reset (c : Dev nD) (t : Fin cfg0.N) (h : t.val % 4 = 0) (d) : (dats m 0 c).before 2 t d = d :=
  (dats m 0 c).before_out_reset 2 rfl t (by
    by_cases hz : t.val = 0
    · exact .inl hz
    · exact .inr ⟨hz, (flush0_2 _).mpr (by show (t.val - 1) % 4 = 3; omega)⟩) d
/-- and elsewhere holds what the point before left. -/
theorem before2_kept (c : Dev nD) (t : Fin cfg0.N) (h : t.val % 4 ≠ 0) (d) : (dats m 0 c).before 2 t d = (stBefore m c t.val).o2 := by
  have hz : t.val ≠ 0 := fun h0 => h (by rw [h0])
  rw [(dats m 0 c).before_out_kept 2 rfl t hz (by
      cases hf : (cfg0.win 2).flush ⟨t.val - 1, Nat.lt_of_le_of_lt (Nat.sub_le _ _) t.isLt⟩
      · rfl
      · exact absurd ((flush0_2 _).mp hf) (by show ¬ (t.val - 1) % 4 = 3; omega)) (fun _ => rfl) (fun _ _ => rfl) d, after2]
  unfold stBefore; rw [if_neg hz]
/-- The column accumulator's buffer is fresh at a batch's first point, -/
theorem before3_reset (c : Dev nD) (t : Fin cfg0.N) (h : t.val % 16 = 0) (d) : (dats m 0 c).before 3 t d = d :=
  (dats m 0 c).before_out_reset 3 rfl t (by
    by_cases hz : t.val = 0
    · exact .inl hz
    · exact .inr ⟨hz, (flush0_3 _).mpr (by show (t.val - 1) % 16 = 15; omega)⟩) d
/-- and elsewhere holds what the point before left. -/
theorem before3_kept (c : Dev nD) (t : Fin cfg0.N) (h : t.val % 16 ≠ 0) (d) : (dats m 0 c).before 3 t d = (stBefore m c t.val).o3 := by
  have hz : t.val ≠ 0 := fun h0 => h (by rw [h0])
  rw [(dats m 0 c).before_out_kept 3 rfl t hz (by
      cases hf : (cfg0.win 3).flush ⟨t.val - 1, Nat.lt_of_le_of_lt (Nat.sub_le _ _) t.isLt⟩
      · rfl
      · exact absurd ((flush0_3 _).mp hf) (by show ¬ (t.val - 1) % 16 = 15; omega)) (fun _ => rfl) (fun _ _ => rfl) d, after3]
  unfold stBefore; rw [if_neg hz]

end Cert.Kernel.Body

end
-- ==== Proof.K.Cover.lean ====
/-
  Where a buffer starts afresh at a point, the body's first store into it writes the whole buffer (zeros, or minus
  infinity for a running maximum), so the pieces the run lists for that buffer cover it: whatever it held before the
  point, what it holds afterwards is what the pieces say.
-/
import proofs.«118892_j1881195675895_2_alg».proof.Proof.K.Data
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem coverA5 (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .f32) (harg5 : arg5.IsWhole) (arg6 : Memref sig .tc .vmem S1x2048x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S2048x1 .f32) (harg9 : arg9.IsWhole) (arg10 : Memref sig .tc .vmem S2048x1 .f32) (harg10 : arg10.IsWhole) (hc0 : cond1 i) (hc1 : cond2 i) (hc2 : ¬cond3 i) (hc3 : ¬cond4 i) (x0 x1 : Vec F S1x512x1024 .bf16) (y : S1x512x1024.Idx) :
    ∃ pc ∈ (runA c i arg3 harg3 arg4 harg4 arg5 harg5 arg6 harg6 arg7 harg7 arg8 harg8 arg9 harg9 arg10 harg10 hc0 hc1 hc2 hc3 x0 x1).1, y ∈ pc.1.set := by
  unfold runA
  dsimp only
  refine ⟨_, List.mem_cons_self, ?_⟩
  exact View.mem_set_unit_zero (S := S1x512x1024) (by funext a; fin_cases a <;> rfl) inb_S1x512x1024_S1x512x1024_0_0_0 y

theorem coverA7 (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .f32) (harg5 : arg5.IsWhole) (arg6 : Memref sig .tc .vmem S1x2048x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S2048x1 .f32) (harg9 : arg9.IsWhole) (arg10 : Memref sig .tc .vmem S2048x1 .f32) (harg10 : arg10.IsWhole) (hc0 : cond1 i) (hc1 : cond2 i) (hc2 : ¬cond3 i) (hc3 : ¬cond4 i) (x0 x1 : Vec F S1x512x1024 .bf16) (y : S512x1.Idx) :
    ∃ pc ∈ (runA c i arg3 harg3 arg4 harg4 arg5 harg5 arg6 harg6 arg7 harg7 arg8 harg8 arg9 harg9 arg10 harg10 hc0 hc1 hc2 hc3 x0 x1).2.2.1, y ∈ pc.1.set := by
  unfold runA
  dsimp only
  refine ⟨_, List.mem_cons_self, ?_⟩
  exact View.mem_set_unit_zero (S := S512x1) (by funext a; fin_cases a <;> rfl) inb_S512x1_S512x1_0_0 y

theorem coverA8 (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .f32) (harg5 : arg5.IsWhole) (arg6 : Memref sig .tc .vmem S1x2048x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S2048x1 .f32) (harg9 : arg9.IsWhole) (arg10 : Memref sig .tc .vmem S2048x1 .f32) (harg10 : arg10.IsWhole) (hc0 : cond1 i) (hc1 : cond2 i) (hc2 : ¬cond3 i) (hc3 : ¬cond4 i) (x0 x1 : Vec F S1x512x1024 .bf16) (y : S512x1.Idx) :
    ∃ pc ∈ (runA c i arg3 harg3 arg4 harg4 arg5 harg5 arg6 harg6 arg7 harg7 arg8 harg8 arg9 harg9 arg10 harg10 hc0 hc1 hc2 hc3 x0 x1).2.2.2.1, y ∈ pc.1.set := by
  unfold runA
  dsimp only
  refine ⟨_, List.mem_cons_self, ?_⟩
  exact View.mem_set_unit_zero (S := S512x1) (by funext a; fin_cases a <;> rfl) inb_S512x1_S512x1_0_0 y

theorem coverD5 (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .f32) (harg5 : arg5.IsWhole) (arg6 : Memref sig .tc .vmem S1x2048x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S2048x1 .f32) (harg9 : arg9.IsWhole) (arg10 : Memref sig .tc .vmem S2048x1 .f32) (harg10 : arg10.IsWhole) (hc0 : cond1 i) (hc1 : ¬cond2 i) (hc2 : ¬cond3 i) (hc3 : ¬cond4 i) (x0 x1 : Vec F S1x512x1024 .bf16) (o3 : Vec F S1x2048x1024 .f32) (s2 : Vec F S2048x1 .f32) (s3 : Vec F S2048x1 .f32) (y : S1x512x1024.Idx) :
    ∃ pc ∈ (runD c i arg3 harg3 arg4 harg4 arg5 harg5 arg6 harg6 arg7 harg7 arg8 harg8 arg9 harg9 arg10 harg10 hc0 hc1 hc2 hc3 x0 x1 o3 s2 s3).1, y ∈ pc.1.set := by
  unfold runD
  dsimp only
  refine ⟨_, List.mem_cons_self, ?_⟩
  exact View.mem_set_unit_zero (S := S1x512x1024) (by funext a; fin_cases a <;> rfl) inb_S1x512x1024_S1x512x1024_0_0_0 y

theorem coverD7 (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .f32) (harg5 : arg5.IsWhole) (arg6 : Memref sig .tc .vmem S1x2048x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S2048x1 .f32) (harg9 : arg9.IsWhole) (arg10 : Memref sig .tc .vmem S2048x1 .f32) (harg10 : arg10.IsWhole) (hc0 : cond1 i) (hc1 : ¬cond2 i) (hc2 : ¬cond3 i) (hc3 : ¬cond4 i) (x0 x1 : Vec F S1x512x1024 .bf16) (o3 : Vec F S1x2048x1024 .f32) (s2 : Vec F S2048x1 .f32) (s3 : Vec F S2048x1 .f32) (y : S512x1.Idx) :
    ∃ pc ∈ (runD c i arg3 harg3 arg4 harg4 arg5 harg5 arg6 harg6 arg7 harg7 arg8 harg8 arg9 harg9 arg10 harg10 hc0 hc1 hc2 hc3 x0 x1 o3 s2 s3).2.2.1, y ∈ pc.1.set := by
  unfold runD
  dsimp only
  refine ⟨_, List.mem_cons_self, ?_⟩
  exact View.mem_set_unit_zero (S := S512x1) (by funext a; fin_cases a <;> rfl) inb_S512x1_S512x1_0_0 y

theorem coverD8 (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .f32) (harg5 : arg5.IsWhole) (arg6 : Memref sig .tc .vmem S1x2048x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S2048x1 .f32) (harg9 : arg9.IsWhole) (arg10 : Memref sig .tc .vmem S2048x1 .f32) (harg10 : arg10.IsWhole) (hc0 : cond1 i) (hc1 : ¬cond2 i) (hc2 : ¬cond3 i) (hc3 : ¬cond4 i) (x0 x1 : Vec F S1x512x1024 .bf16) (o3 : Vec F S1x2048x1024 .f32) (s2 : Vec F S2048x1 .f32) (s3 : Vec F S2048x1 .f32) (y : S512x1.Idx) :
    ∃ pc ∈ (runD c i arg3 harg3 arg4 harg4 arg5 harg5 arg6 harg6 arg7 harg7 arg8 harg8 arg9 harg9 arg10 harg10 hc0 hc1 hc2 hc3 x0 x1 o3 s2 s3).2.2.2.1, y ∈ pc.1.set := by
  unfold runD
  dsimp only
  refine ⟨_, List.mem_cons_self, ?_⟩
  exact View.mem_set_unit_zero (S := S512x1) (by funext a; fin_cases a <;> rfl) inb_S512x1_S512x1_0_0 y

theorem coverE5 (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .f32) (harg5 : arg5.IsWhole) (arg6 : Memref sig .tc .vmem S1x2048x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S2048x1 .f32) (harg9 : arg9.IsWhole) (arg10 : Memref sig .tc .vmem S2048x1 .f32) (harg10 : arg10.IsWhole) (hc0 : cond1 i) (hc1 : ¬cond2 i) (hc2 : ¬cond3 i) (hc3 : cond4 i) (x0 x1 : Vec F S1x512x1024 .bf16) (o3 : Vec F S1x2048x1024 .f32) (s2 : Vec F S2048x1 .f32) (s3 : Vec F S2048x1 .f32) (y : S1x512x1024.Idx) :
    ∃ pc ∈ (runE c i arg3 harg3 arg4 harg4 arg5 harg5 arg6 harg6 arg7 harg7 arg8 harg8 arg9 harg9 arg10 harg10 hc0 hc1 hc2 hc3 x0 x1 o3 s2 s3).1, y ∈ pc.1.set := by
  unfold runE
  dsimp only
  refine ⟨_, List.mem_cons_self, ?_⟩
  exact View.mem_set_unit_zero (S := S1x512x1024) (by funext a; fin_cases a <;> rfl) inb_S1x512x1024_S1x512x1024_0_0_0 y

theorem coverE7 (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .f32) (harg5 : arg5.IsWhole) (arg6 : Memref sig .tc .vmem S1x2048x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S2048x1 .f32) (harg9 : arg9.IsWhole) (arg10 : Memref sig .tc .vmem S2048x1 .f32) (harg10 : arg10.IsWhole) (hc0 : cond1 i) (hc1 : ¬cond2 i) (hc2 : ¬cond3 i) (hc3 : cond4 i) (x0 x1 : Vec F S1x512x1024 .bf16) (o3 : Vec F S1x2048x1024 .f32) (s2 : Vec F S2048x1 .f32) (s3 : Vec F S2048x1 .f32) (y : S512x1.Idx) :
    ∃ pc ∈ (runE c i arg3 harg3 arg4 harg4 arg5 harg5 arg6 harg6 arg7 harg7 arg8 harg8 arg9 harg9 arg10 harg10 hc0 hc1 hc2 hc3 x0 x1 o3 s2 s3).2.2.1, y ∈ pc.1.set := by
  unfold runE
  dsimp only
  refine ⟨_, List.mem_cons_self, ?_⟩
  exact View.mem_set_unit_zero (S := S512x1) (by funext a; fin_cases a <;> rfl) inb_S512x1_S512x1_0_0 y

theorem coverE8 (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .f32) (harg5 : arg5.IsWhole) (arg6 : Memref sig .tc .vmem S1x2048x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S2048x1 .f32) (harg9 : arg9.IsWhole) (arg10 : Memref sig .tc .vmem S2048x1 .f32) (harg10 : arg10.IsWhole) (hc0 : cond1 i) (hc1 : ¬cond2 i) (hc2 : ¬cond3 i) (hc3 : cond4 i) (x0 x1 : Vec F S1x512x1024 .bf16) (o3 : Vec F S1x2048x1024 .f32) (s2 : Vec F S2048x1 .f32) (s3 : Vec F S2048x1 .f32) (y : S512x1.Idx) :
    ∃ pc ∈ (runE c i arg3 harg3 arg4 harg4 arg5 harg5 arg6 harg6 arg7 harg7 arg8 harg8 arg9 harg9 arg10 harg10 hc0 hc1 hc2 hc3 x0 x1 o3 s2 s3).2.2.2.1, y ∈ pc.1.set := by
  unfold runE
  dsimp only
  refine ⟨_, List.mem_cons_self, ?_⟩
  exact View.mem_set_unit_zero (S := S512x1) (by funext a; fin_cases a <;> rfl) inb_S512x1_S512x1_0_0 y

theorem coverA6 (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .f32) (harg5 : arg5.IsWhole) (arg6 : Memref sig .tc .vmem S1x2048x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S2048x1 .f32) (harg9 : arg9.IsWhole) (arg10 : Memref sig .tc .vmem S2048x1 .f32) (harg10 : arg10.IsWhole) (hc0 : cond1 i) (hc1 : cond2 i) (hc2 : ¬cond3 i) (hc3 : ¬cond4 i) (x0 x1 : Vec F S1x512x1024 .bf16) (y : S1x2048x1024.Idx) :
    ∃ pc ∈ (runA c i arg3 harg3 arg4 harg4 arg5 harg5 arg6 harg6 arg7 harg7 arg8 harg8 arg9 harg9 arg10 harg10 hc0 hc1 hc2 hc3 x0 x1).2.1, y ∈ pc.1.set := by
  unfold runA
  dsimp only
  unfold runA.sl.H3_1
  refine ⟨_, List.mem_cons_of_mem _ List.mem_cons_self, ?_⟩
  exact View.mem_set_unit_zero (S := S1x2048x1024) (by funext a; fin_cases a <;> rfl) inb_S1x2048x1024_S1x2048x1024_0_0_0 y

theorem coverA9 (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .f32) (harg5 : arg5.IsWhole) (arg6 : Memref sig .tc .vmem S1x2048x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S2048x1 .f32) (harg9 : arg9.IsWhole) (arg10 : Memref sig .tc .vmem S2048x1 .f32) (harg10 : arg10.IsWhole) (hc0 : cond1 i) (hc1 : cond2 i) (hc2 : ¬cond3 i) (hc3 : ¬cond4 i) (x0 x1 : Vec F S1x512x1024 .bf16) (y : S2048x1.Idx) :
    ∃ pc ∈ (runA c i arg3 harg3 arg4 harg4 arg5 harg5 arg6 harg6 arg7 harg7 arg8 harg8 arg9 harg9 arg10 harg10 hc0 hc1 hc2 hc3 x0 x1).2.2.2.2.1, y ∈ pc.1.set := by
  unfold runA
  dsimp only
  unfold runA.sl.S2_1
  refine ⟨_, List.mem_cons_of_mem _ List.mem_cons_self, ?_⟩
  exact View.mem_set_unit_zero (S := S2048x1) (by funext a; fin_cases a <;> rfl) inb_S2048x1_S2048x1_0_0 y

theorem coverA10 (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .f32) (harg5 : arg5.IsWhole) (arg6 : Memref sig .tc .vmem S1x2048x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S2048x1 .f32) (harg9 : arg9.IsWhole) (arg10 : Memref sig .tc .vmem S2048x1 .f32) (harg10 : arg10.IsWhole) (hc0 : cond1 i) (hc1 : cond2 i) (hc2 : ¬cond3 i) (hc3 : ¬cond4 i) (x0 x1 : Vec F S1x512x1024 .bf16) (y : S2048x1.Idx) :
    ∃ pc ∈ (runA c i arg3 harg3 arg4 harg4 arg5 harg5 arg6 harg6 arg7 harg7 arg8 harg8 arg9 harg9 arg10 harg10 hc0 hc1 hc2 hc3 x0 x1).2.2.2.2.2.1, y ∈ pc.1.set := by
  unfold runA
  dsimp only
  unfold runA.sl.S3_1
  refine ⟨_, List.mem_cons_of_mem _ List.mem_cons_self, ?_⟩
  exact View.mem_set_unit_zero (S := S2048x1) (by funext a; fin_cases a <;> rfl) inb_S2048x1_S2048x1_0_0 y

end Cert.Kernel.Body
end
-- ==== Proof.K.Sound.lean ====
/-
  The body at any point meets the pipeline's obligation: the inputs' buffers hold their blocks, each output buffer and each
  scratch buffer holds either anything (where the point starts it afresh) or what the point before left, the run of the
  point's case applies, and what it leaves is by definition the next state. Hence the frame: the program runs to the
  end, faults nowhere, and leaves its argument arrays unchanged.
-/
import proofs.«118892_j1881195675895_2_alg».proof.Proof.K.Cover
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem PhiS_castSucc (c : Dev nD) (t : Fin cfg0.N) : (dats m 0 c).Φ t.castSucc = PhiS m c t.val := by
  dsimp only [dats]; simp only [Fin.coe_castSucc]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) from rfl, PhiS_succ, PhiS_castSucc]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [stAt_eq m c t]
  unfold step
  by_cases h16 : t.val % 16 = 0
  · rw [dif_pos h16]
    simp only [before2_reset m c t (by omega), before3_reset m c t h16]
    unfold stA; dsimp only
    iintro ⟨HΦ, Ho, ⟨%d0, H0⟩, ⟨%d1, H1⟩, H2, H3⟩
    ihave HΦ' := (PhiS_some m c t.val) $$ HΦ
    icases HΦ' with ⟨⟨S0, S1, S2, S3⟩, Hg⟩
    iapply ((runA c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) ((hcond1 t).mpr (by omega)) ((hcond2 t).mpr h16) (fun h => by have := (hcond3 t).mp h; omega) (fun h => by have := (hcond4 t).mp h; omega) (iblk m c 0 t) (iblk m c 1 t)).2.2.2.2.2.2 Set.univ _)
    isplitl [H0]; · iexact H0
    isplitl [H1]; · iexact H1
    isplitl [H2]; · iexact H2
    isplitl [H3]; · iexact H3
    isplitl [S0]; · iexact S0
    isplitl [S1]; · iexact S1
    isplitl [S2]; · iexact S2
    isplitl [S3]; · iexact S3
    iintro ⟨H0, H1, ⟨%e2, H2⟩, ⟨%e3, H3⟩, ⟨%e7, S0⟩, ⟨%e8, S1⟩, ⟨%e9, S2⟩, ⟨%e10, S3⟩⟩
    isplitl [S0 S1 S2 S3 Hg]
    · isplitr [Hg]
      · isplitl [S0]
        · unfold owns; iexists _; isplitr
          swap; · iexact S0
          ipureintro; exact View.read_writes_of_cover _ _ _ _ _ (coverA7 c _ _ _ _ _ _ _ _ _ _ _ _ _ _ _ _ _ _ _ _ _ _ _)
        isplitl [S1]
        · unfold owns; iexists _; isplitr
          swap; · iexact S1
          ipureintro; exact View.read_writes_of_cover _ _ _ _ _ (coverA8 c _ _ _ _ _ _ _ _ _ _ _ _ _ _ _ _ _ _ _ _ _ _ _)
        isplitl [S2]
        · unfold owns; iexists _; isplitr
          swap; · iexact S2
          ipureintro; exact View.read_writes_of_cover _ _ _ _ _ (coverA9 c _ _ _ _ _ _ _ _ _ _ _ _ _ _ _ _ _ _ _ _ _ _ _)
        unfold owns; iexists _; isplitr
        swap; · iexact S3
        ipureintro; exact View.read_writes_of_cover _ _ _ _ _ (coverA10 c _ _ _ _ _ _ _ _ _ _ _ _ _ _ _ _ _ _ _ _ _ _ _)
      · iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverA5 c _ _ _ _ _ _ _ _ _ _ _ _ _ _ _ _ _ _ _ _ _ _ _)
    unfold owns; iexists _; isplitr
    swap; · iexact H3
    ipureintro; exact View.read_writes_of_cover _ _ _ _ _ (coverA6 c _ _ _ _ _ _ _ _ _ _ _ _ _ _ _ _ _ _ _ _ _ _ _)
  · rw [dif_neg h16]
    have hz : t.val ≠ 0 := fun h0 => h16 (by rw [h0])
    rw [PhiS_pos m c t.val hz]
    by_cases h12 : t.val % 16 = 12
    · rw [dif_pos h12]
      simp only [before2_reset m c t (by omega), before3_kept m c t h16]
      unfold stE; dsimp only
      iintro ⟨⟨⟨S0, S1, S2, S3⟩, Hg⟩, Ho, ⟨%d0, H0⟩, ⟨%d1, H1⟩, H2, ⟨%d3, H3⟩⟩
      iapply ((runE c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) ((hcond1 t).mpr (by omega)) (fun h => h16 ((hcond2 t).mp h)) (fun h => by have := (hcond3 t).mp h; omega) ((hcond4 t).mpr (by omega)) (iblk m c 0 t) (iblk m c 1 t) _ _ _).2.2.2.2.2.2 Set.univ _)
      isplitl [H0]; · iexact H0
      isplitl [H1]; · iexact H1
      isplitl [H2]; · iexact H2
      isplitl [H3]; · iexact H3
      isplitl [S0]; · iexists _; iexact S0
      isplitl [S1]; · iexists _; iexact S1
      isplitl [S2]; · iexact S2
      isplitl [S3]; · iexact S3
      iintro ⟨H0, H1, ⟨%e2, H2⟩, H3, ⟨%e7, S0⟩, ⟨%e8, S1⟩, S2, S3⟩
      isplitl [S0 S1 S2 S3 Hg]
      · isplitr [Hg]
        · isplitl [S0]
          · unfold owns; iexists _; isplitr
            swap; · iexact S0
            ipureintro; exact View.read_writes_of_cover _ _ _ _ _ (coverE7 c _ _ _ _ _ _ _ _ _ _ _ _ _ _ _ _ _ _ _ _ _ _ _ _ _ _)
          isplitl [S1]
          · unfold owns; iexists _; isplitr
            swap; · iexact S1
            ipureintro; exact View.read_writes_of_cover _ _ _ _ _ (coverE8 c _ _ _ _ _ _ _ _ _ _ _ _ _ _ _ _ _ _ _ _ _ _ _ _ _ _)
          isplitl [S2]
          · unfold owns; iexists _; isplitr
            swap; · iexact S2
            ipureintro; rfl
          unfold owns; iexists _; isplitr
          swap; · iexact S3
          ipureintro; rfl
        · iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverE5 c _ _ _ _ _ _ _ _ _ _ _ _ _ _ _ _ _ _ _ _ _ _ _ _ _ _)
      unfold owns; iexists _; isplitr
      swap; · iexact H3
      ipureintro; rfl
    · rw [dif_neg h12]
      by_cases h4 : t.val % 4 = 0
      · rw [dif_pos h4]
        simp only [before2_reset m c t h4, before3_kept m c t h16]
        unfold stD; dsimp only
        iintro ⟨⟨⟨S0, S1, S2, S3⟩, Hg⟩, Ho, ⟨%d0, H0⟩, ⟨%d1, H1⟩, H2, ⟨%d3, H3⟩⟩
        iapply ((runD c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) ((hcond1 t).mpr h4) (fun h => h16 ((hcond2 t).mp h)) (fun h => by have := (hcond3 t).mp h; omega) (fun h => by have := (hcond4 t).mp h; omega) (iblk m c 0 t) (iblk m c 1 t) _ _ _).2.2.2.2.2.2 Set.univ _)
        isplitl [H0]; · iexact H0
        isplitl [H1]; · iexact H1
        isplitl [H2]; · iexact H2
        isplitl [H3]; · iexact H3
        isplitl [S0]; · iexists _; iexact S0
        isplitl [S1]; · iexists _; iexact S1
        isplitl [S2]; · iexact S2
        isplitl [S3]; · iexact S3
        iintro ⟨H0, H1, ⟨%e2, H2⟩, H3, ⟨%e7, S0⟩, ⟨%e8, S1⟩, S2, S3⟩
        isplitl [S0 S1 S2 S3 Hg]
        · isplitr [Hg]
          · isplitl [S0]
            · unfold owns; iexists _; isplitr
              swap; · iexact S0
              ipureintro; exact View.read_writes_of_cover _ _ _ _ _ (coverD7 c _ _ _ _ _ _ _ _ _ _ _ _ _ _ _ _ _ _ _ _ _ _ _ _ _ _)
            isplitl [S1]
            · unfold owns; iexists _; isplitr
              swap; · iexact S1
              ipureintro; exact View.read_writes_of_cover _ _ _ _ _ (coverD8 c _ _ _ _ _ _ _ _ _ _ _ _ _ _ _ _ _ _ _ _ _ _ _ _ _ _)
            isplitl [S2]
            · unfold owns; iexists _; isplitr
              swap; · iexact S2
              ipureintro; rfl
            unfold owns; iexists _; isplitr
            swap; · iexact S3
            ipureintro; rfl
          · iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (coverD5 c _ _ _ _ _ _ _ _ _ _ _ _ _ _ _ _ _ _ _ _ _ _ _ _ _ _)
        unfold owns; iexists _; isplitr
        swap; · iexact H3
        ipureintro; rfl
      · rw [dif_neg h4]
        simp only [before2_kept m c t h4, before3_kept m c t h16]
        unfold stG; dsimp only
        iintro ⟨⟨⟨S0, S1, S2, S3⟩, Hg⟩, Ho, ⟨%d0, H0⟩, ⟨%d1, H1⟩, ⟨%d2, H2⟩, ⟨%d3, H3⟩⟩
        iapply ((runG c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) (fun h => h4 ((hcond1 t).mp h)) (fun h => h16 ((hcond2 t).mp h)) (iblk m c 0 t) (iblk m c 1 t) _ _ _ _ _ _).2.2.2.2.2.2 Set.univ _)
        isplitl [H0]; · iexact H0
        isplitl [H1]; · iexact H1
        isplitl [H2]; · iexact H2
        isplitl [H3]; · iexact H3
        isplitl [S0]; · iexact S0
        isplitl [S1]; · iexact S1
        isplitl [S2]; · iexact S2
        isplitl [S3]; · iexact S3
        iintro ⟨H0, H1, H2, H3, S0, S1, S2, S3⟩
        isplitl [S0 S1 S2 S3 Hg]
        · isplitr [Hg]
          · isplitl [S0]
            · unfold owns; iexists _; isplitr
              swap; · iexact S0
              ipureintro; rfl
            isplitl [S1]
            · unfold owns; iexists _; isplitr
              swap; · iexact S1
              ipureintro; rfl
            isplitl [S2]
            · unfold owns; iexists _; isplitr
              swap; · iexact S2
              ipureintro; rfl
            unfold owns; iexists _; isplitr
            swap; · iexact S3
            ipureintro; rfl
          · iexact Hg
        isplitl [Ho]; · iexact Ho
        isplitl [H0]; · iexact H0
        isplitl [H1]; · iexact H1
        isplitl [H2]
        · unfold owns; iexists _; isplitr
          swap; · iexact H2
          ipureintro; rfl
        unfold owns; iexists _; isplitr
        swap; · iexact H3
        ipureintro; rfl

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  show Pipeline.ΦA spec0 c ⊢ PhiS m c 0
  exact Idealize.SL.BI.Entails.refl _

/-- After the last point the invariant gives the scratch buffers back at some contents. -/
theorem hout (c : Dev nD) : (dats m 0 c).Φ (Fin.last cfg0.N) ⊢ Pipeline.ΦA spec0 c := by
  show PhiS m c (Fin.last cfg0.N).val ⊢ _
  rw [PhiA_eq]
  exact PhiS_some m c _

set_option backward.isDefEq.respectTransparency.types false in
/-- Every weakly fair execution of the program terminates without a fault, every array of the pipeline ending at what
    the write-backs of `dats` make it and every other buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KI.Cases.lean ====
/-
  The grid is 8 batches × 4 row tiles (qi) × 4 column tiles (ki), walked with ki innermost: point t is
  (b, qi, ki) with t = 16 b + 4 qi + ki. The body has four guarded regions, each a test of the coordinates:
  ki = 0 (the row statistics and the row accumulator start afresh), qi = 0 and ki = 0 (the column statistics and the
  column accumulator start afresh), ki = 3 (the row accumulator is normalised) and qi = 3 (the current column slice is
  normalised). This module states the four tests as the body computes them, decides where on the grid each holds, and
  names the memrefs the body is called with.
-/
import proofs.«118892_j1881195675895_2_alg».proof.Proof.Gen.KernelIdeal.Frame
import proofs.«118892_j1881195675895_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The coordinates ki and qi as the words the body tests. -/
abbrev kiW (i : grid0.Coords) : BitVec 32 := BitVec.ofNat 32 (i 2).val
abbrev qiW (i : grid0.Coords) : BitVec 32 := BitVec.ofNat 32 (i 1).val

/-- ki = 0. -/
abbrev cond1 (i : grid0.Coords) : Prop := Scalar.cmpi .ne (Scalar.extui (Scalar.cmpi .eq (kiW i) 0#32)) 0#32 = 1#1
/-- qi = 0 and ki = 0. -/
abbrev cond2 (i : grid0.Coords) : Prop := Scalar.cmpi .ne (Scalar.extui (Scalar.andi (Scalar.cmpi .eq (qiW i) 0#32) (Scalar.cmpi .eq (kiW i) 0#32))) 0#32 = 1#1
/-- ki = 3. -/
abbrev cond3 (i : grid0.Coords) : Prop := Scalar.cmpi .ne (Scalar.extui (Scalar.cmpi .eq (kiW i) 3#32)) 0#32 = 1#1
/-- qi = 3. -/
abbrev cond4 (i : grid0.Coords) : Prop := k0_cond4 i = 1#1

/-- Where each test holds, by the point's number. -/
theorem hcond1 : ∀ t : Fin cfg0.N, cond1 (grid0.coords t) ↔ t.val % 4 = 0 :=
  (by decide +kernel : ∀ t : Fin grid0.N, cond1 (grid0.coords t) ↔ t.val % 4 = 0)
theorem hcond2 : ∀ t : Fin cfg0.N, cond2 (grid0.coords t) ↔ t.val % 16 = 0 :=
  (by decide +kernel : ∀ t : Fin grid0.N, cond2 (grid0.coords t) ↔ t.val % 16 = 0)
theorem hcond3 : ∀ t : Fin cfg0.N, cond3 (grid0.coords t) ↔ t.val % 4 = 3 :=
  (by decide +kernel : ∀ t : Fin grid0.N, cond3 (grid0.coords t) ↔ t.val % 4 = 3)
theorem hcond4 : ∀ t : Fin cfg0.N, cond4 (grid0.coords t) ↔ 12 ≤ t.val % 16 :=
  (by decide +kernel : ∀ t : Fin grid0.N, cond4 (grid0.coords t) ↔ 12 ≤ t.val % 16)

/-- Every window is stored into (or only read) at every point: none is ever idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel

/-- Each window's current staging memref at point `t`, as the pipeline passes it to the body, and its wholeness. -/
abbrev ms0 (t : Fin cfg0.N) : Memref sig .tc .vmem S1x512x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048x1024 .f32 := win0_3.stage (cfg0.slots t 3)
abbrev hs3 (t : Fin cfg0.N) : (ms3 t).IsWhole := hstage0_3 ((cfg0.slots t 3).cast nbuf0_3)
/-- The four scratch buffers: the running row maximum and row sum (one entry per row of the tile), the running column
    maximum and column sum (one entry per column of the whole score matrix of the batch). -/
abbrev scM0 : Memref sig .tc .vmem S512x1 .f32 := Memref.whole cc0_scratch0
abbrev scM1 : Memref sig .tc .vmem S512x1 .f32 := Memref.whole cc0_scratch1
abbrev scM2 : Memref sig .tc .vmem S2048x1 .f32 := Memref.whole cc0_scratch2
abbrev scM3 : Memref sig .tc .vmem S2048x1 .f32 := Memref.whole cc0_scratch3

/-- What the region hands the body beside the windows: the four scratch buffers, each at some contents, and the
    generator register at some state. -/
theorem PhiA_eq (c : Dev nD) :
    (Pipeline.ΦA spec0 c : sProp 𝕄)
      = iprop(iprop((∃ d, owns (c : Thread nD τ) scM0 fullShare d) ∗ (∃ d, owns (c : Thread nD τ) scM1 fullShare d)
          ∗ (∃ d, owns (c : Thread nD τ) scM2 fullShare d) ∗ (∃ d, owns (c : Thread nD τ) scM3 fullShare d)) ∗ (∃ r, prngReg c r)) := by
  unfold Pipeline.ΦA; rw [scopedRest0_eq]; simp only [scM0, scM1, scM2, scM3, owns_whole]; try rfl

end Cert.KernelIdeal.Body

end
-- ==== Proof.KI.RunG.lean ====
/-
  The body at a point with ki ≠ 0: nothing starts afresh, every buffer is read before it is stored into. Run once for any
  such point, from any contents of the two input blocks, the two output staging buffers and the four scratch buffers;
  the two normalisations (ki = 3, qi = 3) stay as conditionals in what the run finds each buffer to hold afterwards.
-/
import proofs.«118892_j1881195675895_2_alg».proof.Proof.KI.Cases
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runG (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .f32) (harg5 : arg5.IsWhole) (arg6 : Memref sig .tc .vmem S1x2048x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S2048x1 .f32) (harg9 : arg9.IsWhole) (arg10 : Memref sig .tc .vmem S2048x1 .f32) (harg10 : arg10.IsWhole)
    (hc0 : ¬cond1 i) (hc1 : ¬cond2 i)
    (x0 : Vec F S1x512x1024 .bf16) (x1 : Vec F S1x512x1024 .bf16) (o2 : Vec F S1x512x1024 .f32) (o3 : Vec F S1x2048x1024 .f32) (s0 : Vec F S512x1 .f32) (s1 : Vec F S512x1 .f32) (s2 : Vec F S2048x1 .f32) (s3 : Vec F S2048x1 .f32) :
    Σ' (f2 : Buf (Elt F) (arg5.view.loc (c : Thread nD τ))) (f3 : Buf (Elt F) (arg6.view.loc (c : Thread nD τ))) (g0 : Buf (Elt F) (arg7.view.loc (c : Thread nD τ))) (g1 : Buf (Elt F) (arg8.view.loc (c : Thread nD τ))) (g2 : Buf (Elt F) (arg9.view.loc (c : Thread nD τ))), { g3 : Buf (Elt F) (arg10.view.loc (c : Thread nD τ)) //
      ∀ (E : Set ℕ) (K : PUnit → sProp 𝕄),
        iprop(owns (c : Thread nD τ) arg3 fullShare x0 ∗ owns (c : Thread nD τ) arg4 fullShare x1 ∗ owns (c : Thread nD τ) arg5 fullShare o2 ∗ owns (c : Thread nD τ) arg6 fullShare o3 ∗ owns (c : Thread nD τ) arg7 fullShare s0 ∗ owns (c : Thread nD τ) arg8 fullShare s1 ∗ owns (c : Thread nD τ) arg9 fullShare s2 ∗ owns (c : Thread nD τ) arg10 fullShare s3
            ∗ (iprop(owns (c : Thread nD τ) arg3 fullShare x0 ∗ owns (c : Thread nD τ) arg4 fullShare x1 ∗ (arg5.view.loc (c : Thread nD τ) ↦[arg5.view.set]{fullShare} f2) ∗ (arg6.view.loc (c : Thread nD τ) ↦[arg6.view.set]{fullShare} f3) ∗ (arg7.view.loc (c : Thread nD τ) ↦[arg7.view.set]{fullShare} g0) ∗ (arg8.view.loc (c : Thread nD τ) ↦[arg8.view.set]{fullShare} g1) ∗ (arg9.view.loc (c : Thread nD τ) ↦[arg9.view.set]{fullShare} g2) ∗ (arg10.view.loc (c : Thread nD τ) ↦[arg10.view.set]{fullShare} g3)) -∗ K ⟨⟩))
          ⊢ wp frame (wpE (defs₀ (F := F)) Variants.none c none) E (cc0__co_attention_kernel i arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0__co_attention_kernel_eq_skeleton]; unfold cc0__co_attention_kernel_skel
    unfold owns
    iintro ⟨⟨%f0, %hf0, H0⟩, ⟨%f1, %hf1, H1⟩, ⟨%f2, %hf2, H2⟩, ⟨%f3, %hf3, H3⟩, ⟨%g0, %hg0, S0⟩, ⟨%g1, %hg1, S1⟩, ⟨%g2, %hg2, S2⟩, ⟨%g3, %hg3, S3⟩, Hk⟩
    obtain rfl := harg3.eq_unread hf0; obtain rfl := harg4.eq_unread hf1; obtain rfl := harg5.eq_unread hf2; obtain rfl := harg6.eq_unread hf3; obtain rfl := harg7.eq_unread hg0; obtain rfl := harg8.eq_unread hg1; obtain rfl := harg9.eq_unread hg2; obtain rfl := harg10.eq_unread hg3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexact H2
    isplitl [H3]
    · iexact H3
    isplitl [S0]
    · iexact S0
    isplitl [S1]
    · iexact S1
    isplitl [S2]
    · iexact S2
    iexact S3

end Cert.KernelIdeal.Body

end
-- ==== Proof.KI.RunA.lean ====
/-
  The body at a batch's first point (qi = 0, ki = 0): every output staging buffer and every scratch buffer is stored
  whole before it is read, so what they hold afterwards does not depend on what they held before.
-/
import proofs.«118892_j1881195675895_2_alg».proof.Proof.KI.RunG
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runA (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .f32) (harg5 : arg5.IsWhole) (arg6 : Memref sig .tc .vmem S1x2048x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S2048x1 .f32) (harg9 : arg9.IsWhole) (arg10 : Memref sig .tc .vmem S2048x1 .f32) (harg10 : arg10.IsWhole)
    (hc0 : cond1 i) (hc1 : cond2 i) (hc2 : ¬cond3 i) (hc3 : ¬cond4 i)
    (x0 : Vec F S1x512x1024 .bf16) (x1 : Vec F S1x512x1024 .bf16) :
    Σ' (L2 : List (View.Piece (Elt F) S1x512x1024 .f32)) (L3 : List (View.Piece (Elt F) S1x2048x1024 .f32)) (M0 : List (View.Piece (Elt F) S512x1 .f32)) (M1 : List (View.Piece (Elt F) S512x1 .f32)) (M2 : List (View.Piece (Elt F) S2048x1 .f32)), { M3 : List (View.Piece (Elt F) S2048x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f M0) ∗ (∃ f, arg8.view.loc (c : Thread nD τ) ↦[arg8.view.set]{fullShare} arg8.view.writes (Elt F) f M1) ∗ (∃ f, arg9.view.loc (c : Thread nD τ) ↦[arg9.view.set]{fullShare} arg9.view.writes (Elt F) f M2) ∗ (∃ f, arg10.view.loc (c : Thread nD τ) ↦[arg10.view.set]{fullShare} arg10.view.writes (Elt F) f M3)) -∗ K ⟨⟩))
          ⊢ wp frame (wpE (defs₀ (F := F)) Variants.none c none) E (cc0__co_attention_kernel i arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0__co_attention_kernel_eq_skeleton]; unfold cc0__co_attention_kernel_skel
    unfold owns
    iintro ⟨⟨%f0, %hf0, H0⟩, ⟨%f1, %hf1, H1⟩, ⟨%d5, %f2, -, H2⟩, ⟨%d6, %f3, -, H3⟩, ⟨%d7, %g0, -, S0⟩, ⟨%d8, %g1, -, S1⟩, ⟨%d9, %g2, -, S2⟩, ⟨%d10, %g3, -, S3⟩, Hk⟩
    obtain rfl := harg3.eq_unread hf0; obtain rfl := harg4.eq_unread hf1
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    isplitl [H3]
    · iexists _; iexact H3
    isplitl [S0]
    · iexists _; iexact S0
    isplitl [S1]
    · iexists _; iexact S1
    isplitl [S2]
    · iexists _; iexact S2
    iexists _; iexact S3

end Cert.KernelIdeal.Body

end
-- ==== Proof.KI.RunD.lean ====
/-
  The body at the first point of a row tile that is neither the batch's first nor its last (ki = 0, qi = 1 or 2): the row
  accumulator and the row statistics are stored whole before they are read; the column accumulator and statistics carry on.
-/
import proofs.«118892_j1881195675895_2_alg».proof.Proof.KI.RunA
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runD (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .f32) (harg5 : arg5.IsWhole) (arg6 : Memref sig .tc .vmem S1x2048x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S2048x1 .f32) (harg9 : arg9.IsWhole) (arg10 : Memref sig .tc .vmem S2048x1 .f32) (harg10 : arg10.IsWhole)
    (hc0 : cond1 i) (hc1 : ¬cond2 i) (hc2 : ¬cond3 i) (hc3 : ¬cond4 i)
    (x0 : Vec F S1x512x1024 .bf16) (x1 : Vec F S1x512x1024 .bf16) (o3 : Vec F S1x2048x1024 .f32) (s2 : Vec F S2048x1 .f32) (s3 : Vec F S2048x1 .f32) :
    Σ' (L2 : List (View.Piece (Elt F) S1x512x1024 .f32)) (f3 : Buf (Elt F) (arg6.view.loc (c : Thread nD τ))) (M0 : List (View.Piece (Elt F) S512x1 .f32)) (M1 : List (View.Piece (Elt F) S512x1 .f32)) (g2 : Buf (Elt F) (arg9.view.loc (c : Thread nD τ))), { g3 : Buf (Elt F) (arg10.view.loc (c : Thread nD τ)) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare o3 ∗ (∃ d, owns (c : Thread nD τ) arg7 fullShare d) ∗ (∃ d, owns (c : Thread nD τ) arg8 fullShare d) ∗ owns (c : Thread nD τ) arg9 fullShare s2 ∗ owns (c : Thread nD τ) arg10 fullShare s3
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (arg6.view.loc (c : Thread nD τ) ↦[arg6.view.set]{fullShare} f3) ∗ (∃ f, arg7.view.loc (c : Thread nD τ) ↦[arg7.view.set]{fullShare} arg7.view.writes (Elt F) f M0) ∗ (∃ f, arg8.view.loc (c : Thread nD τ) ↦[arg8.view.set]{fullShare} arg8.view.writes (Elt F) f M1) ∗ (arg9.view.loc (c : Thread nD τ) ↦[arg9.view.set]{fullShare} g2) ∗ (arg10.view.loc (c : Thread nD τ) ↦[arg10.view.set]{fullShare} g3)) -∗ K ⟨⟩))
          ⊢ wp frame (wpE (defs₀ (F := F)) Variants.none c none) E (cc0__co_attention_kernel i arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0__co_attention_kernel_eq_skeleton]; unfold cc0__co_attention_kernel_skel
    unfold owns
    iintro ⟨⟨%f0, %hf0, H0⟩, ⟨%f1, %hf1, H1⟩, ⟨%d5, %f2, -, H2⟩, ⟨%f3, %hf3, H3⟩, ⟨%d7, %g0, -, S0⟩, ⟨%d8, %g1, -, S1⟩, ⟨%g2, %hg2, S2⟩, ⟨%g3, %hg3, S3⟩, Hk⟩
    obtain rfl := harg3.eq_unread hf0; obtain rfl := harg4.eq_unread hf1; obtain rfl := harg6.eq_unread hf3; obtain rfl := harg9.eq_unread hg2; obtain rfl := harg10.eq_unread hg3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    isplitl [H3]
    · iexact H3
    isplitl [S0]
    · iexists _; iexact S0
    isplitl [S1]
    · iexists _; iexact S1
    isplitl [S2]
    · iexact S2
    iexact S3

end Cert.KernelIdeal.Body

end
-- ==== Proof.KI.RunE.lean ====
/-
  The body at the first point of a batch's last row tile (ki = 0, qi = 3): as for the other row tiles' first points, and the
  current column slice is normalised.
-/
import proofs.«118892_j1881195675895_2_alg».proof.Proof.KI.RunD
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runE (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .f32) (harg5 : arg5.IsWhole) (arg6 : Memref sig .tc .vmem S1x2048x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S2048x1 .f32) (harg9 : arg9.IsWhole) (arg10 : Memref sig .tc .vmem S2048x1 .f32) (harg10 : arg10.IsWhole)
    (hc0 : cond1 i) (hc1 : ¬cond2 i) (hc2 : ¬cond3 i) (hc3 : cond4 i)
    (x0 : Vec F S1x512x1024 .bf16) (x1 : Vec F S1x512x1024 .bf16) (o3 : Vec F S1x2048x1024 .f32) (s2 : Vec F S2048x1 .f32) (s3 : Vec F S2048x1 .f32) :
    Σ' (L2 : List (View.Piece (Elt F) S1x512x1024 .f32)) (f3 : Buf (Elt F) (arg6.view.loc (c : Thread nD τ))) (M0 : List (View.Piece (Elt F) S512x1 .f32)) (M1 : List (View.Piece (Elt F) S512x1 .f32)) (g2 : Buf (Elt F) (arg9.view.loc (c : Thread nD τ))), { g3 : Buf (Elt F) (arg10.view.loc (c : Thread nD τ)) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare o3 ∗ (∃ d, owns (c : Thread nD τ) arg7 fullShare d) ∗ (∃ d, owns (c : Thread nD τ) arg8 fullShare d) ∗ owns (c : Thread nD τ) arg9 fullShare s2 ∗ owns (c : Thread nD τ) arg10 fullShare s3
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (arg6.view.loc (c : Thread nD τ) ↦[arg6.view.set]{fullShare} f3) ∗ (∃ f, arg7.view.loc (c : Thread nD τ) ↦[arg7.view.set]{fullShare} arg7.view.writes (Elt F) f M0) ∗ (∃ f, arg8.view.loc (c : Thread nD τ) ↦[arg8.view.set]{fullShare} arg8.view.writes (Elt F) f M1) ∗ (arg9.view.loc (c : Thread nD τ) ↦[arg9.view.set]{fullShare} g2) ∗ (arg10.view.loc (c : Thread nD τ) ↦[arg10.view.set]{fullShare} g3)) -∗ K ⟨⟩))
          ⊢ wp frame (wpE (defs₀ (F := F)) Variants.none c none) E (cc0__co_attention_kernel i arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0__co_attention_kernel_eq_skeleton]; unfold cc0__co_attention_kernel_skel
    unfold owns
    iintro ⟨⟨%f0, %hf0, H0⟩, ⟨%f1, %hf1, H1⟩, ⟨%d5, %f2, -, H2⟩, ⟨%f3, %hf3, H3⟩, ⟨%d7, %g0, -, S0⟩, ⟨%d8, %g1, -, S1⟩, ⟨%g2, %hg2, S2⟩, ⟨%g3, %hg3, S3⟩, Hk⟩
    obtain rfl := harg3.eq_unread hf0; obtain rfl := harg4.eq_unread hf1; obtain rfl := harg6.eq_unread hf3; obtain rfl := harg9.eq_unread hg2; obtain rfl := harg10.eq_unread hg3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    isplitl [H3]
    · iexact H3
    isplitl [S0]
    · iexists _; iexact S0
    isplitl [S1]
    · iexists _; iexact S1
    isplitl [S2]
    · iexact S2
    iexact S3

end Cert.KernelIdeal.Body

end
-- ==== Proof.KI.Data.lean ====
/-
  What the body carries from point to point: the two output staging buffers (the row accumulator, one 512×1024 block per
  row tile; the column accumulator, the batch's whole 2048×1024 block) and the four scratch buffers (row maximum, row sum,
  column maximum, column sum). `step` is one point: from what these six held before it to what they hold after it, the run
  chosen by the point's number (t ≡ 0 mod 16: everything starts afresh; t ≡ 4, 8 mod 16 and t ≡ 12 mod 16: the row side
  starts afresh; otherwise everything carries on). `stAt n` iterates it from the first point. The pipeline's proof data
  then says: after point t the inputs' buffers hold their blocks and the outputs' the two accumulators of `stAt t`, and
  between points the scratch buffers hold its four statistics.
-/
import proofs.«118892_j1881195675895_2_alg».proof.Proof.KI.RunE
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents of the six buffers the body carries. -/
structure St (F : FTy → Type) where
  o2 : Vec F S1x512x1024 .f32
  o3 : Vec F S1x2048x1024 .f32
  s0 : Vec F S512x1 .f32
  s1 : Vec F S512x1 .f32
  s2 : Vec F S2048x1 .f32
  s3 : Vec F S2048x1 .f32

/-- Contents nothing depends on: what the buffers hold before the first point. -/
def St.any : St F :=
  ⟨(Memref.whole cc0_stg2_0 : Memref sig .tc .vmem S1x512x1024 .f32).view.read (Elt F) (Memref.whole cc0_stg2_0 : Memref sig .tc .vmem S1x512x1024 .f32).view.junk,
   (Memref.whole cc0_stg3_0 : Memref sig .tc .vmem S1x2048x1024 .f32).view.read (Elt F) (Memref.whole cc0_stg3_0 : Memref sig .tc .vmem S1x2048x1024 .f32).view.junk,
   scM0.view.read (Elt F) scM0.view.junk, scM1.view.read (Elt F) scM1.view.junk, scM2.view.read (Elt F) scM2.view.junk, scM3.view.read (Elt F) scM3.view.junk⟩

/-- After a batch's first point: every buffer's pieces read back (they cover it). -/
def stA (c : Dev nD) (t : Fin cfg0.N) (h1 : cond1 (grid0.coords t)) (h2 : cond2 (grid0.coords t)) (h3 : ¬cond3 (grid0.coords t)) (h4 : ¬cond4 (grid0.coords t)) (x0 x1 : Vec F S1x512x1024 .bf16) : St F :=
  ⟨(ms2 t).view.read (Elt F) ((ms2 t).view.writes (Elt F) (ms2 t).view.junk (runA c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) h1 h2 h3 h4 x0 x1).1),
   (ms3 t).view.read (Elt F) ((ms3 t).view.writes (Elt F) (ms3 t).view.junk (runA c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) h1 h2 h3 h4 x0 x1).2.1),
   scM0.view.read (Elt F) (scM0.view.writes (Elt F) scM0.view.junk (runA c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) h1 h2 h3 h4 x0 x1).2.2.1),
   scM1.view.read (Elt F) (scM1.view.writes (Elt F) scM1.view.junk (runA c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) h1 h2 h3 h4 x0 x1).2.2.2.1),
   scM2.view.read (Elt F) (scM2.view.writes (Elt F) scM2.view.junk (runA c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) h1 h2 h3 h4 x0 x1).2.2.2.2.1),
   scM3.view.read (Elt F) (scM3.view.writes (Elt F) scM3.view.junk (runA c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) h1 h2 h3 h4 x0 x1).2.2.2.2.2.1)⟩

/-- After the first point of a middle row tile: the row side's pieces read back, the column side as the run leaves it over `p`. -/
def stD (c : Dev nD) (t : Fin cfg0.N) (h1 : cond1 (grid0.coords t)) (h2 : ¬cond2 (grid0.coords t)) (h3 : ¬cond3 (grid0.coords t)) (h4 : ¬cond4 (grid0.coords t)) (x0 x1 : Vec F S1x512x1024 .bf16) (p : St F) : St F :=
  ⟨(ms2 t).view.read (Elt F) ((ms2 t).view.writes (Elt F) (ms2 t).view.junk (runD c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) h1 h2 h3 h4 x0 x1 p.o3 p.s2 p.s3).1),
   (ms3 t).view.read (Elt F) (runD c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) h1 h2 h3 h4 x0 x1 p.o3 p.s2 p.s3).2.1,
   scM0.view.read (Elt F) (scM0.view.writes (Elt F) scM0.view.junk (runD c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) h1 h2 h3 h4 x0 x1 p.o3 p.s2 p.s3).2.2.1),
   scM1.view.read (Elt F) (scM1.view.writes (Elt F) scM1.view.junk (runD c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) h1 h2 h3 h4 x0 x1 p.o3 p.s2 p.s3).2.2.2.1),
   scM2.view.read (Elt F) (runD c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) h1 h2 h3 h4 x0 x1 p.o3 p.s2 p.s3).2.2.2.2.1,
   scM3.view.read (Elt F) (runD c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) h1 h2 h3 h4 x0 x1 p.o3 p.s2 p.s3).2.2.2.2.2.1⟩

/-- After the first point of the last row tile. -/
def stE (c : Dev nD) (t : Fin cfg0.N) (h1 : cond1 (grid0.coords t)) (h2 : ¬cond2 (grid0.coords t)) (h3 : ¬cond3 (grid0.coords t)) (h4 : cond4 (grid0.coords t)) (x0 x1 : Vec F S1x512x1024 .bf16) (p : St F) : St F :=
  ⟨(ms2 t).view.read (Elt F) ((ms2 t).view.writes (Elt F) (ms2 t).view.junk (runE c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) h1 h2 h3 h4 x0 x1 p.o3 p.s2 p.s3).1),
   (ms3 t).view.read (Elt F) (runE c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) h1 h2 h3 h4 x0 x1 p.o3 p.s2 p.s3).2.1,
   scM0.view.read (Elt F) (scM0.view.writes (Elt F) scM0.view.junk (runE c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) h1 h2 h3 h4 x0 x1 p.o3 p.s2 p.s3).2.2.1),
   scM1.view.read (Elt F) (scM1.view.writes (Elt F) scM1.view.junk (runE c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) h1 h2 h3 h4 x0 x1 p.o3 p.s2 p.s3).2.2.2.1),
   scM2.view.read (Elt F) (runE c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) h1 h2 h3 h4 x0 x1 p.o3 p.s2 p.s3).2.2.2.2.1,
   scM3.view.read (Elt F) (runE c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) h1 h2 h3 h4 x0 x1 p.o3 p.s2 p.s3).2.2.2.2.2.1⟩

/-- After any other point: every buffer as the run leaves it over `p`. -/
def stG (c : Dev nD) (t : Fin cfg0.N) (h1 : ¬cond1 (grid0.coords t)) (h2 : ¬cond2 (grid0.coords t)) (x0 x1 : Vec F S1x512x1024 .bf16) (p : St F) : St F :=
  ⟨(ms2 t).view.read (Elt F) (runG c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) h1 h2 x0 x1 p.o2 p.o3 p.s0 p.s1 p.s2 p.s3).1,
   (ms3 t).view.read (Elt F) (runG c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) h1 h2 x0 x1 p.o2 p.o3 p.s0 p.s1 p.s2 p.s3).2.1,
   scM0.view.read (Elt F) (runG c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) h1 h2 x0 x1 p.o2 p.o3 p.s0 p.s1 p.s2 p.s3).2.2.1,
   scM1.view.read (Elt F) (runG c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) h1 h2 x0 x1 p.o2 p.o3 p.s0 p.s1 p.s2 p.s3).2.2.2.1,
   scM2.view.read (Elt F) (runG c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) h1 h2 x0 x1 p.o2 p.o3 p.s0 p.s1 p.s2 p.s3).2.2.2.2.1,
   scM3.view.read (Elt F) (runG c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) h1 h2 x0 x1 p.o2 p.o3 p.s0 p.s1 p.s2 p.s3).2.2.2.2.2.1⟩

/-- One point: the six buffers after the body at point `t`, from what they held before it (`p`). -/
def step (c : Dev nD) (t : Fin cfg0.N) (p : St F) : St F :=
  if h16 : t.val % 16 = 0 then
    stA c t ((hcond1 t).mpr (by omega)) ((hcond2 t).mpr h16) (fun h => by have := (hcond3 t).mp h; omega) (fun h => by have := (hcond4 t).mp h; omega) (iblk m c 0 t) (iblk m c 1 t)
  else if h12 : t.val % 16 = 12 then
    stE c t ((hcond1 t).mpr (by omega)) (fun h => h16 ((hcond2 t).mp h)) (fun h => by have := (hcond3 t).mp h; omega) ((hcond4 t).mpr (by omega)) (iblk m c 0 t) (iblk m c 1 t) p
  else if h4 : t.val % 4 = 0 then
    stD c t ((hcond1 t).mpr h4) (fun h => h16 ((hcond2 t).mp h)) (fun h => by have := (hcond3 t).mp h; omega) (fun h => by have := (hcond4 t).mp h; omega) (iblk m c 0 t) (iblk m c 1 t) p
  else
    stG c t (fun h => h4 ((hcond1 t).mp h)) (fun h => h16 ((hcond2 t).mp h)) (iblk m c 0 t) (iblk m c 1 t) p

/-- The same at any number (beyond the grid nothing changes). -/
def stepN (c : Dev nD) (n : ℕ) (p : St F) : St F := if h : n < cfg0.N then step m c ⟨n, h⟩ p else p

/-- The six buffers after point `n`. -/
def stAt (c : Dev nD) : ℕ → St F
  | 0 => stepN m c 0 St.any
  | n + 1 => stepN m c (n + 1) (stAt c n)

/-- What the six buffers held before point `n`: anything before the first, else what the point before left. -/
def stBefore (c : Dev nD) (n : ℕ) : St F := if n = 0 then St.any else stAt m c (n - 1)

theorem stAt_eq (c : Dev nD) (t : Fin cfg0.N) : stAt m c t.val = step m c t (stBefore m c t.val) := by
  obtain ⟨n, hn⟩ := t
  cases n with
  | zero => show stepN m c 0 St.any = _; unfold stepN stBefore; rw [dif_pos hn, if_pos rfl]
  | succ n => show stepN m c (n + 1) (stAt m c n) = _; unfold stepN stBefore; rw [dif_pos hn, if_neg (Nat.succ_ne_zero n)]; rfl

/-- The region invariant before position `n`: before the first point the scratch buffers hold anything; afterwards the
    four statistics the point before left. The generator register is never used. -/
def PhiS (c : Dev nD) : ℕ → sProp 𝕄
  | 0 => Pipeline.ΦA spec0 c
  | n + 1 => iprop(iprop(owns (c : Thread nD τ) scM0 fullShare (stAt m c n).s0 ∗ owns (c : Thread nD τ) scM1 fullShare (stAt m c n).s1
      ∗ owns (c : Thread nD τ) scM2 fullShare (stAt m c n).s2 ∗ owns (c : Thread nD τ) scM3 fullShare (stAt m c n).s3) ∗ (∃ r, prngReg c r))

theorem PhiS_succ (c : Dev nD) (n : ℕ) :
    PhiS m c (n + 1) = iprop(iprop(owns (c : Thread nD τ) scM0 fullShare (stAt m c n).s0 ∗ owns (c : Thread nD τ) scM1 fullShare (stAt m c n).s1
      ∗ owns (c : Thread nD τ) scM2 fullShare (stAt m c n).s2 ∗ owns (c : Thread nD τ) scM3 fullShare (stAt m c n).s3) ∗ (∃ r, prngReg c r)) := rfl

theorem PhiS_pos (c : Dev nD) (n : ℕ) (hz : n ≠ 0) :
    PhiS m c n = iprop(iprop(owns (c : Thread nD τ) scM0 fullShare (stBefore m c n).s0 ∗ owns (c : Thread nD τ) scM1 fullShare (stBefore m c n).s1
      ∗ owns (c : Thread nD τ) scM2 fullShare (stBefore m c n).s2 ∗ owns (c : Thread nD τ) scM3 fullShare (stBefore m c n).s3) ∗ (∃ r, prngReg c r)) := by
  cases n with
  | zero => exact absurd rfl hz
  | succ n => unfold stBefore; rw [if_neg (Nat.succ_ne_zero n)]; rfl

/-- Whatever the position, the invariant holds the four scratch buffers at SOME contents. -/
theorem PhiS_some (c : Dev nD) (n : ℕ) :
    PhiS m c n ⊢ iprop(iprop((∃ d, owns (c : Thread nD τ) scM0 fullShare d) ∗ (∃ d, owns (c : Thread nD τ) scM1 fullShare d)
          ∗ (∃ d, owns (c : Thread nD τ) scM2 fullShare d) ∗ (∃ d, owns (c : Thread nD τ) scM3 fullShare d)) ∗ (∃ r, prngReg c r)) := by
  cases n with
  | zero => show Pipeline.ΦA spec0 c ⊢ _; rw [PhiA_eq]
  | succ n =>
    show iprop(iprop(owns (c : Thread nD τ) scM0 fullShare (stAt m c n).s0 ∗ owns (c : Thread nD τ) scM1 fullShare (stAt m c n).s1
      ∗ owns (c : Thread nD τ) scM2 fullShare (stAt m c n).s2 ∗ owns (c : Thread nD τ) scM3 fullShare (stAt m c n).s3) ∗ (∃ r, prngReg c r)) ⊢ _
    iintro ⟨⟨H0, H1, H2, H3⟩, Hg⟩
    isplitr [Hg]
    · isplitl [H0]; · iexists _; iexact H0
      isplitl [H1]; · iexists _; iexact H1
      isplitl [H2]; · iexists _; iexact H2
      iexists _; iexact H3
    · iexact Hg

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (stAt m c t.val).o2
    | ⟨3, _⟩ => (stAt m c t.val).o3
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (stAt m c t.val).o2 := by dsimp only [dats]
theorem after3 (c : Dev nD) (t : Fin cfg0.N) : (dats m 0 c).after 3 t = (stAt m c t.val).o3 := by dsimp only [dats]

/-- Each input's current staging buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- The row accumulator's buffer is fresh at a row tile's first point (the tile before it was just written back), -/
theorem before2_reset (c : Dev nD) (t : Fin cfg0.N) (h : t.val % 4 = 0) (d) : (dats m 0 c).before 2 t d = d :=
  (dats m 0 c).before_out_reset 2 rfl t (by
    by_cases hz : t.val = 0
    · exact .inl hz
    · exact .inr ⟨hz, (flush0_2 _).mpr (by show (t.val - 1) % 4 = 3; omega)⟩) d
/-- and elsewhere holds what the point before left. -/
theorem before2_kept (c : Dev nD) (t : Fin cfg0.N) (h : t.val % 4 ≠ 0) (d) : (dats m 0 c).before 2 t d = (stBefore m c t.val).o2 := by
  have hz : t.val ≠ 0 := fun h0 => h (by rw [h0])
  rw [(dats m 0 c).before_out_kept 2 rfl t hz (by
      cases hf : (cfg0.win 2).flush ⟨t.val - 1, Nat.lt_of_le_of_lt (Nat.sub_le _ _) t.isLt⟩
      · rfl
      · exact absurd ((flush0_2 _).mp hf) (by show ¬ (t.val - 1) % 4 = 3; omega)) (fun _ => rfl) (fun _ _ => rfl) d, after2]
  unfold stBefore; rw [if_neg hz]
/-- The column accumulator's buffer is fresh at a batch's first point, -/
theorem before3_reset (c : Dev nD) (t : Fin cfg0.N) (h : t.val % 16 = 0) (d) : (dats m 0 c).before 3 t d = d :=
  (dats m 0 c).before_out_reset 3 rfl t (by
    by_cases hz : t.val = 0
    · exact .inl hz
    · exact .inr ⟨hz, (flush0_3 _).mpr (by show (t.val - 1) % 16 = 15; omega)⟩) d
/-- and elsewhere holds what the point before left. -/
theorem before3_kept (c : Dev nD) (t : Fin cfg0.N) (h : t.val % 16 ≠ 0) (d) : (dats m 0 c).before 3 t d = (stBefore m c t.val).o3 := by
  have hz : t.val ≠ 0 := fun h0 => h (by rw [h0])
  rw [(dats m 0 c).before_out_kept 3 rfl t hz (by
      cases hf : (cfg0.win 3).flush ⟨t.val - 1, Nat.lt_of_le_of_lt (Nat.sub_le _ _) t.isLt⟩
      · rfl
      · exact absurd ((flush0_3 _).mp hf) (by show ¬ (t.val - 1) % 16 = 15; omega)) (fun _ => rfl) (fun _ _ => rfl) d, after3]
  unfold stBefore; rw [if_neg hz]

end Cert.KernelIdeal.Body

end
-- ==== Proof.KI.Cover.lean ====
/-
  Where a buffer starts afresh at a point, the body's first store into it writes the whole buffer (zeros, or minus
  infinity for a running maximum), so the pieces the run lists for that buffer cover it: whatever it held before the
  point, what it holds afterwards is what the pieces say.
-/
import proofs.«118892_j1881195675895_2_alg».proof.Proof.KI.Data
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem coverA5 (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .f32) (harg5 : arg5.IsWhole) (arg6 : Memref sig .tc .vmem S1x2048x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S2048x1 .f32) (harg9 : arg9.IsWhole) (arg10 : Memref sig .tc .vmem S2048x1 .f32) (harg10 : arg10.IsWhole) (hc0 : cond1 i) (hc1 : cond2 i) (hc2 : ¬cond3 i) (hc3 : ¬cond4 i) (x0 x1 : Vec F S1x512x1024 .bf16) (y : S1x512x1024.Idx) :
    ∃ pc ∈ (runA c i arg3 harg3 arg4 harg4 arg5 harg5 arg6 harg6 arg7 harg7 arg8 harg8 arg9 harg9 arg10 harg10 hc0 hc1 hc2 hc3 x0 x1).1, y ∈ pc.1.set := by
  unfold runA
  dsimp only
  refine ⟨_, List.mem_cons_self, ?_⟩
  exact View.mem_set_unit_zero (S := S1x512x1024) (by funext a; fin_cases a <;> rfl) inb_S1x512x1024_S1x512x1024_0_0_0 y

theorem coverA7 (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .f32) (harg5 : arg5.IsWhole) (arg6 : Memref sig .tc .vmem S1x2048x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S2048x1 .f32) (harg9 : arg9.IsWhole) (arg10 : Memref sig .tc .vmem S2048x1 .f32) (harg10 : arg10.IsWhole) (hc0 : cond1 i) (hc1 : cond2 i) (hc2 : ¬cond3 i) (hc3 : ¬cond4 i) (x0 x1 : Vec F S1x512x1024 .bf16) (y : S512x1.Idx) :
    ∃ pc ∈ (runA c i arg3 harg3 arg4 harg4 arg5 harg5 arg6 harg6 arg7 harg7 arg8 harg8 arg9 harg9 arg10 harg10 hc0 hc1 hc2 hc3 x0 x1).2.2.1, y ∈ pc.1.set := by
  unfold runA
  dsimp only
  refine ⟨_, List.mem_cons_self, ?_⟩
  exact View.mem_set_unit_zero (S := S512x1) (by funext a; fin_cases a <;> rfl) inb_S512x1_S512x1_0_0 y

theorem coverA8 (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .f32) (harg5 : arg5.IsWhole) (arg6 : Memref sig .tc .vmem S1x2048x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S2048x1 .f32) (harg9 : arg9.IsWhole) (arg10 : Memref sig .tc .vmem S2048x1 .f32) (harg10 : arg10.IsWhole) (hc0 : cond1 i) (hc1 : cond2 i) (hc2 : ¬cond3 i) (hc3 : ¬cond4 i) (x0 x1 : Vec F S1x512x1024 .bf16) (y : S512x1.Idx) :
    ∃ pc ∈ (runA c i arg3 harg3 arg4 harg4 arg5 harg5 arg6 harg6 arg7 harg7 arg8 harg8 arg9 harg9 arg10 harg10 hc0 hc1 hc2 hc3 x0 x1).2.2.2.1, y ∈ pc.1.set := by
  unfold runA
  dsimp only
  refine ⟨_, List.mem_cons_self, ?_⟩
  exact View.mem_set_unit_zero (S := S512x1) (by funext a; fin_cases a <;> rfl) inb_S512x1_S512x1_0_0 y

theorem coverD5 (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .f32) (harg5 : arg5.IsWhole) (arg6 : Memref sig .tc .vmem S1x2048x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S2048x1 .f32) (harg9 : arg9.IsWhole) (arg10 : Memref sig .tc .vmem S2048x1 .f32) (harg10 : arg10.IsWhole) (hc0 : cond1 i) (hc1 : ¬cond2 i) (hc2 : ¬cond3 i) (hc3 : ¬cond4 i) (x0 x1 : Vec F S1x512x1024 .bf16) (o3 : Vec F S1x2048x1024 .f32) (s2 : Vec F S2048x1 .f32) (s3 : Vec F S2048x1 .f32) (y : S1x512x1024.Idx) :
    ∃ pc ∈ (runD c i arg3 harg3 arg4 harg4 arg5 harg5 arg6 harg6 arg7 harg7 arg8 harg8 arg9 harg9 arg10 harg10 hc0 hc1 hc2 hc3 x0 x1 o3 s2 s3).1, y ∈ pc.1.set := by
  unfold runD
  dsimp only
  refine ⟨_, List.mem_cons_self, ?_⟩
  exact View.mem_set_unit_zero (S := S1x512x1024) (by funext a; fin_cases a <;> rfl) inb_S1x512x1024_S1x512x1024_0_0_0 y

theorem coverD7 (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .f32) (harg5 : arg5.IsWhole) (arg6 : Memref sig .tc .vmem S1x2048x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S2048x1 .f32) (harg9 : arg9.IsWhole) (arg10 : Memref sig .tc .vmem S2048x1 .f32) (harg10 : arg10.IsWhole) (hc0 : cond1 i) (hc1 : ¬cond2 i) (hc2 : ¬cond3 i) (hc3 : ¬cond4 i) (x0 x1 : Vec F S1x512x1024 .bf16) (o3 : Vec F S1x2048x1024 .f32) (s2 : Vec F S2048x1 .f32) (s3 : Vec F S2048x1 .f32) (y : S512x1.Idx) :
    ∃ pc ∈ (runD c i arg3 harg3 arg4 harg4 arg5 harg5 arg6 harg6 arg7 harg7 arg8 harg8 arg9 harg9 arg10 harg10 hc0 hc1 hc2 hc3 x0 x1 o3 s2 s3).2.2.1, y ∈ pc.1.set := by
  unfold runD
  dsimp only
  refine ⟨_, List.mem_cons_self, ?_⟩
  exact View.mem_set_unit_zero (S := S512x1) (by funext a; fin_cases a <;> rfl) inb_S512x1_S512x1_0_0 y

theorem coverD8 (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .f32) (harg5 : arg5.IsWhole) (arg6 : Memref sig .tc .vmem S1x2048x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S2048x1 .f32) (harg9 : arg9.IsWhole) (arg10 : Memref sig .tc .vmem S2048x1 .f32) (harg10 : arg10.IsWhole) (hc0 : cond1 i) (hc1 : ¬cond2 i) (hc2 : ¬cond3 i) (hc3 : ¬cond4 i) (x0 x1 : Vec F S1x512x1024 .bf16) (o3 : Vec F S1x2048x1024 .f32) (s2 : Vec F S2048x1 .f32) (s3 : Vec F S2048x1 .f32) (y : S512x1.Idx) :
    ∃ pc ∈ (runD c i arg3 harg3 arg4 harg4 arg5 harg5 arg6 harg6 arg7 harg7 arg8 harg8 arg9 harg9 arg10 harg10 hc0 hc1 hc2 hc3 x0 x1 o3 s2 s3).2.2.2.1, y ∈ pc.1.set := by
  unfold runD
  dsimp only
  refine ⟨_, List.mem_cons_self, ?_⟩
  exact View.mem_set_unit_zero (S := S512x1) (by funext a; fin_cases a <;> rfl) inb_S512x1_S512x1_0_0 y

theorem coverE5 (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .f32) (harg5 : arg5.IsWhole) (arg6 : Memref sig .tc .vmem S1x2048x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S2048x1 .f32) (harg9 : arg9.IsWhole) (arg10 : Memref sig .tc .vmem S2048x1 .f32) (harg10 : arg10.IsWhole) (hc0 : cond1 i) (hc1 : ¬cond2 i) (hc2 : ¬cond3 i) (hc3 : cond4 i) (x0 x1 : Vec F S1x512x1024 .bf16) (o3 : Vec F S1x2048x1024 .f32) (s2 : Vec F S2048x1 .f32) (s3 : Vec F S2048x1 .f32) (y : S1x512x1024.Idx) :
    ∃ pc ∈ (runE c i arg3 harg3 arg4 harg4 arg5 harg5 arg6 harg6 arg7 harg7 arg8 harg8 arg9 harg9 arg10 harg10 hc0 hc1 hc2 hc3 x0 x1 o3 s2 s3).1, y ∈ pc.1.set := by
  unfold runE
  dsimp only
  refine ⟨_, List.mem_cons_self, ?_⟩
  exact View.mem_set_unit_zero (S := S1x512x1024) (by funext a; fin_cases a <;> rfl) inb_S1x512x1024_S1x512x1024_0_0_0 y

theorem coverE7 (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .f32) (harg5 : arg5.IsWhole) (arg6 : Memref sig .tc .vmem S1x2048x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S2048x1 .f32) (harg9 : arg9.IsWhole) (arg10 : Memref sig .tc .vmem S2048x1 .f32) (harg10 : arg10.IsWhole) (hc0 : cond1 i) (hc1 : ¬cond2 i) (hc2 : ¬cond3 i) (hc3 : cond4 i) (x0 x1 : Vec F S1x512x1024 .bf16) (o3 : Vec F S1x2048x1024 .f32) (s2 : Vec F S2048x1 .f32) (s3 : Vec F S2048x1 .f32) (y : S512x1.Idx) :
    ∃ pc ∈ (runE c i arg3 harg3 arg4 harg4 arg5 harg5 arg6 harg6 arg7 harg7 arg8 harg8 arg9 harg9 arg10 harg10 hc0 hc1 hc2 hc3 x0 x1 o3 s2 s3).2.2.1, y ∈ pc.1.set := by
  unfold runE
  dsimp only
  refine ⟨_, List.mem_cons_self, ?_⟩
  exact View.mem_set_unit_zero (S := S512x1) (by funext a; fin_cases a <;> rfl) inb_S512x1_S512x1_0_0 y

theorem coverE8 (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .f32) (harg5 : arg5.IsWhole) (arg6 : Memref sig .tc .vmem S1x2048x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S2048x1 .f32) (harg9 : arg9.IsWhole) (arg10 : Memref sig .tc .vmem S2048x1 .f32) (harg10 : arg10.IsWhole) (hc0 : cond1 i) (hc1 : ¬cond2 i) (hc2 : ¬cond3 i) (hc3 : cond4 i) (x0 x1 : Vec F S1x512x1024 .bf16) (o3 : Vec F S1x2048x1024 .f32) (s2 : Vec F S2048x1 .f32) (s3 : Vec F S2048x1 .f32) (y : S512x1.Idx) :
    ∃ pc ∈ (runE c i arg3 harg3 arg4 harg4 arg5 harg5 arg6 harg6 arg7 harg7 arg8 harg8 arg9 harg9 arg10 harg10 hc0 hc1 hc2 hc3 x0 x1 o3 s2 s3).2.2.2.1, y ∈ pc.1.set := by
  unfold runE
  dsimp only
  refine ⟨_, List.mem_cons_self, ?_⟩
  exact View.mem_set_unit_zero (S := S512x1) (by funext a; fin_cases a <;> rfl) inb_S512x1_S512x1_0_0 y

theorem coverA6 (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .f32) (harg5 : arg5.IsWhole) (arg6 : Memref sig .tc .vmem S1x2048x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S2048x1 .f32) (harg9 : arg9.IsWhole) (arg10 : Memref sig .tc .vmem S2048x1 .f32) (harg10 : arg10.IsWhole) (hc0 : cond1 i) (hc1 : cond2 i) (hc2 : ¬cond3 i) (hc3 : ¬cond4 i) (x0 x1 : Vec F S1x512x1024 .bf16) (y : S1x2048x1024.Idx) :
    ∃ pc ∈ (runA c i arg3 harg3 arg4 harg4 arg5 harg5 arg6 harg6 arg7 harg7 arg8 harg8 arg9 harg9 arg10 harg10 hc0 hc1 hc2 hc3 x0 x1).2.1, y ∈ pc.1.set := by
  unfold runA
  dsimp only
  unfold runA.sl.H3_1
  refine ⟨_, List.mem_cons_of_mem _ List.mem_cons_self, ?_⟩
  exact View.mem_set_unit_zero (S := S1x2048x1024) (by funext a; fin_cases a <;> rfl) inb_S1x2048x1024_S1x2048x1024_0_0_0 y

theorem coverA9 (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .f32) (harg5 : arg5.IsWhole) (arg6 : Memref sig .tc .vmem S1x2048x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S2048x1 .f32) (harg9 : arg9.IsWhole) (arg10 : Memref sig .tc .vmem S2048x1 .f32) (harg10 : arg10.IsWhole) (hc0 : cond1 i) (hc1 : cond2 i) (hc2 : ¬cond3 i) (hc3 : ¬cond4 i) (x0 x1 : Vec F S1x512x1024 .bf16) (y : S2048x1.Idx) :
    ∃ pc ∈ (runA c i arg3 harg3 arg4 harg4 arg5 harg5 arg6 harg6 arg7 harg7 arg8 harg8 arg9 harg9 arg10 harg10 hc0 hc1 hc2 hc3 x0 x1).2.2.2.2.1, y ∈ pc.1.set := by
  unfold runA
  dsimp only
  unfold runA.sl.S2_1
  refine ⟨_, List.mem_cons_of_mem _ List.mem_cons_self, ?_⟩
  exact View.mem_set_unit_zero (S := S2048x1) (by funext a; fin_cases a <;> rfl) inb_S2048x1_S2048x1_0_0 y

theorem coverA10 (c : Dev nD) (i : grid0.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .f32) (harg5 : arg5.IsWhole) (arg6 : Memref sig .tc .vmem S1x2048x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S2048x1 .f32) (harg9 : arg9.IsWhole) (arg10 : Memref sig .tc .vmem S2048x1 .f32) (harg10 : arg10.IsWhole) (hc0 : cond1 i) (hc1 : cond2 i) (hc2 : ¬cond3 i) (hc3 : ¬cond4 i) (x0 x1 : Vec F S1x512x1024 .bf16) (y : S2048x1.Idx) :
    ∃ pc ∈ (runA c i arg3 harg3 arg4 harg4 arg5 harg5 arg6 harg6 arg7 harg7 arg8 harg8 arg9 harg9 arg10 harg10 hc0 hc1 hc2 hc3 x0 x1).2.2.2.2.2.1, y ∈ pc.1.set := by
  unfold runA
  dsimp only
  unfold runA.sl.S3_1
  refine ⟨_, List.mem_cons_of_mem _ List.mem_cons_self, ?_⟩
  exact View.mem_set_unit_zero (S := S2048x1) (by funext a; fin_cases a <;> rfl) inb_S2048x1_S2048x1_0_0 y

end Cert.KernelIdeal.Body
end
-- ==== Proof.KI.Sound.lean ====
/-
  The body at any point meets the pipeline's obligation: the inputs' buffers hold their blocks, each output buffer and each
  scratch buffer holds either anything (where the point starts it afresh) or what the point before left, the run of the
  point's case applies, and what it leaves is by definition the next state. Hence the frame: the program runs to the
  end, faults nowhere, and leaves its argument arrays unchanged.
-/
import proofs.«118892_j1881195675895_2_alg».proof.Proof.KI.Cover
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem PhiS_castSucc (c : Dev nD) (t : Fin cfg0.N) : (dats m 0 c).Φ t.castSucc = PhiS m c t.val := by
  dsimp only [dats]; simp only [Fin.coe_castSucc]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) from rfl, PhiS_succ, PhiS_castSucc]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [stAt_eq m c t]
  unfold step
  by_cases h16 : t.val % 16 = 0
  · rw [dif_pos h16]
    simp only [before2_reset m c t (by omega), before3_reset m c t h16]
    unfold stA; dsimp only
    iintro ⟨HΦ, Ho, ⟨%d0, H0⟩, ⟨%d1, H1⟩, H2, H3⟩
    ihave HΦ' := (PhiS_some m c t.val) $$ HΦ
    icases HΦ' with ⟨⟨S0, S1, S2, S3⟩, Hg⟩
    iapply ((runA c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) ((hcond1 t).mpr (by omega)) ((hcond2 t).mpr h16) (fun h => by have := (hcond3 t).mp h; omega) (fun h => by have := (hcond4 t).mp h; omega) (iblk m c 0 t) (iblk m c 1 t)).2.2.2.2.2.2 Set.univ _)
    isplitl [H0]; · iexact H0
    isplitl [H1]; · iexact H1
    isplitl [H2]; · iexact H2
    isplitl [H3]; · iexact H3
    isplitl [S0]; · iexact S0
    isplitl [S1]; · iexact S1
    isplitl [S2]; · iexact S2
    isplitl [S3]; · iexact S3
    iintro ⟨H0, H1, ⟨%e2, H2⟩, ⟨%e3, H3⟩, ⟨%e7, S0⟩, ⟨%e8, S1⟩, ⟨%e9, S2⟩, ⟨%e10, S3⟩⟩
    isplitl [S0 S1 S2 S3 Hg]
    · isplitr [Hg]
      · isplitl [S0]
        · unfold owns; iexists _; isplitr
          swap; · iexact S0
          ipureintro; exact View.read_writes_of_cover _ _ _ _ _ (coverA7 c _ _ _ _ _ _ _ _ _ _ _ _ _ _ _ _ _ _ _ _ _ _ _)
        isplitl [S1]
        · unfold owns; iexists _; isplitr
          swap; · iexact S1
          ipureintro; exact View.read_writes_of_cover _ _ _ _ _ (coverA8 c _ _ _ _ _ _ _ _ _ _ _ _ _ _ _ _ _ _ _ _ _ _ _)
        isplitl [S2]
        · unfold owns; iexists _; isplitr
          swap; · iexact S2
          ipureintro; exact View.read_writes_of_cover _ _ _ _ _ (coverA9 c _ _ _ _ _ _ _ _ _ _ _ _ _ _ _ _ _ _ _ _ _ _ _)
        unfold owns; iexists _; isplitr
        swap; · iexact S3
        ipureintro; exact View.read_writes_of_cover _ _ _ _ _ (coverA10 c _ _ _ _ _ _ _ _ _ _ _ _ _ _ _ _ _ _ _ _ _ _ _)
      · iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverA5 c _ _ _ _ _ _ _ _ _ _ _ _ _ _ _ _ _ _ _ _ _ _ _)
    unfold owns; iexists _; isplitr
    swap; · iexact H3
    ipureintro; exact View.read_writes_of_cover _ _ _ _ _ (coverA6 c _ _ _ _ _ _ _ _ _ _ _ _ _ _ _ _ _ _ _ _ _ _ _)
  · rw [dif_neg h16]
    have hz : t.val ≠ 0 := fun h0 => h16 (by rw [h0])
    rw [PhiS_pos m c t.val hz]
    by_cases h12 : t.val % 16 = 12
    · rw [dif_pos h12]
      simp only [before2_reset m c t (by omega), before3_kept m c t h16]
      unfold stE; dsimp only
      iintro ⟨⟨⟨S0, S1, S2, S3⟩, Hg⟩, Ho, ⟨%d0, H0⟩, ⟨%d1, H1⟩, H2, ⟨%d3, H3⟩⟩
      iapply ((runE c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) ((hcond1 t).mpr (by omega)) (fun h => h16 ((hcond2 t).mp h)) (fun h => by have := (hcond3 t).mp h; omega) ((hcond4 t).mpr (by omega)) (iblk m c 0 t) (iblk m c 1 t) _ _ _).2.2.2.2.2.2 Set.univ _)
      isplitl [H0]; · iexact H0
      isplitl [H1]; · iexact H1
      isplitl [H2]; · iexact H2
      isplitl [H3]; · iexact H3
      isplitl [S0]; · iexists _; iexact S0
      isplitl [S1]; · iexists _; iexact S1
      isplitl [S2]; · iexact S2
      isplitl [S3]; · iexact S3
      iintro ⟨H0, H1, ⟨%e2, H2⟩, H3, ⟨%e7, S0⟩, ⟨%e8, S1⟩, S2, S3⟩
      isplitl [S0 S1 S2 S3 Hg]
      · isplitr [Hg]
        · isplitl [S0]
          · unfold owns; iexists _; isplitr
            swap; · iexact S0
            ipureintro; exact View.read_writes_of_cover _ _ _ _ _ (coverE7 c _ _ _ _ _ _ _ _ _ _ _ _ _ _ _ _ _ _ _ _ _ _ _ _ _ _)
          isplitl [S1]
          · unfold owns; iexists _; isplitr
            swap; · iexact S1
            ipureintro; exact View.read_writes_of_cover _ _ _ _ _ (coverE8 c _ _ _ _ _ _ _ _ _ _ _ _ _ _ _ _ _ _ _ _ _ _ _ _ _ _)
          isplitl [S2]
          · unfold owns; iexists _; isplitr
            swap; · iexact S2
            ipureintro; rfl
          unfold owns; iexists _; isplitr
          swap; · iexact S3
          ipureintro; rfl
        · iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverE5 c _ _ _ _ _ _ _ _ _ _ _ _ _ _ _ _ _ _ _ _ _ _ _ _ _ _)
      unfold owns; iexists _; isplitr
      swap; · iexact H3
      ipureintro; rfl
    · rw [dif_neg h12]
      by_cases h4 : t.val % 4 = 0
      · rw [dif_pos h4]
        simp only [before2_reset m c t h4, before3_kept m c t h16]
        unfold stD; dsimp only
        iintro ⟨⟨⟨S0, S1, S2, S3⟩, Hg⟩, Ho, ⟨%d0, H0⟩, ⟨%d1, H1⟩, H2, ⟨%d3, H3⟩⟩
        iapply ((runD c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) ((hcond1 t).mpr h4) (fun h => h16 ((hcond2 t).mp h)) (fun h => by have := (hcond3 t).mp h; omega) (fun h => by have := (hcond4 t).mp h; omega) (iblk m c 0 t) (iblk m c 1 t) _ _ _).2.2.2.2.2.2 Set.univ _)
        isplitl [H0]; · iexact H0
        isplitl [H1]; · iexact H1
        isplitl [H2]; · iexact H2
        isplitl [H3]; · iexact H3
        isplitl [S0]; · iexists _; iexact S0
        isplitl [S1]; · iexists _; iexact S1
        isplitl [S2]; · iexact S2
        isplitl [S3]; · iexact S3
        iintro ⟨H0, H1, ⟨%e2, H2⟩, H3, ⟨%e7, S0⟩, ⟨%e8, S1⟩, S2, S3⟩
        isplitl [S0 S1 S2 S3 Hg]
        · isplitr [Hg]
          · isplitl [S0]
            · unfold owns; iexists _; isplitr
              swap; · iexact S0
              ipureintro; exact View.read_writes_of_cover _ _ _ _ _ (coverD7 c _ _ _ _ _ _ _ _ _ _ _ _ _ _ _ _ _ _ _ _ _ _ _ _ _ _)
            isplitl [S1]
            · unfold owns; iexists _; isplitr
              swap; · iexact S1
              ipureintro; exact View.read_writes_of_cover _ _ _ _ _ (coverD8 c _ _ _ _ _ _ _ _ _ _ _ _ _ _ _ _ _ _ _ _ _ _ _ _ _ _)
            isplitl [S2]
            · unfold owns; iexists _; isplitr
              swap; · iexact S2
              ipureintro; rfl
            unfold owns; iexists _; isplitr
            swap; · iexact S3
            ipureintro; rfl
          · iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (coverD5 c _ _ _ _ _ _ _ _ _ _ _ _ _ _ _ _ _ _ _ _ _ _ _ _ _ _)
        unfold owns; iexists _; isplitr
        swap; · iexact H3
        ipureintro; rfl
      · rw [dif_neg h4]
        simp only [before2_kept m c t h4, before3_kept m c t h16]
        unfold stG; dsimp only
        iintro ⟨⟨⟨S0, S1, S2, S3⟩, Hg⟩, Ho, ⟨%d0, H0⟩, ⟨%d1, H1⟩, ⟨%d2, H2⟩, ⟨%d3, H3⟩⟩
        iapply ((runG c (grid0.coords t) (ms0 t) (hs0 t) (ms1 t) (hs1 t) (ms2 t) (hs2 t) (ms3 t) (hs3 t) scM0 (Memref.isWhole_whole _) scM1 (Memref.isWhole_whole _) scM2 (Memref.isWhole_whole _) scM3 (Memref.isWhole_whole _) (fun h => h4 ((hcond1 t).mp h)) (fun h => h16 ((hcond2 t).mp h)) (iblk m c 0 t) (iblk m c 1 t) _ _ _ _ _ _).2.2.2.2.2.2 Set.univ _)
        isplitl [H0]; · iexact H0
        isplitl [H1]; · iexact H1
        isplitl [H2]; · iexact H2
        isplitl [H3]; · iexact H3
        isplitl [S0]; · iexact S0
        isplitl [S1]; · iexact S1
        isplitl [S2]; · iexact S2
        isplitl [S3]; · iexact S3
        iintro ⟨H0, H1, H2, H3, S0, S1, S2, S3⟩
        isplitl [S0 S1 S2 S3 Hg]
        · isplitr [Hg]
          · isplitl [S0]
            · unfold owns; iexists _; isplitr
              swap; · iexact S0
              ipureintro; rfl
            isplitl [S1]
            · unfold owns; iexists _; isplitr
              swap; · iexact S1
              ipureintro; rfl
            isplitl [S2]
            · unfold owns; iexists _; isplitr
              swap; · iexact S2
              ipureintro; rfl
            unfold owns; iexists _; isplitr
            swap; · iexact S3
            ipureintro; rfl
          · iexact Hg
        isplitl [Ho]; · iexact Ho
        isplitl [H0]; · iexact H0
        isplitl [H1]; · iexact H1
        isplitl [H2]
        · unfold owns; iexists _; isplitr
          swap; · iexact H2
          ipureintro; rfl
        unfold owns; iexists _; isplitr
        swap; · iexact H3
        ipureintro; rfl

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  show Pipeline.ΦA spec0 c ⊢ PhiS m c 0
  exact Idealize.SL.BI.Entails.refl _

/-- After the last point the invariant gives the scratch buffers back at some contents. -/
theorem hout (c : Dev nD) : (dats m 0 c).Φ (Fin.last cfg0.N) ⊢ Pipeline.ΦA spec0 c := by
  show PhiS m c (Fin.last cfg0.N).val ⊢ _
  rw [PhiA_eq]
  exact PhiS_some m c _

set_option backward.isDefEq.respectTransparency.types false in
/-- Every weakly fair execution of the program terminates without a fault, every array of the pipeline ending at what
    the write-backs of `dats` make it and every other buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.KI.ReadLib.lean ====
/-
  Reading a buffer after stores: a store of the whole buffer leaves its payload; a store into a slice leaves its payload on
  the slice and what was there before off it; a load of exactly what one store wrote reads that store's payload.
-/
import proofs.«118892_j1881195675895_2_alg».proof.Proof.KI.Data
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- A store of the whole buffer, made last, leaves its payload. -/
theorem read_writes_cons_whole {sig' : RefSig} {κ : Kind} {sp : Space} {S : Shape} {e : EltTy} (v : View sig' κ sp S e) (f : v.ty.Contents (Elt F))
    {off : Fin S.rank → Nat} (h : off = fun _ => 0) (inb : ∀ a, off a + S.size a ≤ S.size a) (w : S.Idx → Elt F e) (L : List (View.Piece (Elt F) S e)) :
    v.read (Elt F) (v.writes (Elt F) f (⟨Rect.unit off S.size inb, w⟩ :: L)) = w := by
  rw [View.read_writes_eq_canon v f _ (fun y => ⟨_, List.mem_cons_self, View.mem_set_unit_zero h inb y⟩), View.canon_cons_unit_zero h inb]

/-- Off the last store's rectangle the earlier stores are read. -/
theorem read_writes_cons_of_not_mem {sig' : RefSig} {κ : Kind} {sp : Space} {S : Shape} {e : EltTy} (v : View sig' κ sp S e) (f : v.ty.Contents (Elt F))
    (q : View.Piece (Elt F) S e) (L : List (View.Piece (Elt F) S e)) {z : S.Idx} (hz : z ∉ q.1.set) :
    v.read (Elt F) (v.writes (Elt F) f (q :: L)) z = v.read (Elt F) (v.writes (Elt F) f L) z := by
  rw [View.writes_cons, View.read_slice_write_of_not_mem q.1 _ _ _ (by rw [Rect.map_emb_univ]; exact hz)]

theorem ru0 (h : scM0.IsWhole) (X : S512x1.Idx → Elt F .f32) : View.read (Elt F) (View.whole cc0_scratch0) (h.unread X) = X := h.read_unread X
theorem ru1 (h : scM1.IsWhole) (X : S512x1.Idx → Elt F .f32) : View.read (Elt F) (View.whole cc0_scratch1) (h.unread X) = X := h.read_unread X
theorem ru2 (h : scM2.IsWhole) (X : S2048x1.Idx → Elt F .f32) : View.read (Elt F) (View.whole cc0_scratch2) (h.unread X) = X := h.read_unread X
theorem ru3 (h : scM3.IsWhole) (X : S2048x1.Idx → Elt F .f32) : View.read (Elt F) (View.whole cc0_scratch3) (h.unread X) = X := h.read_unread X

/-- The slice of the 2048 column statistics the point works on, and the slice of the column accumulator. -/
abbrev Rs (i : grid0.Coords) : Rect S2048x1 := Rect.unit (k0_off1 i) S512x1.size (k0_off1_inb i)
abbrev Ro (i : grid0.Coords) : Rect S1x2048x1024 := Rect.unit (k0_off2 i) S1x512x1024.size (k0_off2_inb i)

/-- A load of exactly the rectangle one store wrote reads that store's payload. -/
theorem readCov_single_self {sig' : RefSig} {κ : Kind} {sp : Space} {S : Shape} {e : EltTy} (v : View sig' κ sp S e) (r : Rect S) (w : r.shape.Idx → Elt F e) :
    v.readCov [(⟨r, w⟩ : View.Piece (Elt F) S e)] r.toLoadRect = w := by
  rw [View.readCov_eq_canon v _ _ (fun j => ⟨_, List.mem_singleton_self _, r.toLoadRect.idx_mem j⟩)]
  funext j; exact View.canon_cons_emb r w [] j

theorem readCov_single_of_idx {sig' : RefSig} {κ : Kind} {sp : Space} {S : Shape} {e : EltTy} (v : View sig' κ sp S e) (r : Rect S) (w : r.shape.Idx → Elt F e)
    (B : LoadRect S) (j : B.shape.Idx) (x : r.shape.Idx) (h : B.idx j = r.emb x) :
    v.readCov [(⟨r, w⟩ : View.Piece (Elt F) S e)] B j = w x := by
  show v.read (Elt F) (v.writes (Elt F) v.junk [⟨r, w⟩]) (B.idx j) = w x
  rw [h]; exact View.read_writes_cons_emb _ _ r w [] x

theorem e3 (i : grid0.Coords) : k0_off3 i = k0_off2 i := by rw [k0_off3_eq, k0_off2_eq]
theorem e4 (i : grid0.Coords) : k0_off4 i = k0_off1 i := by rw [k0_off4_eq, k0_off1_eq]

end Cert.KernelIdeal.Body
end
-- ==== Proof.KI.ReadG.lean ====
/-
  What the six buffers hold after a point at which nothing starts afresh, each as the body's arithmetic applied to the
  two input blocks and to what the buffers held before.
-/
import proofs.«118892_j1881195675895_2_alg».proof.Proof.KI.ReadLib
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem stG_s0 (c : Dev nD) (t : Fin cfg0.N) (h1 : ¬cond1 (grid0.coords t)) (h2 : ¬cond2 (grid0.coords t)) (x0 x1 : Vec F S1x512x1024 .bf16) (p : St F) : (stG c t h1 h2 x0 x1 p).s0 = k0_pay19 (k0_pay14 x0 x1 p.s0) := by
  unfold stG runG; dsimp only
  unfold runG.sl.S0_1 runG.sl.r_3
  rw [read_writes_cons_whole _ _ hz2]
  simp only [View.readAt_eq_ld, Memref.IsWhole.read_unread, ru0, ru1, ru2, ru3, View.ld_unit_zero (S := S1x512x1024) hz3, View.ld_unit_zero (S := S512x1) hz2]

theorem stG_s1 (c : Dev nD) (t : Fin cfg0.N) (h1 : ¬cond1 (grid0.coords t)) (h2 : ¬cond2 (grid0.coords t)) (x0 x1 : Vec F S1x512x1024 .bf16) (p : St F) : (stG c t h1 h2 x0 x1 p).s1 = k0_pay17 x0 x1 p.s0 p.s1 := by
  unfold stG runG; dsimp only
  unfold runG.sl.S1_1
  rw [read_writes_cons_whole _ _ hz2]
  simp only [View.readAt_eq_ld, Memref.IsWhole.read_unread, ru0, ru1, ru2, ru3, View.ld_unit_zero (S := S1x512x1024) hz3, View.ld_unit_zero (S := S512x1) hz2]

theorem stG_s2_in (c : Dev nD) (t : Fin cfg0.N) (h1 : ¬cond1 (grid0.coords t)) (h2 : ¬cond2 (grid0.coords t)) (x0 x1 : Vec F S1x512x1024 .bf16) (p : St F) (y : S512x1.Idx) :
    (stG c t h1 h2 x0 x1 p).s2 ((Rs (grid0.coords t)).emb y) = k0_pay2 (k0_pay21 (k0_pay13 x0 x1) (View.ld p.s2 (Rs (grid0.coords t)))) y := by
  unfold stG runG; dsimp only
  unfold runG.sl.S2_1 runG.sl.r_7 runG.sl.r_2
  rw [View.read_writes_cons_emb]
  simp only [View.readAt_eq_ld, Memref.IsWhole.read_unread, ru0, ru1, ru2, ru3, View.ld_unit_zero (S := S1x512x1024) hz3, View.ld_unit_zero (S := S512x1) hz2]

theorem stG_s2_out (c : Dev nD) (t : Fin cfg0.N) (h1 : ¬cond1 (grid0.coords t)) (h2 : ¬cond2 (grid0.coords t)) (x0 x1 : Vec F S1x512x1024 .bf16) (p : St F) (z : S2048x1.Idx) (hz : z ∉ (Rs (grid0.coords t)).set) :
    (stG c t h1 h2 x0 x1 p).s2 z = p.s2 z := by
  unfold stG runG; dsimp only
  unfold runG.sl.S2_1
  rw [View.read_writes_apply_of_forall_not_mem _ _ z _ (by intro q hq; rw [List.mem_singleton] at hq; subst hq; exact hz)]
  exact congrFun (ru2 (F := F) _ _) z

theorem stG_s3_in (c : Dev nD) (t : Fin cfg0.N) (h1 : ¬cond1 (grid0.coords t)) (h2 : ¬cond2 (grid0.coords t)) (x0 x1 : Vec F S1x512x1024 .bf16) (p : St F) (y : S512x1.Idx) :
    (stG c t h1 h2 x0 x1 p).s3 ((Rs (grid0.coords t)).emb y) = k0_pay24 (k0_pay13 x0 x1) (View.ld p.s2 (Rs (grid0.coords t))) (View.ld p.s3 (Rs (grid0.coords t))) y := by
  unfold stG runG; dsimp only
  unfold runG.sl.S3_1 runG.sl.r_2
  rw [View.read_writes_cons_emb]
  simp only [View.readAt_eq_ld, Memref.IsWhole.read_unread, ru0, ru1, ru2, ru3, View.ld_unit_zero (S := S1x512x1024) hz3, View.ld_unit_zero (S := S512x1) hz2]

theorem stG_s3_out (c : Dev nD) (t : Fin cfg0.N) (h1 : ¬cond1 (grid0.coords t)) (h2 : ¬cond2 (grid0.coords t)) (x0 x1 : Vec F S1x512x1024 .bf16) (p : St F) (z : S2048x1.Idx) (hz : z ∉ (Rs (grid0.coords t)).set) :
    (stG c t h1 h2 x0 x1 p).s3 z = p.s3 z := by
  unfold stG runG; dsimp only
  unfold runG.sl.S3_1
  rw [View.read_writes_apply_of_forall_not_mem _ _ z _ (by intro q hq; rw [List.mem_singleton] at hq; subst hq; exact hz)]
  exact congrFun (ru3 (F := F) _ _) z

theorem stG_o2 (c : Dev nD) (t : Fin cfg0.N) (h1 : ¬cond1 (grid0.coords t)) (h2 : ¬cond2 (grid0.coords t)) (x0 x1 : Vec F S1x512x1024 .bf16) (p : St F) :
    (stG c t h1 h2 x0 x1 p).o2 = if cond3 (grid0.coords t) then k0_pay3 (k0_pay18 (k0_pay12 x1) (k0_pay15 x0 x1 p.s0) (k0_pay16 x0 x1 p.s0) p.o2) (k0_pay17 x0 x1 p.s0 p.s1) else k0_pay18 (k0_pay12 x1) (k0_pay15 x0 x1 p.s0) (k0_pay16 x0 x1 p.s0) p.o2 := by
  unfold stG runG; dsimp only
  by_cases hc : cond3 (grid0.coords t)
  · rw [if_pos hc, dif_pos (show runG.sl.v84 (grid0.coords t) = 1#1 from hc)]
    unfold runG.sl.v88 runG.sl.v90 runG.sl.H2_1 runG.sl.S1_1 runG.sl.r_1 runG.sl.r_4 runG.sl.r_5 runG.sl.r_6
    rw [read_writes_cons_whole _ _ hz3, View.readCov_unit_zero _ hz3, View.readCov_unit_zero _ hz2]
    simp only [View.readAt_eq_ld, Memref.IsWhole.read_unread, ru0, ru1, ru2, ru3, View.ld_unit_zero (S := S1x512x1024) hz3, View.ld_unit_zero (S := S512x1) hz2]
  · rw [if_neg hc, dif_neg (show ¬ runG.sl.v84 (grid0.coords t) = 1#1 from hc)]
    unfold runG.sl.H2_1 runG.sl.r_1 runG.sl.r_4 runG.sl.r_5 runG.sl.r_6
    rw [read_writes_cons_whole _ _ hz3]
    simp only [View.readAt_eq_ld, Memref.IsWhole.read_unread, ru0, ru1, ru2, ru3, View.ld_unit_zero (S := S1x512x1024) hz3, View.ld_unit_zero (S := S512x1) hz2]

theorem stG_o3_in (c : Dev nD) (t : Fin cfg0.N) (h1 : ¬cond1 (grid0.coords t)) (h2 : ¬cond2 (grid0.coords t)) (x0 x1 : Vec F S1x512x1024 .bf16) (p : St F) (y : S1x512x1024.Idx) :
    (stG c t h1 h2 x0 x1 p).o3 ((Ro (grid0.coords t)).emb y)
      = (if cond4 (grid0.coords t) then k0_pay4 (k0_pay1 (k0_pay25 (k0_pay13 x0 x1) (View.ld p.s2 (Rs (grid0.coords t))) (View.ld p.o3 (Ro (grid0.coords t)))) (k0_pay26 (k0_pay11 x0) (k0_pay13 x0 x1) (View.ld p.s2 (Rs (grid0.coords t))))) (k0_pay24 (k0_pay13 x0 x1) (View.ld p.s2 (Rs (grid0.coords t))) (View.ld p.s3 (Rs (grid0.coords t)))) else k0_pay1 (k0_pay25 (k0_pay13 x0 x1) (View.ld p.s2 (Rs (grid0.coords t))) (View.ld p.o3 (Ro (grid0.coords t)))) (k0_pay26 (k0_pay11 x0) (k0_pay13 x0 x1) (View.ld p.s2 (Rs (grid0.coords t))))) y := by
  unfold stG runG; dsimp only
  by_cases hc : cond4 (grid0.coords t)
  · rw [if_pos hc, dif_pos (show k0_cond4 (grid0.coords t) = 1#1 from hc)]
    unfold runG.sl.v89 runG.sl.v92 runG.sl.H3_1 runG.sl.S3_1 runG.sl.r_8 runG.sl.r_9 runG.sl.r_2 runG.sl.r
    simp only [View.readAt_eq_ld, Memref.IsWhole.read_unread, ru0, ru1, ru2, ru3, View.ld_unit_zero (S := S1x512x1024) hz3, View.ld_unit_zero (S := S512x1) hz2]
    have hz : (Ro (grid0.coords t)).emb y = (Rect.unit (s := S1x2048x1024) (k0_off3 (grid0.coords t)) S1x512x1024.size (k0_off3_inb _ hc)).emb y :=
      funext fun a => Fin.ext (by show k0_off2 _ a + 1 * (y a).val = k0_off3 _ a + 1 * (y a).val; have h := congrFun (e3 (grid0.coords t)) a; omega)
    rw [hz, View.read_writes_cons_emb]
    refine congrFun (congrArg₂ _ (funext fun j => readCov_single_of_idx _ _ _ _ j j ?_) (funext fun j => readCov_single_of_idx _ _ _ _ j j ?_)) y
    · exact funext fun a => Fin.ext (by show k0_off3 _ a + 1 * (j a).val = k0_off2 _ a + 1 * (j a).val; have h := congrFun (e3 (grid0.coords t)) a; omega)
    · exact funext fun a => Fin.ext (by show k0_off4 _ a + 1 * (j a).val = k0_off1 _ a + 1 * (j a).val; have h := congrFun (e4 (grid0.coords t)) a; omega)
  · rw [if_neg hc, dif_neg (show ¬ k0_cond4 (grid0.coords t) = 1#1 from hc)]
    unfold runG.sl.H3_1 runG.sl.r_8 runG.sl.r_9 runG.sl.r_2 runG.sl.r
    rw [View.read_writes_cons_emb]
    simp only [View.readAt_eq_ld, Memref.IsWhole.read_unread, ru0, ru1, ru2, ru3, View.ld_unit_zero (S := S1x512x1024) hz3, View.ld_unit_zero (S := S512x1) hz2]

theorem stG_o3_out (c : Dev nD) (t : Fin cfg0.N) (h1 : ¬cond1 (grid0.coords t)) (h2 : ¬cond2 (grid0.coords t)) (x0 x1 : Vec F S1x512x1024 .bf16) (p : St F) (z : S1x2048x1024.Idx) (hz : z ∉ (Ro (grid0.coords t)).set) :
    (stG c t h1 h2 x0 x1 p).o3 z = p.o3 z := by
  unfold stG runG; dsimp only
  by_cases hc : cond4 (grid0.coords t)
  · rw [dif_pos (show k0_cond4 (grid0.coords t) = 1#1 from hc)]
    unfold runG.sl.H3_1
    have hz' : z ∉ (Rect.unit (s := S1x2048x1024) (k0_off3 (grid0.coords t)) S1x512x1024.size (k0_off3_inb _ hc)).set := by
      rw [Rect.mem_set_unit, e3]; rw [Rect.mem_set_unit] at hz; exact hz
    rw [View.read_writes_apply_of_forall_not_mem _ _ z _ (by
      intro q hq; rcases List.mem_cons.mp hq with rfl | hq
      · exact hz'
      · rw [List.mem_singleton] at hq; subst hq; exact hz)]
    exact congrFun ((hs3 t).read_unread _) z
  · rw [dif_neg (show ¬ k0_cond4 (grid0.coords t) = 1#1 from hc)]
    unfold runG.sl.H3_1
    rw [View.read_writes_apply_of_forall_not_mem _ _ z _ (by intro q hq; rw [List.mem_singleton] at hq; subst hq; exact hz)]
    exact congrFun ((hs3 t).read_unread _) z

end Cert.KernelIdeal.Body
end
-- ==== Proof.KI.ReadD.lean ====
/-
  What the six buffers hold after the first point of a middle row tile: the row side from its fresh start, the column side
  from what it held before.
-/
import proofs.«118892_j1881195675895_2_alg».proof.Proof.KI.ReadLib
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem stD_s0 (c : Dev nD) (t : Fin cfg0.N) (h1 : cond1 (grid0.coords t)) (h2 : ¬cond2 (grid0.coords t)) (h3 : ¬cond3 (grid0.coords t)) (h4 : ¬cond4 (grid0.coords t)) (x0 x1 : Vec F S1x512x1024 .bf16) (p : St F) : (stD c t h1 h2 h3 h4 x0 x1 p).s0 = k0_pay19 (k0_pay14 x0 x1 k0_pay5) := by
  unfold stD runD; dsimp only
  unfold runD.sl.r_3 runD.sl.v13 runD.sl.S0_1
  rw [read_writes_cons_whole _ _ hz2]
  simp only [View.readCov_unit_zero (S := S512x1) _ hz2, View.readCov_unit_zero (S := S1x512x1024) _ hz3, View.readAt_eq_ld, Memref.IsWhole.read_unread, ru0, ru1, ru2, ru3, View.ld_unit_zero (S := S1x512x1024) hz3, View.ld_unit_zero (S := S512x1) hz2]

theorem stD_s1 (c : Dev nD) (t : Fin cfg0.N) (h1 : cond1 (grid0.coords t)) (h2 : ¬cond2 (grid0.coords t)) (h3 : ¬cond3 (grid0.coords t)) (h4 : ¬cond4 (grid0.coords t)) (x0 x1 : Vec F S1x512x1024 .bf16) (p : St F) : (stD c t h1 h2 h3 h4 x0 x1 p).s1 = k0_pay17 x0 x1 k0_pay5 k0_pay6 := by
  unfold stD runD; dsimp only
  unfold runD.sl.v13 runD.sl.v22 runD.sl.S0_1 runD.sl.S1_1
  rw [read_writes_cons_whole _ _ hz2]
  simp only [View.readCov_unit_zero (S := S512x1) _ hz2, View.readCov_unit_zero (S := S1x512x1024) _ hz3, View.readAt_eq_ld, Memref.IsWhole.read_unread, ru0, ru1, ru2, ru3, View.ld_unit_zero (S := S1x512x1024) hz3, View.ld_unit_zero (S := S512x1) hz2]

theorem stD_o2 (c : Dev nD) (t : Fin cfg0.N) (h1 : cond1 (grid0.coords t)) (h2 : ¬cond2 (grid0.coords t)) (h3 : ¬cond3 (grid0.coords t)) (h4 : ¬cond4 (grid0.coords t)) (x0 x1 : Vec F S1x512x1024 .bf16) (p : St F) : (stD c t h1 h2 h3 h4 x0 x1 p).o2 = k0_pay18 (k0_pay12 x1) (k0_pay15 x0 x1 k0_pay5) (k0_pay16 x0 x1 k0_pay5) k0_pay7 := by
  unfold stD runD; dsimp only
  unfold runD.sl.r_1 runD.sl.r_4 runD.sl.r_5 runD.sl.v30 runD.sl.v13 runD.sl.H2_1 runD.sl.S0_1
  rw [read_writes_cons_whole _ _ hz3]
  simp only [View.readCov_unit_zero (S := S512x1) _ hz2, View.readCov_unit_zero (S := S1x512x1024) _ hz3, View.readAt_eq_ld, Memref.IsWhole.read_unread, ru0, ru1, ru2, ru3, View.ld_unit_zero (S := S1x512x1024) hz3, View.ld_unit_zero (S := S512x1) hz2]

theorem stD_s2_in (c : Dev nD) (t : Fin cfg0.N) (h1 : cond1 (grid0.coords t)) (h2 : ¬cond2 (grid0.coords t)) (h3 : ¬cond3 (grid0.coords t)) (h4 : ¬cond4 (grid0.coords t)) (x0 x1 : Vec F S1x512x1024 .bf16) (p : St F) (y : S512x1.Idx) :
    (stD c t h1 h2 h3 h4 x0 x1 p).s2 ((Rs (grid0.coords t)).emb y) = k0_pay2 (k0_pay21 (k0_pay13 x0 x1) (View.ld p.s2 (Rs (grid0.coords t)))) y := by
  unfold stD runD; dsimp only
  unfold runD.sl.r_6 runD.sl.r_2
  rw [View.read_writes_cons_emb]
  simp only [View.readAt_eq_ld, Memref.IsWhole.read_unread, ru0, ru1, ru2, ru3, View.ld_unit_zero (S := S1x512x1024) hz3, View.ld_unit_zero (S := S512x1) hz2]

theorem stD_s2_out (c : Dev nD) (t : Fin cfg0.N) (h1 : cond1 (grid0.coords t)) (h2 : ¬cond2 (grid0.coords t)) (h3 : ¬cond3 (grid0.coords t)) (h4 : ¬cond4 (grid0.coords t)) (x0 x1 : Vec F S1x512x1024 .bf16) (p : St F) (z : S2048x1.Idx) (hz : z ∉ (Rs (grid0.coords t)).set) : (stD c t h1 h2 h3 h4 x0 x1 p).s2 z = p.s2 z := by
  unfold stD runD; dsimp only
  rw [View.read_writes_apply_of_forall_not_mem _ _ z _ (by intro q hq; rw [List.mem_singleton] at hq; subst hq; exact hz)]
  exact congrFun (ru2 (F := F) _ _) z

theorem stD_s3_in (c : Dev nD) (t : Fin cfg0.N) (h1 : cond1 (grid0.coords t)) (h2 : ¬cond2 (grid0.coords t)) (h3 : ¬cond3 (grid0.coords t)) (h4 : ¬cond4 (grid0.coords t)) (x0 x1 : Vec F S1x512x1024 .bf16) (p : St F) (y : S512x1.Idx) :
    (stD c t h1 h2 h3 h4 x0 x1 p).s3 ((Rs (grid0.coords t)).emb y) = k0_pay24 (k0_pay13 x0 x1) (View.ld p.s2 (Rs (grid0.coords t))) (View.ld p.s3 (Rs (grid0.coords t))) y := by
  unfold stD runD; dsimp only
  unfold runD.sl.r_2
  rw [View.read_writes_cons_emb]
  simp only [View.readAt_eq_ld, Memref.IsWhole.read_unread, ru0, ru1, ru2, ru3, View.ld_unit_zero (S := S1x512x1024) hz3, View.ld_unit_zero (S := S512x1) hz2]

theorem stD_s3_out (c : Dev nD) (t : Fin cfg0.N) (h1 : cond1 (grid0.coords t)) (h2 : ¬cond2 (grid0.coords t)) (h3 : ¬cond3 (grid0.coords t)) (h4 : ¬cond4 (grid0.coords t)) (x0 x1 : Vec F S1x512x1024 .bf16) (p : St F) (z : S2048x1.Idx) (hz : z ∉ (Rs (grid0.coords t)).set) : (stD c t h1 h2 h3 h4 x0 x1 p).s3 z = p.s3 z := by
  unfold stD runD; dsimp only
  rw [View.read_writes_apply_of_forall_not_mem _ _ z _ (by intro q hq; rw [List.mem_singleton] at hq; subst hq; exact hz)]
  exact congrFun (ru3 (F := F) _ _) z

theorem stD_o3_in (c : Dev nD) (t : Fin cfg0.N) (h1 : cond1 (grid0.coords t)) (h2 : ¬cond2 (grid0.coords t)) (h3 : ¬cond3 (grid0.coords t)) (h4 : ¬cond4 (grid0.coords t)) (x0 x1 : Vec F S1x512x1024 .bf16) (p : St F) (y : S1x512x1024.Idx) :
    (stD c t h1 h2 h3 h4 x0 x1 p).o3 ((Ro (grid0.coords t)).emb y) = k0_pay1 (k0_pay25 (k0_pay13 x0 x1) (View.ld p.s2 (Rs (grid0.coords t))) (View.ld p.o3 (Ro (grid0.coords t)))) (k0_pay26 (k0_pay11 x0) (k0_pay13 x0 x1) (View.ld p.s2 (Rs (grid0.coords t)))) y := by
  unfold stD runD; dsimp only
  unfold runD.sl.r_7 runD.sl.r_8 runD.sl.r_2 runD.sl.r
  rw [View.read_writes_cons_emb]
  simp only [View.readAt_eq_ld, Memref.IsWhole.read_unread, ru0, ru1, ru2, ru3, View.ld_unit_zero (S := S1x512x1024) hz3, View.ld_unit_zero (S := S512x1) hz2]

theorem stD_o3_out (c : Dev nD) (t : Fin cfg0.N) (h1 : cond1 (grid0.coords t)) (h2 : ¬cond2 (grid0.coords t)) (h3 : ¬cond3 (grid0.coords t)) (h4 : ¬cond4 (grid0.coords t)) (x0 x1 : Vec F S1x512x1024 .bf16) (p : St F) (z : S1x2048x1024.Idx) (hz : z ∉ (Ro (grid0.coords t)).set) : (stD c t h1 h2 h3 h4 x0 x1 p).o3 z = p.o3 z := by
  unfold stD runD; dsimp only
  rw [View.read_writes_apply_of_forall_not_mem _ _ z _ (by intro q hq; rw [List.mem_singleton] at hq; subst hq; exact hz)]
  exact congrFun ((hs3 t).read_unread _) z

end Cert.KernelIdeal.Body
end
-- ==== Proof.KI.ReadE.lean ====
/-
  What the six buffers hold after the first point of the last row tile: the row side from its fresh start, the column side
  from what it held before, the slice's column accumulator divided by its sum.
-/
import proofs.«118892_j1881195675895_2_alg».proof.Proof.KI.ReadLib
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem stE_s0 (c : Dev nD) (t : Fin cfg0.N) (h1 : cond1 (grid0.coords t)) (h2 : ¬cond2 (grid0.coords t)) (h3 : ¬cond3 (grid0.coords t)) (h4 : cond4 (grid0.coords t)) (x0 x1 : Vec F S1x512x1024 .bf16) (p : St F) : (stE c t h1 h2 h3 h4 x0 x1 p).s0 = k0_pay19 (k0_pay14 x0 x1 k0_pay5) := by
  unfold stE runE; dsimp only
  unfold runE.sl.r_3 runE.sl.v13 runE.sl.S0_1
  rw [read_writes_cons_whole _ _ hz2]
  simp only [View.readCov_unit_zero (S := S512x1) _ hz2, View.readCov_unit_zero (S := S1x512x1024) _ hz3, View.readAt_eq_ld, Memref.IsWhole.read_unread, ru0, ru1, ru2, ru3, View.ld_unit_zero (S := S1x512x1024) hz3, View.ld_unit_zero (S := S512x1) hz2]

theorem stE_s1 (c : Dev nD) (t : Fin cfg0.N) (h1 : cond1 (grid0.coords t)) (h2 : ¬cond2 (grid0.coords t)) (h3 : ¬cond3 (grid0.coords t)) (h4 : cond4 (grid0.coords t)) (x0 x1 : Vec F S1x512x1024 .bf16) (p : St F) : (stE c t h1 h2 h3 h4 x0 x1 p).s1 = k0_pay17 x0 x1 k0_pay5 k0_pay6 := by
  unfold stE runE; dsimp only
  unfold runE.sl.v13 runE.sl.v22 runE.sl.S0_1 runE.sl.S1_1
  rw [read_writes_cons_whole _ _ hz2]
  simp only [View.readCov_unit_zero (S := S512x1) _ hz2, View.readCov_unit_zero (S := S1x512x1024) _ hz3, View.readAt_eq_ld, Memref.IsWhole.read_unread, ru0, ru1, ru2, ru3, View.ld_unit_zero (S := S1x512x1024) hz3, View.ld_unit_zero (S := S512x1) hz2]

theorem stE_o2 (c : Dev nD) (t : Fin cfg0.N) (h1 : cond1 (grid0.coords t)) (h2 : ¬cond2 (grid0.coords t)) (h3 : ¬cond3 (grid0.coords t)) (h4 : cond4 (grid0.coords t)) (x0 x1 : Vec F S1x512x1024 .bf16) (p : St F) : (stE c t h1 h2 h3 h4 x0 x1 p).o2 = k0_pay18 (k0_pay12 x1) (k0_pay15 x0 x1 k0_pay5) (k0_pay16 x0 x1 k0_pay5) k0_pay7 := by
  unfold stE runE; dsimp only
  unfold runE.sl.r_1 runE.sl.r_4 runE.sl.r_5 runE.sl.v30 runE.sl.v13 runE.sl.H2_1 runE.sl.S0_1
  rw [read_writes_cons_whole _ _ hz3]
  simp only [View.readCov_unit_zero (S := S512x1) _ hz2, View.readCov_unit_zero (S := S1x512x1024) _ hz3, View.readAt_eq_ld, Memref.IsWhole.read_unread, ru0, ru1, ru2, ru3, View.ld_unit_zero (S := S1x512x1024) hz3, View.ld_unit_zero (S := S512x1) hz2]

theorem stE_s2_in (c : Dev nD) (t : Fin cfg0.N) (h1 : cond1 (grid0.coords t)) (h2 : ¬cond2 (grid0.coords t)) (h3 : ¬cond3 (grid0.coords t)) (h4 : cond4 (grid0.coords t)) (x0 x1 : Vec F S1x512x1024 .bf16) (p : St F) (y : S512x1.Idx) :
    (stE c t h1 h2 h3 h4 x0 x1 p).s2 ((Rs (grid0.coords t)).emb y) = k0_pay2 (k0_pay21 (k0_pay13 x0 x1) (View.ld p.s2 (Rs (grid0.coords t)))) y := by
  unfold stE runE; dsimp only
  unfold runE.sl.r_6 runE.sl.r_2
  rw [View.read_writes_cons_emb]
  simp only [View.readAt_eq_ld, Memref.IsWhole.read_unread, ru0, ru1, ru2, ru3, View.ld_unit_zero (S := S1x512x1024) hz3, View.ld_unit_zero (S := S512x1) hz2]

theorem stE_s2_out (c : Dev nD) (t : Fin cfg0.N) (h1 : cond1 (grid0.coords t)) (h2 : ¬cond2 (grid0.coords t)) (h3 : ¬cond3 (grid0.coords t)) (h4 : cond4 (grid0.coords t)) (x0 x1 : Vec F S1x512x1024 .bf16) (p : St F) (z : S2048x1.Idx) (hz : z ∉ (Rs (grid0.coords t)).set) : (stE c t h1 h2 h3 h4 x0 x1 p).s2 z = p.s2 z := by
  unfold stE runE; dsimp only
  rw [View.read_writes_apply_of_forall_not_mem _ _ z _ (by intro q hq; rw [List.mem_singleton] at hq; subst hq; exact hz)]
  exact congrFun (ru2 (F := F) _ _) z

theorem stE_s3_in (c : Dev nD) (t : Fin cfg0.N) (h1 : cond1 (grid0.coords t)) (h2 : ¬cond2 (grid0.coords t)) (h3 : ¬cond3 (grid0.coords t)) (h4 : cond4 (grid0.coords t)) (x0 x1 : Vec F S1x512x1024 .bf16) (p : St F) (y : S512x1.Idx) :
    (stE c t h1 h2 h3 h4 x0 x1 p).s3 ((Rs (grid0.coords t)).emb y) = k0_pay24 (k0_pay13 x0 x1) (View.ld p.s2 (Rs (grid0.coords t))) (View.ld p.s3 (Rs (grid0.coords t))) y := by
  unfold stE runE; dsimp only
  unfold runE.sl.S3_1 runE.sl.r_2
  rw [View.read_writes_cons_emb]
  simp only [View.readAt_eq_ld, Memref.IsWhole.read_unread, ru0, ru1, ru2, ru3, View.ld_unit_zero (S := S1x512x1024) hz3, View.ld_unit_zero (S := S512x1) hz2]

theorem stE_s3_out (c : Dev nD) (t : Fin cfg0.N) (h1 : cond1 (grid0.coords t)) (h2 : ¬cond2 (grid0.coords t)) (h3 : ¬cond3 (grid0.coords t)) (h4 : cond4 (grid0.coords t)) (x0 x1 : Vec F S1x512x1024 .bf16) (p : St F) (z : S2048x1.Idx) (hz : z ∉ (Rs (grid0.coords t)).set) : (stE c t h1 h2 h3 h4 x0 x1 p).s3 z = p.s3 z := by
  unfold stE runE; dsimp only
  unfold runE.sl.S3_1
  rw [View.read_writes_apply_of_forall_not_mem _ _ z _ (by intro q hq; rw [List.mem_singleton] at hq; subst hq; exact hz)]
  exact congrFun (ru3 (F := F) _ _) z

theorem stE_o3_in (c : Dev nD) (t : Fin cfg0.N) (h1 : cond1 (grid0.coords t)) (h2 : ¬cond2 (grid0.coords t)) (h3 : ¬cond3 (grid0.coords t)) (h4 : cond4 (grid0.coords t)) (x0 x1 : Vec F S1x512x1024 .bf16) (p : St F) (y : S1x512x1024.Idx) :
    (stE c t h1 h2 h3 h4 x0 x1 p).o3 ((Ro (grid0.coords t)).emb y) = k0_pay4 (k0_pay1 (k0_pay25 (k0_pay13 x0 x1) (View.ld p.s2 (Rs (grid0.coords t))) (View.ld p.o3 (Ro (grid0.coords t)))) (k0_pay26 (k0_pay11 x0) (k0_pay13 x0 x1) (View.ld p.s2 (Rs (grid0.coords t))))) (k0_pay24 (k0_pay13 x0 x1) (View.ld p.s2 (Rs (grid0.coords t))) (View.ld p.s3 (Rs (grid0.coords t)))) y := by
  unfold stE runE; dsimp only
  unfold runE.sl.v89 runE.sl.v92 runE.sl.H3_1 runE.sl.S3_1 runE.sl.r_7 runE.sl.r_8 runE.sl.r_2 runE.sl.r
  simp only [View.readAt_eq_ld, Memref.IsWhole.read_unread, ru0, ru1, ru2, ru3, View.ld_unit_zero (S := S1x512x1024) hz3, View.ld_unit_zero (S := S512x1) hz2]
  have hz : (Ro (grid0.coords t)).emb y = (Rect.unit (s := S1x2048x1024) (k0_off3 (grid0.coords t)) S1x512x1024.size (k0_off3_inb _ h4)).emb y :=
    funext fun a => Fin.ext (by show k0_off2 _ a + 1 * (y a).val = k0_off3 _ a + 1 * (y a).val; have h := congrFun (e3 (grid0.coords t)) a; omega)
  rw [hz, View.read_writes_cons_emb]
  refine congrFun (congrArg₂ _ (funext fun j => readCov_single_of_idx _ _ _ _ j j ?_) (funext fun j => readCov_single_of_idx _ _ _ _ j j ?_)) y
  · exact funext fun a => Fin.ext (by show k0_off3 _ a + 1 * (j a).val = k0_off2 _ a + 1 * (j a).val; have h := congrFun (e3 (grid0.coords t)) a; omega)
  · exact funext fun a => Fin.ext (by show k0_off4 _ a + 1 * (j a).val = k0_off1 _ a + 1 * (j a).val; have h := congrFun (e4 (grid0.coords t)) a; omega)

theorem stE_o3_out (c : Dev nD) (t : Fin cfg0.N) (h1 : cond1 (grid0.coords t)) (h2 : ¬cond2 (grid0.coords t)) (h3 : ¬cond3 (grid0.coords t)) (h4 : cond4 (grid0.coords t)) (x0 x1 : Vec F S1x512x1024 .bf16) (p : St F) (z : S1x2048x1024.Idx) (hz : z ∉ (Ro (grid0.coords t)).set) : (stE c t h1 h2 h3 h4 x0 x1 p).o3 z = p.o3 z := by
  unfold stE runE; dsimp only
  unfold runE.sl.H3_1
  have hz' : z ∉ (Rect.unit (s := S1x2048x1024) (k0_off3 (grid0.coords t)) S1x512x1024.size (k0_off3_inb _ h4)).set := by
    rw [Rect.mem_set_unit, e3]; rw [Rect.mem_set_unit] at hz; exact hz
  rw [View.read_writes_apply_of_forall_not_mem _ _ z _ (by
    intro q hq; rcases List.mem_cons.mp hq with rfl | hq
    · exact hz'
    · rw [List.mem_singleton] at hq; subst hq; exact hz)]
  exact congrFun ((hs3 t).read_unread _) z

end Cert.KernelIdeal.Body
end
-- ==== Proof.KI.ReadA.lean ====
/-
  What the six buffers hold after a batch's first point: everything from its fresh start (running maxima at minus infinity,
  sums and accumulators at zero), whatever the buffers held before.
-/
import proofs.«118892_j1881195675895_2_alg».proof.Proof.KI.ReadLib
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem stA_s0 (c : Dev nD) (t : Fin cfg0.N) (h1 : cond1 (grid0.coords t)) (h2 : cond2 (grid0.coords t)) (h3 : ¬cond3 (grid0.coords t)) (h4 : ¬cond4 (grid0.coords t)) (x0 x1 : Vec F S1x512x1024 .bf16) : (stA c t h1 h2 h3 h4 x0 x1).s0 = k0_pay19 (k0_pay14 x0 x1 k0_pay5) := by
  unfold stA runA; dsimp only
  unfold runA.sl.r_3 runA.sl.v13 runA.sl.S0_1
  rw [read_writes_cons_whole _ _ hz2]
  simp only [View.readCov_unit_zero (S := S512x1) _ hz2, View.readCov_unit_zero (S := S1x512x1024) _ hz3, View.readAt_eq_ld, Memref.IsWhole.read_unread, ru0, ru1, ru2, ru3, View.ld_unit_zero (S := S1x512x1024) hz3, View.ld_unit_zero (S := S512x1) hz2]

theorem stA_s1 (c : Dev nD) (t : Fin cfg0.N) (h1 : cond1 (grid0.coords t)) (h2 : cond2 (grid0.coords t)) (h3 : ¬cond3 (grid0.coords t)) (h4 : ¬cond4 (grid0.coords t)) (x0 x1 : Vec F S1x512x1024 .bf16) : (stA c t h1 h2 h3 h4 x0 x1).s1 = k0_pay17 x0 x1 k0_pay5 k0_pay6 := by
  unfold stA runA; dsimp only
  unfold runA.sl.v13 runA.sl.v22 runA.sl.S0_1 runA.sl.S1_1
  rw [read_writes_cons_whole _ _ hz2]
  simp only [View.readCov_unit_zero (S := S512x1) _ hz2, View.readCov_unit_zero (S := S1x512x1024) _ hz3, View.readAt_eq_ld, Memref.IsWhole.read_unread, ru0, ru1, ru2, ru3, View.ld_unit_zero (S := S1x512x1024) hz3, View.ld_unit_zero (S := S512x1) hz2]

theorem stA_o2 (c : Dev nD) (t : Fin cfg0.N) (h1 : cond1 (grid0.coords t)) (h2 : cond2 (grid0.coords t)) (h3 : ¬cond3 (grid0.coords t)) (h4 : ¬cond4 (grid0.coords t)) (x0 x1 : Vec F S1x512x1024 .bf16) : (stA c t h1 h2 h3 h4 x0 x1).o2 = k0_pay18 (k0_pay12 x1) (k0_pay15 x0 x1 k0_pay5) (k0_pay16 x0 x1 k0_pay5) k0_pay7 := by
  unfold stA runA; dsimp only
  unfold runA.sl.r_1 runA.sl.r_4 runA.sl.r_5 runA.sl.v30 runA.sl.v13 runA.sl.H2_1 runA.sl.S0_1
  rw [read_writes_cons_whole _ _ hz3]
  simp only [View.readCov_unit_zero (S := S512x1) _ hz2, View.readCov_unit_zero (S := S1x512x1024) _ hz3, View.readAt_eq_ld, Memref.IsWhole.read_unread, ru0, ru1, ru2, ru3, View.ld_unit_zero (S := S1x512x1024) hz3, View.ld_unit_zero (S := S512x1) hz2]

/-- Off the last store's rectangle the earlier stores are read. -/
theorem read_writes_cons_off {sig' : RefSig} {κ : Kind} {sp : Space} {S : Shape} {e : EltTy} (v : View sig' κ sp S e) (f : v.ty.Contents (Elt F))
    (r : Rect S) (w : r.shape.Idx → Elt F e) (L : List (View.Piece (Elt F) S e)) {z : S.Idx} (hz : z ∉ r.set) :
    v.read (Elt F) (v.writes (Elt F) f (⟨r, w⟩ :: L)) z = v.read (Elt F) (v.writes (Elt F) f L) z :=
  read_writes_cons_of_not_mem v f ⟨r, w⟩ L hz

theorem stA_s2_in (c : Dev nD) (t : Fin cfg0.N) (h1 : cond1 (grid0.coords t)) (h2 : cond2 (grid0.coords t)) (h3 : ¬cond3 (grid0.coords t)) (h4 : ¬cond4 (grid0.coords t)) (x0 x1 : Vec F S1x512x1024 .bf16) (y : S512x1.Idx) :
    (stA c t h1 h2 h3 h4 x0 x1).s2 ((Rs (grid0.coords t)).emb y) = k0_pay2 (k0_pay21 (k0_pay13 x0 x1) (View.ld k0_pay8 (Rs (grid0.coords t)))) y := by
  unfold stA runA; dsimp only
  unfold runA.sl.r_6 runA.sl.r_2 runA.sl.S2_1
  rw [View.read_writes_cons_emb]
  simp only [View.readAt_eq_ld, read_writes_cons_whole (S := S2048x1) _ _ hz2, Memref.IsWhole.read_unread, View.ld_unit_zero (S := S1x512x1024) hz3]

theorem stA_s2_out (c : Dev nD) (t : Fin cfg0.N) (h1 : cond1 (grid0.coords t)) (h2 : cond2 (grid0.coords t)) (h3 : ¬cond3 (grid0.coords t)) (h4 : ¬cond4 (grid0.coords t)) (x0 x1 : Vec F S1x512x1024 .bf16) (z : S2048x1.Idx) (hz : z ∉ (Rs (grid0.coords t)).set) : (stA c t h1 h2 h3 h4 x0 x1).s2 z = k0_pay8 z := by
  unfold stA runA; dsimp only
  rw [read_writes_cons_off _ _ (Rs (grid0.coords t)) _ _ hz]
  unfold runA.sl.S2_1
  rw [read_writes_cons_whole (S := S2048x1) _ _ hz2]

theorem stA_s3_in (c : Dev nD) (t : Fin cfg0.N) (h1 : cond1 (grid0.coords t)) (h2 : cond2 (grid0.coords t)) (h3 : ¬cond3 (grid0.coords t)) (h4 : ¬cond4 (grid0.coords t)) (x0 x1 : Vec F S1x512x1024 .bf16) (y : S512x1.Idx) :
    (stA c t h1 h2 h3 h4 x0 x1).s3 ((Rs (grid0.coords t)).emb y) = k0_pay24 (k0_pay13 x0 x1) (View.ld k0_pay8 (Rs (grid0.coords t))) (View.ld k0_pay9 (Rs (grid0.coords t))) y := by
  unfold stA runA; dsimp only
  unfold runA.sl.r_2 runA.sl.S2_1 runA.sl.S3_1
  rw [View.read_writes_cons_emb]
  simp only [View.readAt_eq_ld, read_writes_cons_whole (S := S2048x1) _ _ hz2, Memref.IsWhole.read_unread, View.ld_unit_zero (S := S1x512x1024) hz3]

theorem stA_s3_out (c : Dev nD) (t : Fin cfg0.N) (h1 : cond1 (grid0.coords t)) (h2 : cond2 (grid0.coords t)) (h3 : ¬cond3 (grid0.coords t)) (h4 : ¬cond4 (grid0.coords t)) (x0 x1 : Vec F S1x512x1024 .bf16) (z : S2048x1.Idx) (hz : z ∉ (Rs (grid0.coords t)).set) : (stA c t h1 h2 h3 h4 x0 x1).s3 z = k0_pay9 z := by
  unfold stA runA; dsimp only
  rw [read_writes_cons_off _ _ (Rs (grid0.coords t)) _ _ hz]
  unfold runA.sl.S3_1
  rw [read_writes_cons_whole (S := S2048x1) _ _ hz2]

theorem stA_o3_in (c : Dev nD) (t : Fin cfg0.N) (h1 : cond1 (grid0.coords t)) (h2 : cond2 (grid0.coords t)) (h3 : ¬cond3 (grid0.coords t)) (h4 : ¬cond4 (grid0.coords t)) (x0 x1 : Vec F S1x512x1024 .bf16) (y : S1x512x1024.Idx) :
    (stA c t h1 h2 h3 h4 x0 x1).o3 ((Ro (grid0.coords t)).emb y) = k0_pay1 (k0_pay25 (k0_pay13 x0 x1) (View.ld k0_pay8 (Rs (grid0.coords t))) (View.ld k0_pay10 (Ro (grid0.coords t)))) (k0_pay26 (k0_pay11 x0) (k0_pay13 x0 x1) (View.ld k0_pay8 (Rs (grid0.coords t)))) y := by
  unfold stA runA; dsimp only
  unfold runA.sl.r_7 runA.sl.r_8 runA.sl.r_2 runA.sl.r runA.sl.S2_1 runA.sl.H3_1
  rw [View.read_writes_cons_emb]
  simp only [View.readAt_eq_ld, read_writes_cons_whole (S := S2048x1) _ _ hz2, read_writes_cons_whole (S := S1x2048x1024) _ _ hz3, Memref.IsWhole.read_unread, View.ld_unit_zero (S := S1x512x1024) hz3]

theorem stA_o3_out (c : Dev nD) (t : Fin cfg0.N) (h1 : cond1 (grid0.coords t)) (h2 : cond2 (grid0.coords t)) (h3 : ¬cond3 (grid0.coords t)) (h4 : ¬cond4 (grid0.coords t)) (x0 x1 : Vec F S1x512x1024 .bf16) (z : S1x2048x1024.Idx) (hz : z ∉ (Ro (grid0.coords t)).set) : (stA c t h1 h2 h3 h4 x0 x1).o3 z = k0_pay10 z := by
  unfold stA runA; dsimp only
  rw [read_writes_cons_off _ _ (Ro (grid0.coords t)) _ _ hz]
  unfold runA.sl.H3_1
  rw [read_writes_cons_whole (S := S1x2048x1024) _ _ hz3]

end Cert.KernelIdeal.Body
end
-- ==== Proof.Math.Online.lean ====
/-
  The online (streaming) softmax-weighted sum against the plain one, as pure mathematics on the
  extended reals.

  The streaming form walks over blocks of scores, keeping a running maximum `mx`, a running sum `l`
  of `exp (s - mx)` and a running accumulator `acc` of `exp (s - mx) * v`; each new block raises the
  maximum and rescales the old sum and accumulator by `exp (mx_old - mx_new)`; at the end the
  accumulator is divided by the sum. The plain form takes the maximum of all the scores, the
  exponentials shifted by it, divides each by their sum and then takes the weighted sum.

  Both are the same real number: the ratio
      (∑ exp (s i - c) * v i) / (∑ exp (s i - c))
  does not depend on the shift `c` (`soft_shift`), because `exp (s - c) = exp (M - c) * exp (s - M)`
  and the common positive factor cancels. So neither side needs to know WHICH real its maximum is,
  only that it is a real. The scores and values are finite; the one non-finite number is the initial
  running maximum `⊥`, which only ever multiplies the initial sum and accumulator `0`.
-/
import Idealize.ShloMosaic.PureOps.Ideal
import Idealize.ShloMosaic.PureOps.Ideal.Laws

open Idealize.ShloMosaic

noncomputable section

namespace Cert.Softmax

/-- the maximum of one block of scores: the fold of `max` from `⊥` -/
def bmax {β : Type} [Fintype β] (sc : β → EReal) : EReal := (Finset.univ : Finset β).fold max ⊥ sc

/-- the streaming state: running maximum, running sum, running accumulator (one per output column) -/
structure Acc (δ : Type) where
  mx : EReal
  l : EReal
  acc : δ → EReal

/-- before the first block: maximum `⊥`, sum `0`, accumulator `0` -/
def Acc.init {δ : Type} : Acc δ := ⟨⊥, 0, fun _ => 0⟩

/-- one block: raise the maximum, rescale the old sum and accumulator, add the block's terms -/
def Acc.step {β δ : Type} [Fintype β] (a : Acc δ) (sc : β → EReal) (v : β → δ → EReal) : Acc δ :=
  ⟨max a.mx (bmax sc),
   Ideal.exp (a.mx - max a.mx (bmax sc)) * a.l + ∑ j, Ideal.exp (sc j - max a.mx (bmax sc)),
   fun d => Ideal.exp (a.mx - max a.mx (bmax sc)) * a.acc d + ∑ j, Ideal.exp (sc j - max a.mx (bmax sc)) * v j d⟩

/-- the state after the first `k` blocks -/
def Acc.run {β δ : Type} [Fintype β] (s : ℕ → β → EReal) (v : ℕ → β → δ → EReal) : ℕ → Acc δ
  | 0 => Acc.init
  | k + 1 => (Acc.run s v k).step (s k) (v k)

/-- the canonical closed form over ANY finite nonempty index type ι: softmax weights of the real scores sr, applied to the real values vr -/
def soft {ι : Type} [Fintype ι] [Nonempty ι] (sr : ι → ℝ) (vr : ι → ℝ) : ℝ :=
  (∑ i, Real.exp (sr i - Finset.univ.sup' Finset.univ_nonempty sr) * vr i) / (∑ i, Real.exp (sr i - Finset.univ.sup' Finset.univ_nonempty sr))

/-! ### Coercion of finite sums and maxima -/

/-- a finite sum of reals, coerced, is the sum of the coercions -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- the coercion commutes with `max` (it is monotone) -/
theorem coe_max (x y : ℝ) : ((max x y : ℝ) : EReal) = max (x : EReal) (y : EReal) :=
  EReal.coe_strictMono.monotone.map_max

/-- the fold of `max` from `⊥` over the coercions of a nonempty family of reals is the coercion of their maximum -/
theorem fold_max_coe {ι : Type} (s : Finset ι) (hs : s.Nonempty) (f : ι → ℝ) :
    s.fold max ⊥ (fun i => (f i : EReal)) = ((s.sup' hs f : ℝ) : EReal) := by
  have h1 : s.fold max ⊥ (fun i => (f i : EReal)) = s.sup (fun i => (f i : EReal)) := rfl
  rw [h1, ← Finset.sup'_eq_sup hs]
  exact (Finset.apply_sup'_eq_sup'_comp hs (fun x : ℝ => (x : EReal)) (fun x y => coe_max x y)).symm

theorem bmax_coe {β : Type} [Fintype β] [Nonempty β] (f : β → ℝ) :
    bmax (fun j => (f j : EReal)) = ((Finset.univ.sup' Finset.univ_nonempty f : ℝ) : EReal) :=
  fold_max_coe Finset.univ Finset.univ_nonempty f

/-- the exponential of a difference of two finite numbers -/
theorem exp_coe_sub (x y : ℝ) : Ideal.exp ((x : EReal) - (y : EReal)) = ((Real.exp (x - y) : ℝ) : EReal) := by
  rw [← EReal.coe_sub, Ideal.exp_coe]

/-! ### The ratio does not depend on the shift -/

theorem sum_exp_pos {ι : Type} [Fintype ι] [Nonempty ι] (sr : ι → ℝ) (c : ℝ) :
    0 < ∑ i, Real.exp (sr i - c) :=
  Finset.sum_pos (fun i _ => Real.exp_pos _) Finset.univ_nonempty

/-- shifting every score by any real `c` instead of the maximum gives the same weighted average -/
theorem soft_shift {ι : Type} [Fintype ι] [Nonempty ι] (sr vr : ι → ℝ) (c : ℝ) :
    (∑ i, Real.exp (sr i - c) * vr i) / (∑ i, Real.exp (sr i - c)) = soft sr vr := by
  unfold soft
  set M := Finset.univ.sup' Finset.univ_nonempty sr
  have h : ∀ i, Real.exp (sr i - c) = Real.exp (M - c) * Real.exp (sr i - M) := by
    intro i
    rw [← Real.exp_add]
    congr 1
    ring
  simp_rw [h, mul_assoc, ← Finset.mul_sum]
  rw [mul_div_mul_left _ _ (Real.exp_pos _).ne']

theorem soft_equiv {ι κ : Type} [Fintype ι] [Nonempty ι] [Fintype κ] [Nonempty κ] (e : ι ≃ κ) (sr : κ → ℝ) (vr : κ → ℝ) :
    soft (fun i => sr (e i)) (fun i => vr (e i)) = soft sr vr := by
  rw [← soft_shift (fun i => sr (e i)) (fun i => vr (e i)) (Finset.univ.sup' Finset.univ_nonempty sr)]
  unfold soft
  rw [Equiv.sum_comp e (fun k => Real.exp (sr k - Finset.univ.sup' Finset.univ_nonempty sr) * vr k),
    Equiv.sum_comp e (fun k => Real.exp (sr k - Finset.univ.sup' Finset.univ_nonempty sr))]

/-! ### The plain softmax-weighted sum -/

theorem plain_eq_soft {ι : Type} [Fintype ι] [Nonempty ι] (sr : ι → ℝ) (vr : ι → ℝ) :
    (∑ i, Ideal.div (Ideal.exp ((sr i : EReal) - (Finset.univ : Finset ι).fold max ⊥ (fun i => (sr i : EReal))))
                    (0 + ∑ i', Ideal.exp ((sr i' : EReal) - (Finset.univ : Finset ι).fold max ⊥ (fun i => (sr i : EReal)))) * (vr i : EReal))
      = ((soft sr vr : ℝ) : EReal) := by
  rw [fold_max_coe Finset.univ Finset.univ_nonempty sr]
  set c := Finset.univ.sup' Finset.univ_nonempty sr
  simp_rw [exp_coe_sub]
  rw [coe_sum, zero_add]
  have hL : (∑ i, Real.exp (sr i - c)) ≠ 0 := (sum_exp_pos sr c).ne'
  simp_rw [Ideal.div_coe hL, ← EReal.coe_mul]
  rw [coe_sum, ← soft_shift sr vr c]
  congr 1
  rw [Finset.sum_div]
  refine Finset.sum_congr rfl fun i _ => ?_
  ring

/-! ### The streaming form -/

/-- one block on a state whose three components are finite -/
theorem step_coe {β δ : Type} [Fintype β] [Nonempty β] (m L : ℝ) (A : δ → ℝ) (f : β → ℝ) (w : β → δ → ℝ) :
    (Acc.step (⟨(m : EReal), (L : EReal), fun d => (A d : EReal)⟩ : Acc δ) (fun j => (f j : EReal)) (fun j d => (w j d : EReal)))
      = ⟨((max m (Finset.univ.sup' Finset.univ_nonempty f) : ℝ) : EReal),
         ((Real.exp (m - max m (Finset.univ.sup' Finset.univ_nonempty f)) * L
            + ∑ j, Real.exp (f j - max m (Finset.univ.sup' Finset.univ_nonempty f)) : ℝ) : EReal),
         fun d => ((Real.exp (m - max m (Finset.univ.sup' Finset.univ_nonempty f)) * A d
            + ∑ j, Real.exp (f j - max m (Finset.univ.sup' Finset.univ_nonempty f)) * w j d : ℝ) : EReal)⟩ := by
  unfold Acc.step
  simp only [bmax_coe, ← coe_max, exp_coe_sub, ← EReal.coe_mul, coe_sum, ← EReal.coe_add]

/-- the first block: the initial maximum `⊥` gives way to the block's own, and the initial sum and
    accumulator `0` annihilate their rescaling factor -/
theorem step_init {β δ : Type} [Fintype β] [Nonempty β] (f : β → ℝ) (w : β → δ → ℝ) :
    (Acc.step (Acc.init : Acc δ) (fun j => (f j : EReal)) (fun j d => (w j d : EReal)))
      = ⟨((Finset.univ.sup' Finset.univ_nonempty f : ℝ) : EReal),
         ((∑ j, Real.exp (f j - Finset.univ.sup' Finset.univ_nonempty f) : ℝ) : EReal),
         fun d => ((∑ j, Real.exp (f j - Finset.univ.sup' Finset.univ_nonempty f) * w j d : ℝ) : EReal)⟩ := by
  unfold Acc.step Acc.init
  simp only [bmax_coe, max_bot_left, mul_zero, zero_add, exp_coe_sub, ← EReal.coe_mul, coe_sum]

/-- the running maximum of the first `k + 1` blocks, as a real -/
def rmax {β : Type} [Fintype β] [Nonempty β] (sr : ℕ → β → ℝ) : ℕ → ℝ
  | 0 => Finset.univ.sup' Finset.univ_nonempty (sr 0)
  | k + 1 => max (rmax sr k) (Finset.univ.sup' Finset.univ_nonempty (sr (k + 1)))

/-- raising the shift from `m` to `m'` is multiplying by `exp (m - m')`: the sums -/
theorem rescale_l {β : Type} [Fintype β] (sr : ℕ → β → ℝ) (n : ℕ) (m m' : ℝ) :
    Real.exp (m - m') * ∑ i ∈ Finset.range n, ∑ j, Real.exp (sr i j - m)
      = ∑ i ∈ Finset.range n, ∑ j, Real.exp (sr i j - m') := by
  rw [Finset.mul_sum]
  refine Finset.sum_congr rfl fun i _ => ?_
  rw [Finset.mul_sum]
  refine Finset.sum_congr rfl fun j _ => ?_
  rw [← Real.exp_add]
  congr 1
  ring

/-- raising the shift from `m` to `m'` is multiplying by `exp (m - m')`: the weighted sums -/
theorem rescale_acc {β : Type} [Fintype β] (sr : ℕ → β → ℝ) (w : ℕ → β → ℝ) (n : ℕ) (m m' : ℝ) :
    Real.exp (m - m') * ∑ i ∈ Finset.range n, ∑ j, Real.exp (sr i j - m) * w i j
      = ∑ i ∈ Finset.range n, ∑ j, Real.exp (sr i j - m') * w i j := by
  rw [Finset.mul_sum]
  refine Finset.sum_congr rfl fun i _ => ?_
  rw [Finset.mul_sum]
  refine Finset.sum_congr rfl fun j _ => ?_
  rw [← mul_assoc, ← Real.exp_add]
  congr 2
  ring

/-- the invariant: after `k + 1` blocks the maximum is the real running maximum, and the sum and the
    accumulator are the sums over all the scores seen so far, shifted by it -/
theorem run_succ {β δ : Type} [Fintype β] [Nonempty β] (sr : ℕ → β → ℝ) (vr : ℕ → β → δ → ℝ) (k : ℕ) :
    Acc.run (fun k j => (sr k j : EReal)) (fun k j d => (vr k j d : EReal)) (k + 1)
      = ⟨((rmax sr k : ℝ) : EReal),
         ((∑ i ∈ Finset.range (k + 1), ∑ j, Real.exp (sr i j - rmax sr k) : ℝ) : EReal),
         fun d => ((∑ i ∈ Finset.range (k + 1), ∑ j, Real.exp (sr i j - rmax sr k) * vr i j d : ℝ) : EReal)⟩ := by
  induction k with
  | zero =>
    show Acc.step Acc.init (fun j => (sr 0 j : EReal)) (fun j d => (vr 0 j d : EReal)) = _
    rw [step_init]
    simp only [Finset.sum_range_one, rmax, zero_add]
  | succ k ih =>
    show Acc.step (Acc.run (fun k j => (sr k j : EReal)) (fun k j d => (vr k j d : EReal)) (k + 1))
      (fun j => (sr (k + 1) j : EReal)) (fun j d => (vr (k + 1) j d : EReal)) = _
    rw [ih, step_coe]
    have e1 : max (rmax sr k) (Finset.univ.sup' Finset.univ_nonempty (sr (k + 1))) = rmax sr (k + 1) := rfl
    rw [e1]
    congr 1
    · congr 1
      rw [Finset.sum_range_succ _ (k + 1), rescale_l]
    · funext d
      congr 1
      rw [Finset.sum_range_succ _ (k + 1), rescale_acc sr (fun i j => vr i j d)]

/-- a sum over the first `n` blocks and the index inside a block is the sum over the pairs -/
theorem sum_range_eq_sum_prod {β : Type} [Fintype β] (n : ℕ) (F : ℕ → β → ℝ) :
    ∑ i ∈ Finset.range n, ∑ j, F i j = ∑ p : Fin n × β, F p.1.val p.2 := by
  rw [Fintype.sum_prod_type, Fin.sum_univ_eq_sum_range (fun i => ∑ j, F i j) n]

theorem online_eq_soft {β δ : Type} [Fintype β] [Nonempty β] (n : ℕ) [NeZero n] (sr : ℕ → β → ℝ) (vr : ℕ → β → δ → ℝ) (d : δ) :
    Ideal.div ((Acc.run (fun k j => (sr k j : EReal)) (fun k j d => (vr k j d : EReal)) n).acc d)
              ((Acc.run (fun k j => (sr k j : EReal)) (fun k j d => (vr k j d : EReal)) n).l)
      = ((soft (ι := Fin n × β) (fun p => sr p.1.val p.2) (fun p => vr p.1.val p.2 d) : ℝ) : EReal) := by
  obtain ⟨k, rfl⟩ := Nat.exists_eq_add_one_of_ne_zero (NeZero.ne n)
  rw [run_succ]
  show Ideal.div ((∑ i ∈ Finset.range (k + 1), ∑ j, Real.exp (sr i j - rmax sr k) * vr i j d : ℝ) : EReal)
    ((∑ i ∈ Finset.range (k + 1), ∑ j, Real.exp (sr i j - rmax sr k) : ℝ) : EReal) = _
  rw [sum_range_eq_sum_prod (k + 1) (fun i j => Real.exp (sr i j - rmax sr k) * vr i j d),
    sum_range_eq_sum_prod (k + 1) (fun i j => Real.exp (sr i j - rmax sr k))]
  have hL : (∑ p : Fin (k + 1) × β, Real.exp (sr p.1.val p.2 - rmax sr k)) ≠ 0 :=
    (sum_exp_pos (fun p : Fin (k + 1) × β => sr p.1.val p.2) (rmax sr k)).ne'
  rw [Ideal.div_coe hL, ← EReal.coe_mul, mul_one_div,
    soft_shift (fun p : Fin (k + 1) × β => sr p.1.val p.2) (fun p => vr p.1.val p.2 d) (rmax sr k)]

end Cert.Softmax
-- ==== Proof.Spec.lean ====
/-
  The two results as functions of the argument arrays x and y (each 8 × 2048 × 1024, extended reals).
  The score of row n of x against row r of y in batch b is their inner product over the 1024 features. The first
  result weights the rows of y by the softmax of row n's scores over r; the second weights the rows of x by the
  softmax of column r's scores over n. Each softmax is written as the reference computes it: the exponential of the
  score less the maximum over the normalised axis, divided by the sum of those exponentials.
-/
import Idealize.ShloMosaic.PureOps.Ideal
import Idealize.ShloMosaic.PureOps.Ideal.Laws
import Idealize.ShloMosaic.Lib.ValueIdx

noncomputable section

namespace Cert.CoAttn

open Idealize.ShloMosaic Idealize.ShloMosaic.ValueIdx

/-- The shape of both arguments and both results. -/
abbrev SX : Shape := ⟨3, ![8, 2048, 1024]⟩

/-- The score of row `n` of x against row `r` of y in batch `b`. -/
def score (x y : SX.Idx → EReal) (b : Fin 8) (n r : Fin 2048) : EReal :=
  ∑ k : Fin 1024, x (ix3 b n k) * y (ix3 b r k)

/-- Row n's attention over the rows of y, applied to y. -/
def resA (x y : SX.Idx → EReal) (b : Fin 8) (n : Fin 2048) (d : Fin 1024) : EReal :=
  ∑ r : Fin 2048,
    Ideal.div (Ideal.exp (score x y b n r - (Finset.univ : Finset (Fin 2048)).fold max ⊥ (fun r' => score x y b n r')))
      (0 + ∑ r' : Fin 2048, Ideal.exp (score x y b n r' - (Finset.univ : Finset (Fin 2048)).fold max ⊥ (fun r'' => score x y b n r'')))
      * y (ix3 b r d)

/-- Column r's attention over the rows of x, applied to x. -/
def resB (x y : SX.Idx → EReal) (b : Fin 8) (r : Fin 2048) (d : Fin 1024) : EReal :=
  ∑ n : Fin 2048,
    Ideal.div (Ideal.exp (score x y b n r - (Finset.univ : Finset (Fin 2048)).fold max ⊥ (fun n' => score x y b n' r)))
      (0 + ∑ n' : Fin 2048, Ideal.exp (score x y b n' r - (Finset.univ : Finset (Fin 2048)).fold max ⊥ (fun n'' => score x y b n'' r)))
      * x (ix3 b n d)

end Cert.CoAttn

end
-- ==== Proof.Model.lean ====
/-
  The kernel's arithmetic as a pure recurrence, free of buffers and memory.
  A batch is walked in 16 steps: row tile qi = 0..3 (outer), column tile ki = 0..3 (inner). The state holds, for the
  current row tile, each row's running maximum, running sum and running accumulator (over the column tiles seen so
  far), and, for all 2048 columns of the batch, each column's running maximum, running sum and running accumulator
  (over the row tiles seen so far). A step forms the 512 × 512 tile of scores once and feeds its rows to the row
  statistics and its columns to the column statistics of the ki-th slice; the row side starts afresh when ki = 0, the
  column side when qi = ki = 0; the row accumulator is divided by its sum when ki = 3, the slice's column accumulator
  by its sum when qi = 3.
-/
import proofs.«118892_j1881195675895_2_alg».proof.Proof.Math.Online
import proofs.«118892_j1881195675895_2_alg».proof.Proof.Spec

open Idealize.ShloMosaic Idealize.ShloMosaic.ValueIdx

noncomputable section

namespace Cert.CoAttn.Model

open Cert.Softmax Cert.CoAttn

/-- The six carried quantities, index by index. -/
structure PSt where
  s0 : Fin 512 → EReal
  s1 : Fin 512 → EReal
  o2 : Fin 512 → Fin 1024 → EReal
  s2 : Fin 2048 → EReal
  s3 : Fin 2048 → EReal
  o3 : Fin 2048 → Fin 1024 → EReal

/-- Row `k` of tile `j` among the 2048 rows of a batch. -/
def row (j : Fin 4) (k : Fin 512) : Fin 2048 := ⟨512 * j.val + k.val, by omega⟩

/-- The row side started afresh. -/
def resetRow (p : PSt) : PSt := { p with s0 := fun _ => ⊥, s1 := fun _ => 0, o2 := fun _ _ => 0 }
/-- The column side started afresh. -/
def resetCol (p : PSt) : PSt := { p with s2 := fun _ => ⊥, s3 := fun _ => 0, o3 := fun _ _ => 0 }

/-- The tile of scores of the x block against the y block. -/
def tile (xb yb : Fin 512 → Fin 1024 → EReal) (q k : Fin 512) : EReal := ∑ f : Fin 1024, xb q f * yb k f

def rowAcc (p : PSt) (q : Fin 512) : Acc (Fin 1024) := ⟨p.s0 q, p.s1 q, p.o2 q⟩
def colAcc (p : PSt) (r : Fin 2048) : Acc (Fin 1024) := ⟨p.s2 r, p.s3 r, p.o3 r⟩

/-- Row `q`'s statistics after the tile. -/
def rowNext (xb yb : Fin 512 → Fin 1024 → EReal) (p : PSt) (q : Fin 512) : Acc (Fin 1024) :=
  (rowAcc p q).step (fun k => tile xb yb q k) (fun k d => yb k d)
/-- Column `k` of slice `ki`: its statistics after the tile. -/
def colNext (xb yb : Fin 512 → Fin 1024 → EReal) (p : PSt) (ki : Fin 4) (k : Fin 512) : Acc (Fin 1024) :=
  (colAcc p (row ki k)).step (fun q => tile xb yb q k) (fun q d => xb q d)

/-- The body on a state whose resets have been applied: slice `ki` of the column side, `c3` = divide the row
    accumulator, `c4` = divide the slice's column accumulator. -/
def body (ki : Fin 4) (c3 c4 : Bool) (xb yb : Fin 512 → Fin 1024 → EReal) (p : PSt) : PSt where
  s0 q := (rowNext xb yb p q).mx
  s1 q := (rowNext xb yb p q).l
  o2 q d := if c3 then Ideal.div ((rowNext xb yb p q).acc d) (rowNext xb yb p q).l else (rowNext xb yb p q).acc d
  s2 r := if h : r.val / 512 = ki.val then (colNext xb yb p ki ⟨r.val % 512, Nat.mod_lt _ (by norm_num)⟩).mx else p.s2 r
  s3 r := if h : r.val / 512 = ki.val then (colNext xb yb p ki ⟨r.val % 512, Nat.mod_lt _ (by norm_num)⟩).l else p.s3 r
  o3 r d := if h : r.val / 512 = ki.val then
      (if c4 then Ideal.div ((colNext xb yb p ki ⟨r.val % 512, Nat.mod_lt _ (by norm_num)⟩).acc d) (colNext xb yb p ki ⟨r.val % 512, Nat.mod_lt _ (by norm_num)⟩).l
       else (colNext xb yb p ki ⟨r.val % 512, Nat.mod_lt _ (by norm_num)⟩).acc d)
    else p.o3 r d

/-- The coordinates of step `n`. -/
def bOf (n : ℕ) : Fin 8 := ⟨n / 16 % 8, Nat.mod_lt _ (by norm_num)⟩
def qiOf (n : ℕ) : Fin 4 := ⟨n / 4 % 4, Nat.mod_lt _ (by norm_num)⟩
def kiOf (n : ℕ) : Fin 4 := ⟨n % 4, Nat.mod_lt _ (by norm_num)⟩

/-- One step: the resets the step's number asks for, then the body. -/
def pstep (n : ℕ) (xb yb : Fin 512 → Fin 1024 → EReal) (p : PSt) : PSt :=
  body (kiOf n) (decide (n % 4 = 3)) (decide (12 ≤ n % 16)) xb yb
    (if n % 16 = 0 then resetCol (resetRow p) else if n % 4 = 0 then resetRow p else p)

variable (xr yr : SX.Idx → ℝ)

/-- The x block and the y block of step `n`, from real arrays. -/
def xblk (n : ℕ) : Fin 512 → Fin 1024 → EReal := fun q f => (xr (ix3 (bOf n) (row (qiOf n) q) f) : EReal)
def yblk (n : ℕ) : Fin 512 → Fin 1024 → EReal := fun k f => (yr (ix3 (bOf n) (row (kiOf n) k) f) : EReal)

/-- The state after step `n`, from any state before the first. -/
def pstAt (p0 : PSt) : ℕ → PSt
  | 0 => pstep 0 (xblk xr 0) (yblk yr 0) p0
  | n + 1 => pstep (n + 1) (xblk xr (n + 1)) (yblk yr (n + 1)) (pstAt p0 n)

end Cert.CoAttn.Model

end
-- ==== Proof.KI.Coords.lean ====
/-
  Where the point's slice sits among the batch's 2048 columns: the slice the point works on is the ki-th run of 512, so
  column r lies in it exactly when r / 512 = ki, and then it is entry r % 512 of the slice.
-/
import proofs.«118892_j1881195675895_2_alg».proof.Proof.KI.ReadLib
import Idealize.ShloMosaic.Lib.Pipeline.FrameBody
import Idealize.ShloMosaic.Lib.Pipeline.Value
import proofs.«118892_j1881195675895_2_alg».proof.Proof.Model
import Idealize.ShloMosaic.Lib.ValueIdx
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.CoAttn.Model

/-- The point's column tile is its number mod 4. -/
theorem ki_val : ∀ t : Fin cfg0.N, ((grid0.coords t) 2).val = t.val % 4 :=
  (by decide +kernel : ∀ t : Fin grid0.N, ((grid0.coords t) 2).val = t.val % 4)

theorem off1_0 (t : Fin cfg0.N) : k0_off1 (grid0.coords t) 0 = 512 * (t.val % 4) := by rw [k0_off1_eq, ← ki_val]; rfl
theorem off1_1 (t : Fin cfg0.N) : k0_off1 (grid0.coords t) 1 = 0 := by rw [k0_off1_eq]; rfl
theorem off2_0 (t : Fin cfg0.N) : k0_off2 (grid0.coords t) 0 = 0 := by rw [k0_off2_eq]; rfl
theorem off2_1 (t : Fin cfg0.N) : k0_off2 (grid0.coords t) 1 = 512 * (t.val % 4) := by rw [k0_off2_eq, ← ki_val]; rfl
theorem off2_2 (t : Fin cfg0.N) : k0_off2 (grid0.coords t) 2 = 0 := by rw [k0_off2_eq]; rfl

/-- Entry k of the slice is column `row ki k`. -/
theorem emb_Rs (t : Fin cfg0.N) (k : Fin 512) : (Rs (grid0.coords t)).emb (ix2 k 0) = ix2 (row (kiOf t.val) k) 0 := by
  funext a; apply Fin.ext
  match a with
  | ⟨0, _⟩ => show k0_off1 (grid0.coords t) 0 + 1 * k.val = 512 * (t.val % 4) + k.val; rw [off1_0]; omega
  | ⟨1, _⟩ => show k0_off1 (grid0.coords t) 1 + 1 * 0 = 0; rw [off1_1]

theorem emb_Ro (t : Fin cfg0.N) (k : Fin 512) (d : Fin 1024) : (Ro (grid0.coords t)).emb (ix3 0 k d) = ix3 0 (row (kiOf t.val) k) d := by
  funext a; apply Fin.ext
  match a with
  | ⟨0, _⟩ => show k0_off2 (grid0.coords t) 0 + 1 * 0 = 0; rw [off2_0]
  | ⟨1, _⟩ => show k0_off2 (grid0.coords t) 1 + 1 * k.val = 512 * (t.val % 4) + k.val; rw [off2_1]; omega
  | ⟨2, _⟩ => show k0_off2 (grid0.coords t) 2 + 1 * d.val = d.val; rw [off2_2]; omega

/-- A column of the slice, as the slice's entry. -/
theorem row_div_mod (j : Fin 4) (r : Fin 2048) (h : r.val / 512 = j.val) : row j ⟨r.val % 512, Nat.mod_lt _ (by norm_num)⟩ = r := by
  apply Fin.ext; show 512 * j.val + r.val % 512 = r.val; omega

/-- A column outside the slice is not touched. -/
theorem not_mem_Rs (t : Fin cfg0.N) (r : Fin 2048) (h : ¬ r.val / 512 = t.val % 4) : (ix2 r 0 : S2048x1.Idx) ∉ (Rs (grid0.coords t)).set := by
  rw [Rect.mem_set_unit]; intro hm
  have h0 := hm 0
  rw [off1_0] at h0
  have : ((ix2 r 0 : S2048x1.Idx) 0).val = r.val := rfl
  have hs : S512x1.size 0 = 512 := rfl
  omega

theorem not_mem_Ro (t : Fin cfg0.N) (r : Fin 2048) (d : Fin 1024) (h : ¬ r.val / 512 = t.val % 4) : (ix3 0 r d : S1x2048x1024.Idx) ∉ (Ro (grid0.coords t)).set := by
  rw [Rect.mem_set_unit]; intro hm
  have h0 := hm 1
  rw [off2_1] at h0
  have : ((ix3 0 r d : S1x2048x1024.Idx) 1).val = r.val := rfl
  have hs : S1x512x1024.size 1 = 512 := rfl
  omega

end Cert.KernelIdeal.Body
end
-- ==== Proof.KI.Pay.lean ====
/-
  The kernel body's payloads read at an index, at the ideal values (a float is an extended real, a vector a function of
  its index, a change of format the identity). Each payload is a few vector operations; read at an index written by
  coordinates it is one arithmetic expression in the operands at indices written by coordinates:
    * a shape cast that adds or drops a unit axis keeps the other coordinates;
    * a column [a, 1] broadcast along rows reads the row's one entry;
    * a reduction of a matrix along its second axis is the sum, or the fold of max from minus infinity, over the row;
    * a matrix product into a zero accumulator is the sum over the contracted axis of the products;
    * a transpose swaps the two coordinates.
-/
import proofs.«118892_j1881195675895_2_alg».proof.Proof.Gen.KernelIdeal.Skeleton
import proofs.«118892_j1881195675895_2_alg».proof.Proof.Math.Online
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Pay

open Cert.KernelIdeal Cert.KernelIdeal.Gen Idealize.ShloMosaic Idealize.ShloMosaic.ValueIdx Cert.Softmax

/-! ## Layout operations on a column and a row reduction, at indices written by coordinates -/

/-- An `[a]` array cast to the column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The source index a reduction of a matrix along its second axis reads: the row, and the coordinate put back. -/
theorem lift_ix1 {a b : ℕ} (h : (⟨2, ![a, b]⟩ : Shape).Reduces [1] ⟨1, ![a]⟩) (q : Fin a) (k : Fin b) :
    h.lift (ix1 q) k = ix2 q k := by
  funext c
  match c with
  | ⟨0, _⟩ => exact Fin.ext rfl
  | ⟨1, _⟩ => exact Fin.ext rfl

/-- The word of minus infinity is the bottom extended real. -/
theorem ofBits_neg_inf_f32 : Ideal.ofBits .f32 0xFF800000#32 = ⊥ := by simp [Ideal.ofBits, Ideal.ieee]

/-- The exponential of a vector read at an index. -/
theorem exp_apply {s : Shape} {φ : FTy} (a : FVec Ideal s φ) (i : s.Idx) : exp a i = Ideal.exp (a i) := rfl

/-! ## The operands of the score product: the leading unit axis dropped -/

theorem pay11_apply (v8 : Vec Ideal S1x512x1024 .bf16) (q : Fin 512) (d : Fin 1024) :
    k0_pay11 (F := Ideal) v8 (ix2 q d) = v8 (ix3 0 q d) := by
  unfold k0_pay11
  exact shapeCast_1ab_ab_apply _ _ q d

theorem pay12_apply (v10 : Vec Ideal S1x512x1024 .bf16) (q : Fin 512) (d : Fin 1024) :
    k0_pay12 (F := Ideal) v10 (ix2 q d) = v10 (ix3 0 q d) := by
  unfold k0_pay12
  exact shapeCast_1ab_ab_apply _ _ q d

/-! ## The score product: rows of the two operands contracted over the feature axis -/

theorem scoreDot_lhs_0 (i : S512x512.Idx) (c : dot_S512x1024_S512x1024_S512x512_1_1_0_0_n_n.contr.Idx) :
    (dot_S512x1024_S512x1024_S512x512_1_1_0_0_n_n.lhsIdx i c 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
theorem scoreDot_lhs_1 (i : S512x512.Idx) (c : dot_S512x1024_S512x1024_S512x512_1_1_0_0_n_n.contr.Idx) :
    (dot_S512x1024_S512x1024_S512x512_1_1_0_0_n_n.lhsIdx i c 1).val = (c ⟨0, by decide⟩).val :=
  dot_S512x1024_S512x1024_S512x512_1_1_0_0_n_n.lhsIdx_val_of_single rfl i c
theorem scoreDot_rhs_0 (i : S512x512.Idx) (c : dot_S512x1024_S512x1024_S512x512_1_1_0_0_n_n.contr.Idx) :
    (dot_S512x1024_S512x1024_S512x512_1_1_0_0_n_n.rhsIdx i c 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
theorem scoreDot_rhs_1 (i : S512x512.Idx) (c : dot_S512x1024_S512x1024_S512x512_1_1_0_0_n_n.contr.Idx) :
    (dot_S512x1024_S512x1024_S512x512_1_1_0_0_n_n.rhsIdx i c 1).val = (c ⟨0, by decide⟩).val :=
  dot_S512x1024_S512x1024_S512x512_1_1_0_0_n_n.rhsIdx_val_of_single rfl i c

theorem pay13_apply (v8 v10 : Vec Ideal S1x512x1024 .bf16) (q k : Fin 512) :
    k0_pay13 (F := Ideal) v8 v10 (ix2 q k) = ∑ f : Fin 1024, v8 (ix3 0 q f) * v10 (ix3 0 k f) := by
  unfold k0_pay13
  simp only [matmul]
  rw [Ideal.matmul_constant_zero_apply, ← Equiv.sum_comp (contrEquiv1 dot_S512x1024_S512x1024_S512x512_1_1_0_0_n_n 1024 rfl rfl).symm]
  refine Finset.sum_congr rfl fun f _ => ?_
  have hf := contrEquiv1_symm_val dot_S512x1024_S512x1024_S512x512_1_1_0_0_n_n 1024 rfl rfl f
  have el : dot_S512x1024_S512x1024_S512x512_1_1_0_0_n_n.lhsIdx (ix2 q k) ((contrEquiv1 dot_S512x1024_S512x1024_S512x512_1_1_0_0_n_n 1024 rfl rfl).symm f) = ix2 q f := funext fun a => Fin.ext (by
    match a with
    | ⟨0, _⟩ => exact scoreDot_lhs_0 _ _
    | ⟨1, _⟩ => exact (scoreDot_lhs_1 _ _).trans hf)
  have er : dot_S512x1024_S512x1024_S512x512_1_1_0_0_n_n.rhsIdx (ix2 q k) ((contrEquiv1 dot_S512x1024_S512x1024_S512x512_1_1_0_0_n_n 1024 rfl rfl).symm f) = ix2 k f := funext fun a => Fin.ext (by
    match a with
    | ⟨0, _⟩ => exact scoreDot_rhs_0 _ _
    | ⟨1, _⟩ => exact (scoreDot_rhs_1 _ _).trans hf)
  rw [el, er, pay11_apply, pay12_apply]

/-! ## A row reduction of a 512×512 tile kept as a column -/

/-- The row maximum kept as a column: the fold of max from minus infinity over the row. -/
theorem rowMax_apply (src : FVec Ideal S512x512 .f32) (h : S512x512.Reduces [1] S512) (hc : S512.ShapeCasts S512x1)
    (hφ : FKind.Formats .f32) (hacc : (0xFF800000#32 : BitVec 32) = FKind.maximumf.neutral .f32 hφ) (q : Fin 512) :
    shapeCast S512x1 (multiReduction (F := Ideal) .maximumf [1] S512 src 0xFF800000#32 h hφ hacc) hc (ix2 q 0)
      = bmax fun k : Fin 512 => src (ix2 q k) := by
  refine (shapeCast_a_a1_apply _ hc q 0).trans ?_
  refine (Ideal.multiReduction_maximumf_single src _ h hφ hacc (ix1 q)).trans ?_
  have e : (src ∘ h.lift (ix1 q)) = fun k : Fin 512 => src (ix2 q k) := funext fun k => congrArg src (lift_ix1 h q k)
  rw [e]
  show Finset.fold max (Ideal.ofBits .f32 0xFF800000#32) (fun k : Fin 512 => src (ix2 q k)) Finset.univ = _
  rw [ofBits_neg_inf_f32]
  rfl

/-- The row sum kept as a column. -/
theorem rowSum_apply (src : FVec Ideal S512x512 .f32) (h : S512x512.Reduces [1] S512) (hc : S512.ShapeCasts S512x1)
    (hφ : FKind.Formats .f32) (hacc : (0x00000000#32 : BitVec 32) = FKind.add.neutral .f32 hφ) (q : Fin 512) :
    shapeCast S512x1 (multiReduction (F := Ideal) .add [1] S512 src 0x00000000#32 h hφ hacc) hc (ix2 q 0)
      = ∑ k : Fin 512, src (ix2 q k) := by
  refine (shapeCast_a_a1_apply _ hc q 0).trans ?_
  refine (Ideal.multiReduction_add_single src _ h hφ hacc (ix1 q)).trans ?_
  exact Finset.sum_congr rfl fun k _ => congrArg src (lift_ix1 h q k)

/-! ## The row side: running maximum, rescaling factor, shifted exponentials, running sum -/

theorem pay14_apply (v8 v10 : Vec Ideal S1x512x1024 .bf16) (v13 : Vec Ideal S512x1 .f32) (q : Fin 512) :
    k0_pay14 (F := Ideal) v8 v10 v13 (ix2 q 0)
      = max (v13 (ix2 q 0)) (bmax fun k : Fin 512 => k0_pay13 (F := Ideal) v8 v10 (ix2 q k)) := by
  unfold k0_pay14
  exact congrArg (max (v13 (ix2 q 0))) (rowMax_apply (k0_pay13 (F := Ideal) v8 v10) _ _ _ _ q)

theorem pay15_apply (v8 v10 : Vec Ideal S1x512x1024 .bf16) (v13 : Vec Ideal S512x1 .f32) (q : Fin 512) :
    k0_pay15 (F := Ideal) v8 v10 v13 (ix2 q 0)
      = Ideal.exp (v13 (ix2 q 0) - k0_pay14 (F := Ideal) v8 v10 v13 (ix2 q 0)) := by
  unfold k0_pay15
  rfl

theorem pay16_apply (v8 v10 : Vec Ideal S1x512x1024 .bf16) (v13 : Vec Ideal S512x1 .f32) (q k : Fin 512) :
    k0_pay16 (F := Ideal) v8 v10 v13 (ix2 q k)
      = Ideal.exp (k0_pay13 (F := Ideal) v8 v10 (ix2 q k) - k0_pay14 (F := Ideal) v8 v10 v13 (ix2 q 0)) := by
  unfold k0_pay16
  exact congrArg (fun x => Ideal.exp (k0_pay13 (F := Ideal) v8 v10 (ix2 q k) - x))
    (broadcastTo_a1_ab_apply (k0_pay14 (F := Ideal) v8 v10 v13) _ q k)

theorem pay17_apply (v8 v10 : Vec Ideal S1x512x1024 .bf16) (v13 v22 : Vec Ideal S512x1 .f32) (q : Fin 512) :
    k0_pay17 (F := Ideal) v8 v10 v13 v22 (ix2 q 0)
      = k0_pay15 (F := Ideal) v8 v10 v13 (ix2 q 0) * v22 (ix2 q 0) + ∑ k : Fin 512, k0_pay16 (F := Ideal) v8 v10 v13 (ix2 q k) := by
  unfold k0_pay17
  refine (congrFun (shapeCast_self _ _) (ix2 q 0)).trans ?_
  exact congrArg (fun x => k0_pay15 (F := Ideal) v8 v10 v13 (ix2 q 0) * v22 (ix2 q 0) + x)
    (rowSum_apply (k0_pay16 (F := Ideal) v8 v10 v13) _ _ _ _ q)

/-! ## The weighted sum of value rows: a 512×512 tile times a 512×1024 block -/

theorem mixDot_lhs_0 (i : S512x1024.Idx) (c : dot_S512x512_S512x1024_S512x1024_1_0_0_1_n_n.contr.Idx) :
    (dot_S512x512_S512x1024_S512x1024_1_0_0_1_n_n.lhsIdx i c 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem mixDot_lhs_1 (i : S512x1024.Idx) (c : dot_S512x512_S512x1024_S512x1024_1_0_0_1_n_n.contr.Idx) :
    (dot_S512x512_S512x1024_S512x1024_1_0_0_1_n_n.lhsIdx i c 1).val = (c ⟨0, by decide⟩).val :=
  dot_S512x512_S512x1024_S512x1024_1_0_0_1_n_n.lhsIdx_val_of_single rfl i c
theorem mixDot_rhs_0 (i : S512x1024.Idx) (c : dot_S512x512_S512x1024_S512x1024_1_0_0_1_n_n.contr.Idx) :
    (dot_S512x512_S512x1024_S512x1024_1_0_0_1_n_n.rhsIdx i c 0).val = (c ⟨0, by decide⟩).val :=
  dot_S512x512_S512x1024_S512x1024_1_0_0_1_n_n.rhsIdx_val_of_single rfl i c
theorem mixDot_rhs_1 (i : S512x1024.Idx) (c : dot_S512x512_S512x1024_S512x1024_1_0_0_1_n_n.contr.Idx) :
    (dot_S512x512_S512x1024_S512x1024_1_0_0_1_n_n.rhsIdx i c 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

/-- The product into a zero accumulator, at `(q, d)`: the sum over the tile's columns. -/
theorem mixDot_apply (l : FVec Ideal S512x512 .bf16) (r : FVec Ideal S512x1024 .bf16) (q : Fin 512) (d : Fin 1024) :
    matmul (F := Ideal) dot_S512x512_S512x1024_S512x1024_1_0_0_1_n_n none l r (constant (F := Ideal) S512x1024 .f32 0x00000000#32) (ix2 q d)
      = ∑ k : Fin 512, l (ix2 q k) * r (ix2 k d) := by
  simp only [matmul]
  rw [Ideal.matmul_constant_zero_apply, ← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  have el : dot_S512x512_S512x1024_S512x1024_1_0_0_1_n_n.lhsIdx (ix2 q d) ((contrEquiv1 dot_S512x512_S512x1024_S512x1024_1_0_0_1_n_n 512 rfl rfl).symm k) = ix2 q k := funext fun a => Fin.ext (by
    match a with
    | ⟨0, _⟩ => exact mixDot_lhs_0 _ _
    | ⟨1, _⟩ => exact (mixDot_lhs_1 _ _).trans hk)
  have er : dot_S512x512_S512x1024_S512x1024_1_0_0_1_n_n.rhsIdx (ix2 q d) ((contrEquiv1 dot_S512x512_S512x1024_S512x1024_1_0_0_1_n_n 512 rfl rfl).symm k) = ix2 k d := funext fun a => Fin.ext (by
    match a with
    | ⟨0, _⟩ => exact (mixDot_rhs_0 _ _).trans hk
    | ⟨1, _⟩ => exact mixDot_rhs_1 _ _)
  rw [el, er]

/-- The same with the left factor narrowed to the product's input format first: at the ideal values the narrowing is the identity. -/
theorem mixDot_truncf_apply (l : FVec Ideal S512x512 .f32) (hb : FTy.bits .bf16 < FTy.bits .f32) (r : FVec Ideal S512x1024 .bf16)
    (q : Fin 512) (d : Fin 1024) :
    matmul (F := Ideal) dot_S512x512_S512x1024_S512x1024_1_0_0_1_n_n none (truncf .bf16 l hb) r (constant (F := Ideal) S512x1024 .f32 0x00000000#32) (ix2 q d)
      = ∑ k : Fin 512, l (ix2 q k) * r (ix2 k d) :=
  mixDot_apply (truncf .bf16 l hb) r q d

theorem pay18_apply (v11 : FVec Ideal S512x1024 .bf16) (v18 : FVec Ideal S512x1 .f32) (v21 : FVec Ideal S512x512 .f32)
    (v30 : Vec Ideal S1x512x1024 .f32) (q : Fin 512) (d : Fin 1024) :
    k0_pay18 (F := Ideal) v11 v18 v21 v30 (ix3 0 q d)
      = v18 (ix2 q 0) * v30 (ix3 0 q d) + ∑ k : Fin 512, v21 (ix2 q k) * v11 (ix2 k d) := by
  unfold k0_pay18
  refine (shapeCast_ab_1ab_apply _ _ 0 q d).trans ?_
  refine congrArg₂ (· + ·) (congrArg₂ (· * ·) (broadcastTo_a1_ab_apply v18 _ q d) (shapeCast_1ab_ab_apply v30 _ q d)) ?_
  exact mixDot_truncf_apply v21 _ v11 q d

theorem pay19_eq (v16 : FVec Ideal S512x1 .f32) : k0_pay19 (F := Ideal) v16 = v16 := by
  unfold k0_pay19
  exact shapeCast_self _ _

/-! ## The column side: the same tile transposed -/

theorem pay20_apply (v12 : FVec Ideal S512x512 .f32) (k q : Fin 512) :
    k0_pay20 (F := Ideal) v12 (ix2 k q) = v12 (ix2 q k) := by
  unfold k0_pay20
  exact transpose_ix2_apply v12 _ k q

theorem pay21_apply (v12 : FVec Ideal S512x512 .f32) (v47 : Vec Ideal S512x1 .f32) (k : Fin 512) :
    k0_pay21 (F := Ideal) v12 v47 (ix2 k 0) = max (v47 (ix2 k 0)) (bmax fun q : Fin 512 => v12 (ix2 q k)) := by
  unfold k0_pay21
  refine (congrArg (max (v47 (ix2 k 0))) (rowMax_apply (k0_pay20 (F := Ideal) v12) _ _ _ _ k)).trans ?_
  exact congrArg (fun f : Fin 512 → EReal => max (v47 (ix2 k 0)) (bmax f)) (funext fun q => pay20_apply v12 k q)

theorem pay22_apply (v12 : FVec Ideal S512x512 .f32) (v47 : Vec Ideal S512x1 .f32) (k : Fin 512) :
    k0_pay22 (F := Ideal) v12 v47 (ix2 k 0) = Ideal.exp (v47 (ix2 k 0) - k0_pay21 (F := Ideal) v12 v47 (ix2 k 0)) := by
  unfold k0_pay22
  refine (exp_apply _ (ix2 k 0)).trans ?_
  exact congrArg Ideal.exp (subf_apply v47 (k0_pay21 (F := Ideal) v12 v47) (ix2 k 0))

theorem pay23_apply (v12 : FVec Ideal S512x512 .f32) (v47 : Vec Ideal S512x1 .f32) (k q : Fin 512) :
    k0_pay23 (F := Ideal) v12 v47 (ix2 k q) = Ideal.exp (v12 (ix2 q k) - k0_pay21 (F := Ideal) v12 v47 (ix2 k 0)) := by
  unfold k0_pay23
  refine (exp_apply _ (ix2 k q)).trans ?_
  refine congrArg Ideal.exp ?_
  refine (subf_apply _ _ (ix2 k q)).trans ?_
  exact congrArg₂ (· - ·) (pay20_apply v12 k q) (broadcastTo_a1_ab_apply (k0_pay21 (F := Ideal) v12 v47) _ k q)

theorem pay24_apply (v12 : FVec Ideal S512x512 .f32) (v47 v57 : Vec Ideal S512x1 .f32) (k : Fin 512) :
    k0_pay24 (F := Ideal) v12 v47 v57 (ix2 k 0)
      = k0_pay22 (F := Ideal) v12 v47 (ix2 k 0) * v57 (ix2 k 0) + ∑ q : Fin 512, k0_pay23 (F := Ideal) v12 v47 (ix2 k q) := by
  unfold k0_pay24
  refine (congrFun (shapeCast_self _ _) (ix2 k 0)).trans ?_
  exact congrArg (fun x => k0_pay22 (F := Ideal) v12 v47 (ix2 k 0) * v57 (ix2 k 0) + x)
    (rowSum_apply (k0_pay23 (F := Ideal) v12 v47) _ _ _ _ k)

theorem pay25_apply (v12 : FVec Ideal S512x512 .f32) (v47 : Vec Ideal S512x1 .f32) (v67 : Vec Ideal S1x512x1024 .f32)
    (k : Fin 512) (d : Fin 1024) :
    k0_pay25 (F := Ideal) v12 v47 v67 (ix2 k d) = k0_pay22 (F := Ideal) v12 v47 (ix2 k 0) * v67 (ix3 0 k d) := by
  unfold k0_pay25
  refine (mulf_apply _ _ (ix2 k d)).trans ?_
  exact congrArg₂ (· * ·) (broadcastTo_a1_ab_apply (k0_pay22 (F := Ideal) v12 v47) _ k d) (shapeCast_1ab_ab_apply v67 _ k d)

theorem pay26_apply (v9 : FVec Ideal S512x1024 .bf16) (v12 : FVec Ideal S512x512 .f32) (v47 : Vec Ideal S512x1 .f32)
    (k : Fin 512) (d : Fin 1024) :
    k0_pay26 (F := Ideal) v9 v12 v47 (ix2 k d) = ∑ q : Fin 512, k0_pay23 (F := Ideal) v12 v47 (ix2 k q) * v9 (ix2 q d) := by
  unfold k0_pay26
  exact mixDot_truncf_apply (k0_pay23 (F := Ideal) v12 v47) _ v9 k d

/-! ## What the last steps store -/

theorem pay1_apply (v70 v72 : FVec Ideal S512x1024 .f32) (k : Fin 512) (d : Fin 1024) :
    k0_pay1 (F := Ideal) v70 v72 (ix3 0 k d) = v70 (ix2 k d) + v72 (ix2 k d) := by
  unfold k0_pay1
  refine (shapeCast_ab_1ab_apply _ _ 0 k d).trans ?_
  exact addf_apply v70 v72 (ix2 k d)

theorem pay2_eq (v50 : FVec Ideal S512x1 .f32) : k0_pay2 (F := Ideal) v50 = v50 := by
  unfold k0_pay2
  exact shapeCast_self _ _

theorem pay3_apply (v88 : Vec Ideal S1x512x1024 .f32) (v90 : Vec Ideal S512x1 .f32) (q : Fin 512) (d : Fin 1024) :
    k0_pay3 (F := Ideal) v88 v90 (ix3 0 q d) = Ideal.div (v88 (ix3 0 q d)) (v90 (ix2 q 0)) := by
  unfold k0_pay3
  refine (shapeCast_ab_1ab_apply _ _ 0 q d).trans ?_
  refine (divf_apply _ _ (ix2 q d)).trans ?_
  exact congrArg₂ Ideal.div (shapeCast_1ab_ab_apply v88 _ q d) (broadcastTo_a1_ab_apply v90 _ q d)

theorem pay4_apply (v89 : Vec Ideal S1x512x1024 .f32) (v92 : Vec Ideal S512x1 .f32) (q : Fin 512) (d : Fin 1024) :
    k0_pay4 (F := Ideal) v89 v92 (ix3 0 q d) = Ideal.div (v89 (ix3 0 q d)) (v92 (ix2 q 0)) := by
  unfold k0_pay4
  refine (shapeCast_ab_1ab_apply _ _ 0 q d).trans ?_
  refine (divf_apply _ _ (ix2 q d)).trans ?_
  exact congrArg₂ Ideal.div (shapeCast_1ab_ab_apply v89 _ q d) (broadcastTo_a1_ab_apply v92 _ q d)

/-! ## The constants the first step of a sweep stores: minus infinity for a maximum, zero for a sum -/

/-- A constant word at the ideal values denotes what the format says, whatever the word. -/
theorem scalar_ofBits (φ : FTy) (b : BitVec φ.bits) : (Scalar.ofBits (F := Ideal) φ b) = Ideal.ofBits φ b := rfl

theorem pay5_apply (j : S512x1.Idx) : k0_pay5 (F := Ideal) j = ⊥ := by
  unfold k0_pay5
  refine (congrFun (shapeCast_self _ _) j).trans ?_
  refine (broadcast_apply _ j).trans ?_
  exact (scalar_ofBits .f32 _).trans ofBits_neg_inf_f32

theorem pay6_apply (j : S512x1.Idx) : k0_pay6 (F := Ideal) j = 0 := by
  unfold k0_pay6
  refine (congrFun (shapeCast_self _ _) j).trans ?_
  refine (broadcast_apply _ j).trans ?_
  exact (scalar_ofBits .f32 _).trans Ideal.ofBits_zero_f32

theorem pay7_apply (j : S1x512x1024.Idx) : k0_pay7 (F := Ideal) j = 0 := by
  obtain ⟨u, q, d, rfl⟩ : ∃ (u : Fin 1) (q : Fin 512) (d : Fin 1024), j = ix3 u q d := ⟨j 0, j 1, j 2, eq_ix3 j⟩
  unfold k0_pay7
  refine (shapeCast_ab_1ab_apply _ _ u q d).trans ?_
  refine (broadcast_apply _ (ix2 q d)).trans ?_
  exact (scalar_ofBits .f32 _).trans Ideal.ofBits_zero_f32

theorem pay8_apply (j : S2048x1.Idx) : k0_pay8 (F := Ideal) j = ⊥ := by
  unfold k0_pay8
  refine (congrFun (shapeCast_self _ _) j).trans ?_
  refine (broadcast_apply _ j).trans ?_
  exact (scalar_ofBits .f32 _).trans ofBits_neg_inf_f32

theorem pay9_apply (j : S2048x1.Idx) : k0_pay9 (F := Ideal) j = 0 := by
  unfold k0_pay9
  refine (congrFun (shapeCast_self _ _) j).trans ?_
  refine (broadcast_apply _ j).trans ?_
  exact (scalar_ofBits .f32 _).trans Ideal.ofBits_zero_f32

theorem pay10_apply (j : S1x2048x1024.Idx) : k0_pay10 (F := Ideal) j = 0 := by
  obtain ⟨u, q, d, rfl⟩ : ∃ (u : Fin 1) (q : Fin 2048) (d : Fin 1024), j = ix3 u q d := ⟨j 0, j 1, j 2, eq_ix3 j⟩
  unfold k0_pay10
  refine (shapeCast_ab_1ab_apply _ _ u q d).trans ?_
  refine (broadcast_apply _ (ix2 q d)).trans ?_
  exact (scalar_ofBits .f32 _).trans Ideal.ofBits_zero_f32

end Cert.KernelIdeal.Pay
-- ==== Proof.KI.Pst.lean ====
/-
  The six carried buffers read index by index, and an input block read as a 512 × 1024 matrix.
-/
import proofs.«118892_j1881195675895_2_alg».proof.Proof.KI.Data
import Idealize.ShloMosaic.Lib.Pipeline.FrameBody
import Idealize.ShloMosaic.Lib.Pipeline.Value
import proofs.«118892_j1881195675895_2_alg».proof.Proof.Model
import Idealize.ShloMosaic.Lib.ValueIdx
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.CoAttn.Model

/-- The six buffers, index by index. -/
def pst (p : St Ideal) : PSt where
  s0 q := p.s0 (ix2 q 0)
  s1 q := p.s1 (ix2 q 0)
  o2 q d := p.o2 (ix3 0 q d)
  s2 r := p.s2 (ix2 r 0)
  s3 r := p.s3 (ix2 r 0)
  o3 r d := p.o3 (ix3 0 r d)

/-- An input block as a 512 × 1024 matrix. -/
def blkF (x : Vec Ideal S1x512x1024 .bf16) : Fin 512 → Fin 1024 → EReal := fun q f => x (ix3 0 q f)

end Cert.KernelIdeal.Body
end
-- ==== Proof.KI.Link.lean ====
/-
  The buffers against the pure recurrence. Read index by index, what the body leaves in the six buffers at a point is
  one step of the recurrence applied to what they held before: the row statistics of each of the tile's 512 rows take
  one online-softmax step over the tile's columns, the column statistics of each of the slice's 512 columns one step
  over the tile's rows, the other slices stay, and the two divisions happen where the point's coordinates say.
-/
import proofs.«118892_j1881195675895_2_alg».proof.Proof.KI.ReadG
import proofs.«118892_j1881195675895_2_alg».proof.Proof.KI.ReadD
import proofs.«118892_j1881195675895_2_alg».proof.Proof.KI.ReadE
import proofs.«118892_j1881195675895_2_alg».proof.Proof.KI.ReadA
import proofs.«118892_j1881195675895_2_alg».proof.Proof.KI.Coords
import proofs.«118892_j1881195675895_2_alg».proof.Proof.KI.Pay
import proofs.«118892_j1881195675895_2_alg».proof.Proof.KI.Pst
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.CoAttn.Model Cert.Softmax Cert.KernelIdeal.Pay

/-- The row side, and the column side, at their fresh start. -/
def rowReset (p : St Ideal) : St Ideal := { p with s0 := k0_pay5 (F := Ideal), s1 := k0_pay6 (F := Ideal), o2 := k0_pay7 (F := Ideal) }
def colReset (p : St Ideal) : St Ideal := { p with s2 := k0_pay8 (F := Ideal), s3 := k0_pay9 (F := Ideal), o3 := k0_pay10 (F := Ideal) }

theorem pst_rowReset (p : St Ideal) : pst (rowReset p) = resetRow (pst p) := by
  unfold pst rowReset resetRow; simp only [pay5_apply, pay6_apply, pay7_apply]
theorem pst_colReset (p : St Ideal) : pst (colReset p) = resetCol (pst p) := by
  unfold pst colReset resetCol; simp only [pay8_apply, pay9_apply, pay10_apply]

/-- `q` is what the body leaves at point `t` from contents `p` (any fresh starts already made), dividing the row
    accumulator iff `c3` and the slice's column accumulator iff `c4`. -/
structure Next (t : Fin cfg0.N) (c3 c4 : Prop) [Decidable c3] [Decidable c4] (x0 x1 : Vec Ideal S1x512x1024 .bf16) (p q : St Ideal) : Prop where
  s0 : q.s0 = k0_pay19 (k0_pay14 x0 x1 p.s0)
  s1 : q.s1 = k0_pay17 x0 x1 p.s0 p.s1
  o2 : q.o2 = if c3 then k0_pay3 (k0_pay18 (F := Ideal) (k0_pay12 x1) (k0_pay15 x0 x1 p.s0) (k0_pay16 x0 x1 p.s0) p.o2) (k0_pay17 x0 x1 p.s0 p.s1) else k0_pay18 (F := Ideal) (k0_pay12 x1) (k0_pay15 x0 x1 p.s0) (k0_pay16 x0 x1 p.s0) p.o2
  s2_in : ∀ y : S512x1.Idx, q.s2 ((Rs (grid0.coords t)).emb y) = k0_pay2 (k0_pay21 (k0_pay13 x0 x1) (View.ld p.s2 (Rs (grid0.coords t)))) y
  s2_out : ∀ z : S2048x1.Idx, z ∉ (Rs (grid0.coords t)).set → q.s2 z = p.s2 z
  s3_in : ∀ y : S512x1.Idx, q.s3 ((Rs (grid0.coords t)).emb y) = k0_pay24 (F := Ideal) (k0_pay13 x0 x1) (View.ld p.s2 (Rs (grid0.coords t))) (View.ld p.s3 (Rs (grid0.coords t))) y
  s3_out : ∀ z : S2048x1.Idx, z ∉ (Rs (grid0.coords t)).set → q.s3 z = p.s3 z
  o3_in : ∀ y : S1x512x1024.Idx, q.o3 ((Ro (grid0.coords t)).emb y) = (if c4 then k0_pay4 (k0_pay1 (F := Ideal) (k0_pay25 (k0_pay13 x0 x1) (View.ld p.s2 (Rs (grid0.coords t))) (View.ld p.o3 (Ro (grid0.coords t)))) (k0_pay26 (k0_pay11 x0) (k0_pay13 x0 x1) (View.ld p.s2 (Rs (grid0.coords t))))) (k0_pay24 (F := Ideal) (k0_pay13 x0 x1) (View.ld p.s2 (Rs (grid0.coords t))) (View.ld p.s3 (Rs (grid0.coords t)))) else k0_pay1 (F := Ideal) (k0_pay25 (k0_pay13 x0 x1) (View.ld p.s2 (Rs (grid0.coords t))) (View.ld p.o3 (Ro (grid0.coords t)))) (k0_pay26 (k0_pay11 x0) (k0_pay13 x0 x1) (View.ld p.s2 (Rs (grid0.coords t))))) y
  o3_out : ∀ z : S1x2048x1024.Idx, z ∉ (Ro (grid0.coords t)).set → q.o3 z = p.o3 z

theorem ld_Rs (t : Fin cfg0.N) (v : Vec Ideal S2048x1 .f32) (k : Fin 512) : View.ld v (Rs (grid0.coords t)) (ix2 k 0) = v (ix2 (row (kiOf t.val) k) 0) :=
  congrArg v (emb_Rs t k)
theorem ld_Ro (t : Fin cfg0.N) (v : Vec Ideal S1x2048x1024 .f32) (k : Fin 512) (d : Fin 1024) : View.ld v (Ro (grid0.coords t)) (ix3 0 k d) = v (ix3 0 (row (kiOf t.val) k) d) :=
  congrArg v (emb_Ro t k d)

set_option maxHeartbeats 1600000 in
theorem next_model {t : Fin cfg0.N} {c3 c4 : Prop} [Decidable c3] [Decidable c4] {x0 x1 : Vec Ideal S1x512x1024 .bf16} {p q : St Ideal}
    (h : Next t c3 c4 x0 x1 p q) : pst q = Cert.CoAttn.Model.body (kiOf t.val) (decide c3) (decide c4) (blkF x0) (blkF x1) (pst p) := by
  have hki : (kiOf t.val).val = t.val % 4 := rfl
  unfold pst Cert.CoAttn.Model.body
  congr 1
  · funext qq
    rw [h.s0, pay19_eq, pay14_apply]; simp only [pay13_apply]; rfl
  · funext qq
    rw [h.s1, pay17_apply, pay15_apply, pay14_apply]; simp only [pay16_apply, pay14_apply, pay13_apply]; rfl
  · funext qq d
    rw [h.o2]
    by_cases hc : c3
    · rw [if_pos hc, if_pos (decide_eq_true hc), pay3_apply, pay18_apply, pay17_apply, pay15_apply, pay14_apply]
      simp only [pay16_apply, pay14_apply, pay13_apply, pay12_apply]; rfl
    · rw [if_neg hc, if_neg (by simpa using hc), pay18_apply, pay15_apply, pay14_apply]
      simp only [pay16_apply, pay14_apply, pay13_apply, pay12_apply]; rfl
  · funext r
    by_cases hr : r.val / 512 = (kiOf t.val).val
    · rw [dif_pos hr]
      have e : (ix2 r 0 : S2048x1.Idx) = (Rs (grid0.coords t)).emb (ix2 ⟨r.val % 512, Nat.mod_lt _ (by norm_num)⟩ 0) := by
        rw [emb_Rs, row_div_mod _ _ hr]
      rw [e, h.s2_in, pay2_eq, pay21_apply, ld_Rs]; simp only [pay13_apply]; rfl
    · rw [dif_neg hr]; exact h.s2_out _ (not_mem_Rs t r (by rw [← hki]; exact hr))
  · funext r
    by_cases hr : r.val / 512 = (kiOf t.val).val
    · rw [dif_pos hr]
      have e : (ix2 r 0 : S2048x1.Idx) = (Rs (grid0.coords t)).emb (ix2 ⟨r.val % 512, Nat.mod_lt _ (by norm_num)⟩ 0) := by
        rw [emb_Rs, row_div_mod _ _ hr]
      rw [e, h.s3_in, pay24_apply, pay22_apply]; simp only [pay23_apply, pay21_apply, pay13_apply]; rw [ld_Rs, ld_Rs]; rfl
    · rw [dif_neg hr]; exact h.s3_out _ (not_mem_Rs t r (by rw [← hki]; exact hr))
  · funext r d
    by_cases hr : r.val / 512 = (kiOf t.val).val
    · rw [dif_pos hr]
      have e : (ix3 0 r d : S1x2048x1024.Idx) = (Ro (grid0.coords t)).emb (ix3 0 ⟨r.val % 512, Nat.mod_lt _ (by norm_num)⟩ d) := by
        rw [emb_Ro, row_div_mod _ _ hr]
      rw [e, h.o3_in]
      by_cases hc : c4
      · rw [if_pos hc, if_pos (decide_eq_true hc), pay4_apply, pay1_apply, pay25_apply, pay26_apply, pay24_apply, pay22_apply]
        simp only [pay23_apply, pay21_apply, pay13_apply, pay11_apply]; rw [ld_Rs, ld_Rs, ld_Ro]; rfl
      · rw [if_neg hc, if_neg (by simpa using hc), pay1_apply, pay25_apply, pay26_apply, pay22_apply]
        simp only [pay23_apply, pay21_apply, pay13_apply, pay11_apply]; rw [ld_Rs, ld_Ro]; rfl
    · rw [dif_neg hr]; exact h.o3_out _ (not_mem_Ro t r d (by rw [← hki]; exact hr))

end Cert.KernelIdeal.Body
end
-- ==== Proof.KI.Step.lean ====
/-
  Every point is one step of the pure recurrence: whichever of the four control cases the point falls in, the six buffers
  after it, read index by index, are `pstep` of what they were before it. So the state after point n is the recurrence's
  n-th state.
-/
import proofs.«118892_j1881195675895_2_alg».proof.Proof.KI.Link
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.CoAttn.Model Cert.Softmax Cert.KernelIdeal.Pay

variable (m : (ℓ : Loc nD τ sig) → Buf (Elt Ideal) ℓ)

theorem nextG (c : Dev nD) (t : Fin cfg0.N) (h1 : ¬cond1 (grid0.coords t)) (h2 : ¬cond2 (grid0.coords t)) (x0 x1 : Vec Ideal S1x512x1024 .bf16) (p : St Ideal) :
    Next t (cond3 (grid0.coords t)) (cond4 (grid0.coords t)) x0 x1 p (stG c t h1 h2 x0 x1 p) :=
  ⟨stG_s0 c t h1 h2 x0 x1 p, stG_s1 c t h1 h2 x0 x1 p, stG_o2 c t h1 h2 x0 x1 p,
   stG_s2_in c t h1 h2 x0 x1 p, stG_s2_out c t h1 h2 x0 x1 p, stG_s3_in c t h1 h2 x0 x1 p, stG_s3_out c t h1 h2 x0 x1 p,
   stG_o3_in c t h1 h2 x0 x1 p, stG_o3_out c t h1 h2 x0 x1 p⟩

theorem nextD (c : Dev nD) (t : Fin cfg0.N) (h1 : cond1 (grid0.coords t)) (h2 : ¬cond2 (grid0.coords t)) (h3 : ¬cond3 (grid0.coords t)) (h4 : ¬cond4 (grid0.coords t)) (x0 x1 : Vec Ideal S1x512x1024 .bf16) (p : St Ideal) :
    Next t False False x0 x1 (rowReset p) (stD c t h1 h2 h3 h4 x0 x1 p) :=
  ⟨stD_s0 c t h1 h2 h3 h4 x0 x1 p, stD_s1 c t h1 h2 h3 h4 x0 x1 p, (stD_o2 c t h1 h2 h3 h4 x0 x1 p).trans (if_neg not_false).symm,
   stD_s2_in c t h1 h2 h3 h4 x0 x1 p, stD_s2_out c t h1 h2 h3 h4 x0 x1 p, stD_s3_in c t h1 h2 h3 h4 x0 x1 p, stD_s3_out c t h1 h2 h3 h4 x0 x1 p,
   fun y => (stD_o3_in c t h1 h2 h3 h4 x0 x1 p y).trans (by rw [if_neg not_false]; rfl), stD_o3_out c t h1 h2 h3 h4 x0 x1 p⟩

theorem nextE (c : Dev nD) (t : Fin cfg0.N) (h1 : cond1 (grid0.coords t)) (h2 : ¬cond2 (grid0.coords t)) (h3 : ¬cond3 (grid0.coords t)) (h4 : cond4 (grid0.coords t)) (x0 x1 : Vec Ideal S1x512x1024 .bf16) (p : St Ideal) :
    Next t False True x0 x1 (rowReset p) (stE c t h1 h2 h3 h4 x0 x1 p) :=
  ⟨stE_s0 c t h1 h2 h3 h4 x0 x1 p, stE_s1 c t h1 h2 h3 h4 x0 x1 p, (stE_o2 c t h1 h2 h3 h4 x0 x1 p).trans (if_neg not_false).symm,
   stE_s2_in c t h1 h2 h3 h4 x0 x1 p, stE_s2_out c t h1 h2 h3 h4 x0 x1 p, stE_s3_in c t h1 h2 h3 h4 x0 x1 p, stE_s3_out c t h1 h2 h3 h4 x0 x1 p,
   fun y => (stE_o3_in c t h1 h2 h3 h4 x0 x1 p y).trans (by rw [if_pos trivial]; rfl), stE_o3_out c t h1 h2 h3 h4 x0 x1 p⟩

theorem nextA (c : Dev nD) (t : Fin cfg0.N) (h1 : cond1 (grid0.coords t)) (h2 : cond2 (grid0.coords t)) (h3 : ¬cond3 (grid0.coords t)) (h4 : ¬cond4 (grid0.coords t)) (x0 x1 : Vec Ideal S1x512x1024 .bf16) (p : St Ideal) :
    Next t False False x0 x1 (colReset (rowReset p)) (stA c t h1 h2 h3 h4 x0 x1) :=
  ⟨stA_s0 c t h1 h2 h3 h4 x0 x1, stA_s1 c t h1 h2 h3 h4 x0 x1, (stA_o2 c t h1 h2 h3 h4 x0 x1).trans (if_neg not_false).symm,
   stA_s2_in c t h1 h2 h3 h4 x0 x1, stA_s2_out c t h1 h2 h3 h4 x0 x1, stA_s3_in c t h1 h2 h3 h4 x0 x1, stA_s3_out c t h1 h2 h3 h4 x0 x1,
   fun y => (stA_o3_in c t h1 h2 h3 h4 x0 x1 y).trans (by rw [if_neg not_false]; rfl), stA_o3_out c t h1 h2 h3 h4 x0 x1⟩

/-- One point is one step of the recurrence. -/
theorem step_model (c : Dev nD) (t : Fin cfg0.N) (p : St Ideal) :
    pst (step m c t p) = pstep t.val (blkF (iblk m c 0 t)) (blkF (iblk m c 1 t)) (pst p) := by
  unfold step pstep
  by_cases h16 : t.val % 16 = 0
  · rw [dif_pos h16, if_pos h16, next_model (nextA c t _ _ _ _ _ _ p), pst_colReset, pst_rowReset]
    congr 1
    · exact decide_eq_decide.mpr ⟨fun h => h.elim, fun h => by omega⟩
    · exact decide_eq_decide.mpr ⟨fun h => h.elim, fun h => by omega⟩
  · rw [dif_neg h16, if_neg h16]
    by_cases h12 : t.val % 16 = 12
    · rw [dif_pos h12, if_pos (show t.val % 4 = 0 by omega), next_model (nextE c t _ _ _ _ _ _ p), pst_rowReset]
      congr 1
      · exact decide_eq_decide.mpr ⟨fun h => h.elim, fun h => by omega⟩
      · exact decide_eq_decide.mpr ⟨fun _ => by omega, fun _ => trivial⟩
    · rw [dif_neg h12]
      by_cases h4 : t.val % 4 = 0
      · rw [dif_pos h4, if_pos h4, next_model (nextD c t _ _ _ _ _ _ p), pst_rowReset]
        congr 1
        · exact decide_eq_decide.mpr ⟨fun h => h.elim, fun h => by omega⟩
        · exact decide_eq_decide.mpr ⟨fun h => h.elim, fun h => by omega⟩
      · rw [dif_neg h4, if_neg h4, next_model (nextG c t _ _ _ _ p)]
        congr 1
        · exact decide_eq_decide.mpr (hcond3 t)
        · exact decide_eq_decide.mpr (hcond4 t)

end Cert.KernelIdeal.Body
end
-- ==== Proof.KI.Blocks.lean ====
/-
  The arrays and blocks the kernel's pipeline reads and writes, at the ideal values, in coordinates.

  The two arguments are converted to the 16-bit format before the region; at the ideal values a change of format is
  the identity, so the arrays the two input windows stage are the argument arrays themselves. The points of the grid
  are t = 16 b + 4 qi + ki (batch, row tile, column tile). Input window 0's block at t is rows 512 qi .. 512 qi + 511
  of batch b of x, input window 1's is rows 512 ki .. 512 ki + 511 of batch b of y; output window 2's block is the
  same rows as window 0's, output window 3's is the whole batch b. Every element of a result array lies in the block
  of exactly the point that writes it back.
-/
import proofs.«118892_j1881195675895_2_alg».proof.Proof.KI.Data
import proofs.«118892_j1881195675895_2_alg».proof.Proof.Gen.Pre_finite_inputs
import proofs.«118892_j1881195675895_2_alg».proof.Proof.Model
import proofs.«118892_j1881195675895_2_alg».proof.Defs
import Idealize.ShloMosaic.Lib.ValueIdx
import Idealize.ShloMosaic.Lib.Pipeline.Value
import Idealize.ShloMosaic.Lib.ValueLayout
import Idealize.ShloMosaic.Lib.ReduceAll
import Idealize.ShloMosaic.Lib.StableHlo.Run

set_option maxRecDepth 16384

noncomputable section

namespace Cert.KernelIdeal.Blocks

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.CoAttn

local notation "𝕄" => MT nD τ sig Unit (Elt Ideal) ℕ (UR sig nD τ) ℕ

variable (m : (ℓ : Loc nD τ sig) → Buf (Elt Ideal) ℓ)

/-! ### The arrays the input windows stage -/

/-- Window 0's array, the 16-bit copy of x, is x. -/
theorem V_arr0 (c : Dev nD) :
    (V m c (Pipeline.arrRef spec0 0) : S8x2048x1024.Idx → EReal) = m ((c.tc : Thread nD τ).loc main_arg0) := by
  show @Eq (S8x2048x1024.Idx → EReal) (V m c main_call0_v0) (m ((c.tc : Thread nD τ).loc main_arg0))
  dsimp only [Gen.V, Gen.hostOps0]
  after_results
  rfl

/-- Window 1's array, the 16-bit copy of y, is y. -/
theorem V_arr1 (c : Dev nD) :
    (V m c (Pipeline.arrRef spec0 1) : S8x2048x1024.Idx → EReal) = m ((c.tc : Thread nD τ).loc main_arg1) := by
  show @Eq (S8x2048x1024.Idx → EReal) (V m c main_call0_v1) (m ((c.tc : Thread nD τ).loc main_arg1))
  dsimp only [Gen.V, Gen.hostOps0]
  after_results
  rfl

/-! ### The input blocks in coordinates -/

/-- The printed index maps of the two input windows, decided over the grid: at point t = 16 b + 4 qi + ki window 0
    reads block (b, qi, 0) and window 1 block (b, ki, 0). -/
theorem idx_in : ∀ t : Fin cfg0.N,
    win0_0.index t (0 : Fin 3) = t.val / 16 % 8 ∧ win0_0.index t (1 : Fin 3) = t.val / 4 % 4 ∧ win0_0.index t (2 : Fin 3) = 0
    ∧ win0_1.index t (0 : Fin 3) = t.val / 16 % 8 ∧ win0_1.index t (1 : Fin 3) = t.val % 4 ∧ win0_1.index t (2 : Fin 3) = 0 :=
  (by decide +kernel : ∀ t : Fin grid0.N, _)

/-- Input window 0's block at point t: rows 512 qi .. of batch b of its array. -/
theorem blk0_apply (c : Dev nD) (t : Fin cfg0.N) (q : Fin 512) (f : Fin 1024) :
    iblk m c 0 t (ix3 0 q f)
      = (V m c (Pipeline.arrRef spec0 0) : S8x2048x1024.Idx → EReal)
          (ix3 (Model.bOf t.val) (Model.row (Model.qiOf t.val) q) f) := by
  obtain ⟨e0, e1, e2, -, -, -⟩ := idx_in t
  show (V m c (Pipeline.arrRef spec0 0) : S8x2048x1024.Idx → EReal) (((cfg0.win 0).blk t).view.emb (ix3 0 q f)) = _
  refine congrArg _ (funext fun a => Fin.ext ?_)
  match a with
  | ⟨0, _⟩ =>
    show win0_0.index t (0 : Fin 3) * 1 + 1 * 0 = t.val / 16 % 8
    omega
  | ⟨1, _⟩ =>
    show win0_0.index t (1 : Fin 3) * 512 + 1 * q.val = 512 * (t.val / 4 % 4) + q.val
    omega
  | ⟨2, _⟩ =>
    show win0_0.index t (2 : Fin 3) * 1024 + 1 * f.val = f.val
    omega

/-- Input window 1's block at point t: rows 512 ki .. of batch b of its array. -/
theorem blk1_apply (c : Dev nD) (t : Fin cfg0.N) (k : Fin 512) (f : Fin 1024) :
    iblk m c 1 t (ix3 0 k f)
      = (V m c (Pipeline.arrRef spec0 1) : S8x2048x1024.Idx → EReal)
          (ix3 (Model.bOf t.val) (Model.row (Model.kiOf t.val) k) f) := by
  obtain ⟨-, -, -, e0, e1, e2⟩ := idx_in t
  show (V m c (Pipeline.arrRef spec0 1) : S8x2048x1024.Idx → EReal) (((cfg0.win 1).blk t).view.emb (ix3 0 k f)) = _
  refine congrArg _ (funext fun a => Fin.ext ?_)
  match a with
  | ⟨0, _⟩ =>
    show win0_1.index t (0 : Fin 3) * 1 + 1 * 0 = t.val / 16 % 8
    omega
  | ⟨1, _⟩ =>
    show win0_1.index t (1 : Fin 3) * 512 + 1 * k.val = 512 * (t.val % 4) + k.val
    omega
  | ⟨2, _⟩ =>
    show win0_1.index t (2 : Fin 3) * 1024 + 1 * f.val = f.val
    omega

/-! ### Finite arguments -/

instance : Subsingleton Cert.Pre_finite_inputs.S_.Idx := ⟨fun a b => funext fun d => d.elim0⟩

/-- An extended real whose absolute value is below +∞ is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- An array all of whose entries have absolute value below +∞ is an array of real numbers. -/
theorem real_of_all (x : Cert.Pre_finite_inputs.S8x2048x1024.Idx → EReal)
    (h : ∀ i, Ideal.cmp .olt (max (x i) (-(x i))) (Ideal.ofBits .f32 0x7F800000#32) = 1#1) :
    ∃ xr : SX.Idx → ℝ, x = fun i => (xr i : EReal) := by
  choose xr hxr using fun i => real_of_abs_lt (x i) (h i)
  exact ⟨xr, funext hxr⟩

/-- Under the precondition both argument arrays are arrays of real numbers (there is one device). -/
theorem finite_of_pre (h : Cert.Pre_KernelIdeal m) :
    ∃ xr yr : SX.Idx → ℝ,
      (∀ c : Dev nD, (m ((c.tc : Thread nD τ).loc main_arg0) : SX.Idx → EReal) = fun i => (xr i : EReal))
      ∧ (∀ c : Dev nD, (m ((c.tc : Thread nD τ).loc main_arg1) : SX.Idx → EReal) = fun i => (yr i : EReal)) := by
  have h0 := congrFun (h (0 : Dev nD)) ix0
  dsimp only [Cert.Pre_finite_inputs.fn] at h0
  obtain ⟨hx, hy⟩ := IntOp.andi_eq_one.mp h0
  have ax := Host.reduce_andi_all _ _ _ _ _ hx
  have ay := Host.reduce_andi_all _ _ _ _ _ hy
  obtain ⟨xr, hxr⟩ := real_of_all (m (((0 : Dev nD).tc : Thread nD τ).loc main_arg0)) ax
  obtain ⟨yr, hyr⟩ := real_of_all (m (((0 : Dev nD).tc : Thread nD τ).loc main_arg1)) ay
  refine ⟨xr, yr, fun c => ?_, fun c => ?_⟩
  · obtain rfl : c = 0 := Subsingleton.elim _ _
    exact hxr
  · obtain rfl : c = 0 := Subsingleton.elim _ _
    exact hyr

/-! ### The output blocks in coordinates, and the points that write each element back -/

/-- The printed index maps of the two output windows, decided over the grid: at point t = 16 b + 4 qi + ki window 2
    writes block (b, qi, 0) and window 3 block (b, 0, 0). -/
theorem idx_out : ∀ t : Fin cfg0.N,
    win0_2.index t (0 : Fin 3) = t.val / 16 % 8 ∧ win0_2.index t (1 : Fin 3) = t.val / 4 % 4 ∧ win0_2.index t (2 : Fin 3) = 0
    ∧ win0_3.index t (0 : Fin 3) = t.val / 16 % 8 ∧ win0_3.index t (1 : Fin 3) = 0 ∧ win0_3.index t (2 : Fin 3) = 0 :=
  (by decide +kernel : ∀ t : Fin grid0.N, _)

/-- Where element y of output window 2's block at point t sits in the array. -/
theorem emb2 (t : Fin cfg0.N) (y : S1x512x1024.Idx) :
    ((cfg0.win 2).blk t).view.emb y = (ix3 (Model.bOf t.val) (Model.row (Model.qiOf t.val) (y 1)) (y 2) : S8x2048x1024.Idx) := by
  obtain ⟨e0, e1, e2, -, -, -⟩ := idx_out t
  funext a
  apply Fin.ext
  match a with
  | ⟨0, _⟩ =>
    show win0_2.index t (0 : Fin 3) * 1 + 1 * (y 0).val = t.val / 16 % 8
    have hy : (y 0).val < 1 := (y 0).isLt
    omega
  | ⟨1, _⟩ =>
    show win0_2.index t (1 : Fin 3) * 512 + 1 * (y 1).val = 512 * (t.val / 4 % 4) + (y 1).val
    omega
  | ⟨2, _⟩ =>
    show win0_2.index t (2 : Fin 3) * 1024 + 1 * (y 2).val = (y 2).val
    omega

/-- Where element y of output window 3's block at point t sits in the array. -/
theorem emb3 (t : Fin cfg0.N) (y : S1x2048x1024.Idx) :
    ((cfg0.win 3).blk t).view.emb y = (ix3 (Model.bOf t.val) (y 1) (y 2) : S8x2048x1024.Idx) := by
  obtain ⟨-, -, -, e0, e1, e2⟩ := idx_out t
  funext a
  apply Fin.ext
  match a with
  | ⟨0, _⟩ =>
    show win0_3.index t (0 : Fin 3) * 1 + 1 * (y 0).val = t.val / 16 % 8
    have hy : (y 0).val < 1 := (y 0).isLt
    omega
  | ⟨1, _⟩ =>
    show win0_3.index t (1 : Fin 3) * 2048 + 1 * (y 1).val = (y 1).val
    omega
  | ⟨2, _⟩ =>
    show win0_3.index t (2 : Fin 3) * 1024 + 1 * (y 2).val = (y 2).val
    omega

/-- An index of the first result array is in point t's block iff each coordinate is in the block's range. -/
theorem mem_blk2 (t : Fin cfg0.N) (i : S8x2048x1024.Idx) :
    i ∈ ((cfg0.win 2).blk t).view.set ↔ ∀ a : Fin 3, win0_2.index t a * S1x512x1024.size a ≤ (i a).val
      ∧ (i a).val < win0_2.index t a * S1x512x1024.size a + S1x512x1024.size a := by
  show i ∈ ((View.whole main_v0_0).slice (win0_2.rect t)).set ↔ _
  rw [View.set_slice_whole, Rect.mem_set_unit]
  exact Iff.rfl

/-- An index of the second result array is in point t's block iff each coordinate is in the block's range. -/
theorem mem_blk3 (t : Fin cfg0.N) (i : S8x2048x1024.Idx) :
    i ∈ ((cfg0.win 3).blk t).view.set ↔ ∀ a : Fin 3, win0_3.index t a * S1x2048x1024.size a ≤ (i a).val
      ∧ (i a).val < win0_3.index t a * S1x2048x1024.size a + S1x2048x1024.size a := by
  show i ∈ ((View.whole main_v0_1).slice (win0_3.rect t)).set ↔ _
  rw [View.set_slice_whole, Rect.mem_set_unit]
  exact Iff.rfl

/-- The point that writes element i of the first result back: the last column tile of i's row tile. -/
def pt2 (i : S8x2048x1024.Idx) : Fin cfg0.N :=
  ⟨16 * (i 0).val + 4 * ((i 1).val / 512) + 3, by
    have h0 : (i 0).val < 8 := (i 0).isLt
    have h1 : (i 1).val < 2048 := (i 1).isLt
    rw [show cfg0.N = 128 from N_0]
    omega⟩

/-- The point that writes element i of the second result back: the last point of i's batch. -/
def pt3 (i : S8x2048x1024.Idx) : Fin cfg0.N :=
  ⟨16 * (i 0).val + 15, by
    have h0 : (i 0).val < 8 := (i 0).isLt
    rw [show cfg0.N = 128 from N_0]
    omega⟩

/-- Every element of the first result lies in the block written back at its point. -/
theorem cover2_at (i : S8x2048x1024.Idx) :
    (cfg0.win 2).flush (pt2 i) = true ∧ i ∈ ((cfg0.win 2).blk (pt2 i)).view.set := by
  have h0 : (i 0).val < 8 := (i 0).isLt
  have h1 : (i 1).val < 2048 := (i 1).isLt
  have h2 : (i 2).val < 1024 := (i 2).isLt
  have hv : (pt2 i).val = 16 * (i 0).val + 4 * ((i 1).val / 512) + 3 := rfl
  refine ⟨(flush0_2 _).mpr (by rw [hv]; omega), ?_⟩
  rw [mem_blk2]
  obtain ⟨e0, e1, e2, -, -, -⟩ := idx_out (pt2 i)
  rw [hv] at e0 e1
  intro a
  match a with
  | ⟨0, _⟩ =>
    show win0_2.index (pt2 i) (0 : Fin 3) * 1 ≤ (i 0).val ∧ (i 0).val < win0_2.index (pt2 i) (0 : Fin 3) * 1 + 1
    omega
  | ⟨1, _⟩ =>
    show win0_2.index (pt2 i) (1 : Fin 3) * 512 ≤ (i 1).val ∧ (i 1).val < win0_2.index (pt2 i) (1 : Fin 3) * 512 + 512
    omega
  | ⟨2, _⟩ =>
    show win0_2.index (pt2 i) (2 : Fin 3) * 1024 ≤ (i 2).val ∧ (i 2).val < win0_2.index (pt2 i) (2 : Fin 3) * 1024 + 1024
    omega

/-- Every element of the second result lies in the block written back at its point. -/
theorem cover3_at (i : S8x2048x1024.Idx) :
    (cfg0.win 3).flush (pt3 i) = true ∧ i ∈ ((cfg0.win 3).blk (pt3 i)).view.set := by
  have h0 : (i 0).val < 8 := (i 0).isLt
  have h1 : (i 1).val < 2048 := (i 1).isLt
  have h2 : (i 2).val < 1024 := (i 2).isLt
  have hv : (pt3 i).val = 16 * (i 0).val + 15 := rfl
  refine ⟨(flush0_3 _).mpr (by rw [hv]; omega), ?_⟩
  rw [mem_blk3]
  obtain ⟨-, -, -, e0, e1, e2⟩ := idx_out (pt3 i)
  rw [hv] at e0
  intro a
  match a with
  | ⟨0, _⟩ =>
    show win0_3.index (pt3 i) (0 : Fin 3) * 1 ≤ (i 0).val ∧ (i 0).val < win0_3.index (pt3 i) (0 : Fin 3) * 1 + 1
    omega
  | ⟨1, _⟩ =>
    show win0_3.index (pt3 i) (1 : Fin 3) * 2048 ≤ (i 1).val ∧ (i 1).val < win0_3.index (pt3 i) (1 : Fin 3) * 2048 + 2048
    omega
  | ⟨2, _⟩ =>
    show win0_3.index (pt3 i) (2 : Fin 3) * 1024 ≤ (i 2).val ∧ (i 2).val < win0_3.index (pt3 i) (2 : Fin 3) * 1024 + 1024
    omega

/-- The blocks written back cover the first result array. -/
theorem cover2 (i : S8x2048x1024.Idx) :
    ∃ t : Fin cfg0.N, (cfg0.win 2).flush t = true ∧ i ∈ ((cfg0.win 2).blk t).view.set :=
  ⟨pt2 i, cover2_at i⟩

/-- The blocks written back cover the second result array. -/
theorem cover3 (i : S8x2048x1024.Idx) :
    ∃ t : Fin cfg0.N, (cfg0.win 3).flush t = true ∧ i ∈ ((cfg0.win 3).blk t).view.set :=
  ⟨pt3 i, cover3_at i⟩

end Cert.KernelIdeal.Blocks

end
-- ==== Proof.Ref.Soft.lean ====
/-
  The two results at finite arguments: when the entries of x and y are real numbers, every score is a real number,
  and each result is the real softmax-weighted average (the closed form `Cert.Softmax.soft`) of the rows it weights:
  the first of the rows of y under the softmax of row n's scores, the second of the rows of x under the softmax of
  column r's scores.
-/
import proofs.«118892_j1881195675895_2_alg».proof.Proof.Spec
import proofs.«118892_j1881195675895_2_alg».proof.Proof.Math.Online

noncomputable section

namespace Cert.CoAttn.Ref

open Idealize.ShloMosaic Idealize.ShloMosaic.ValueIdx

/-- A score of real arrays is the real inner product. -/
theorem score_coe (xr yr : SX.Idx → ℝ) (b : Fin 8) (n r : Fin 2048) :
    score (fun i => (xr i : EReal)) (fun i => (yr i : EReal)) b n r
      = ((∑ k : Fin 1024, xr (ix3 b n k) * yr (ix3 b r k) : ℝ) : EReal) := by
  unfold score
  simp only [← EReal.coe_mul]
  rw [Cert.Softmax.coe_sum]

/-- At real arrays the first result is the softmax of row n's scores over the rows of y, applied to column d of y. -/
theorem resA_coe (xr yr : SX.Idx → ℝ) (b : Fin 8) (n : Fin 2048) (d : Fin 1024) :
    resA (fun i => (xr i : EReal)) (fun i => (yr i : EReal)) b n d
      = ((Cert.Softmax.soft (ι := Fin 2048) (fun r => ∑ k : Fin 1024, xr (ix3 b n k) * yr (ix3 b r k))
          (fun r => yr (ix3 b r d)) : ℝ) : EReal) := by
  unfold resA
  simp only [score_coe]
  exact Cert.Softmax.plain_eq_soft (fun r : Fin 2048 => ∑ k : Fin 1024, xr (ix3 b n k) * yr (ix3 b r k))
    (fun r => yr (ix3 b r d))

/-- At real arrays the second result is the softmax of column r's scores over the rows of x, applied to column d of x. -/
theorem resB_coe (xr yr : SX.Idx → ℝ) (b : Fin 8) (r : Fin 2048) (d : Fin 1024) :
    resB (fun i => (xr i : EReal)) (fun i => (yr i : EReal)) b r d
      = ((Cert.Softmax.soft (ι := Fin 2048) (fun n => ∑ k : Fin 1024, xr (ix3 b n k) * yr (ix3 b r k))
          (fun n => xr (ix3 b n d)) : ℝ) : EReal) := by
  unfold resB
  simp only [score_coe]
  exact Cert.Softmax.plain_eq_soft (fun n : Fin 2048 => ∑ k : Fin 1024, xr (ix3 b n k) * yr (ix3 b r k))
    (fun n => xr (ix3 b n d))

end Cert.CoAttn.Ref

end
-- ==== Proof.ModelFinal.lean ====
/-
  What the recurrence of the model has computed when a row tile, and when a batch, is complete.

  Within a row tile (four consecutive steps, one per column tile) the statistics of a row are the streaming state
  `Cert.Softmax.Acc.run` over the column tiles seen so far: the step at the first column tile starts from the initial
  state, every step feeds one block of 512 scores. At the fourth step the accumulator is divided by the sum, which is
  the softmax-weighted average over all 4 × 512 = 2048 rows of y.

  Within a batch (sixteen steps) the statistics of a column of slice j are the streaming state over the row tiles whose
  step at slice j is done: the first step of the batch resets every slice, a step touches only its own slice, and in
  the last row tile each slice is divided at the step that completes it and not touched again. At the last step of the
  batch every slice is divided: the softmax-weighted average over all 2048 rows of x.

  Nothing depends on the state before the first step: step 0 resets both sides.
-/
import proofs.«118892_j1881195675895_2_alg».proof.Proof.Model
import proofs.«118892_j1881195675895_2_alg».proof.Proof.Ref.Soft

open Idealize.ShloMosaic Idealize.ShloMosaic.ValueIdx

noncomputable section

namespace Cert.CoAttn.Model

open Cert.Softmax Cert.CoAttn

variable (xr yr : SX.Idx → ℝ)

/-! ### Vocabulary -/

/-- The real score of row i of x against row r of y in batch b. -/
def rscore (b : Fin 8) (i r : Fin 2048) : ℝ := ∑ f : Fin 1024, xr (ix3 b i f) * yr (ix3 b r f)

/-- Row k of tile j, the tile given by a natural number (read modulo 4). -/
def rowOf (j : ℕ) (k : Fin 512) : Fin 2048 := row ⟨j % 4, Nat.mod_lt _ (by norm_num)⟩ k

theorem rowOf_val (j : Fin 4) (k : Fin 512) : rowOf j.val k = row j k := by
  unfold rowOf
  congr 1
  exact Fin.ext (Nat.mod_eq_of_lt j.isLt)

theorem rowOf_ki (n : ℕ) (k : Fin 512) : rowOf (n % 4) k = row (kiOf n) k := by
  unfold rowOf kiOf
  congr 1
  exact Fin.ext (Nat.mod_mod _ _)

theorem rowOf_qi (n : ℕ) (k : Fin 512) : rowOf (n / 4 % 4) k = row (qiOf n) k := by
  unfold rowOf qiOf
  congr 1
  exact Fin.ext (Nat.mod_mod _ _)

/-- The 2048 rows of a batch are the 4 tiles of 512 rows. -/
def rowEquiv : Fin 4 × Fin 512 ≃ Fin 2048 where
  toFun p := row p.1 p.2
  invFun r := (⟨r.val / 512, by have := r.isLt; omega⟩, ⟨r.val % 512, Nat.mod_lt _ (by norm_num)⟩)
  left_inv p := by
    obtain ⟨j, k⟩ := p
    have hj := j.isLt
    have hk := k.isLt
    refine Prod.ext (Fin.ext ?_) (Fin.ext ?_)
    · show (512 * j.val + k.val) / 512 = j.val
      omega
    · show (512 * j.val + k.val) % 512 = k.val
      omega
  right_inv r := by
    apply Fin.ext
    show 512 * (r.val / 512) + r.val % 512 = r.val
    omega

/-- The state handed to step n: the state after step n - 1 (before step 0, the initial one). -/
def prev (p0 : PSt) : ℕ → PSt
  | 0 => p0
  | n + 1 => pstAt xr yr p0 n

/-- The state step n's body runs on: the resets its number asks for, applied. -/
def pre (p0 : PSt) (n : ℕ) : PSt :=
  if n % 16 = 0 then resetCol (resetRow (prev xr yr p0 n)) else if n % 4 = 0 then resetRow (prev xr yr p0 n) else prev xr yr p0 n

theorem pstAt_eq (p0 : PSt) (n : ℕ) :
    pstAt xr yr p0 n
      = body (kiOf n) (decide (n % 4 = 3)) (decide (12 ≤ n % 16)) (xblk xr n) (yblk yr n) (pre xr yr p0 n) := by
  cases n <;> rfl

/-- The tile of step n is the real scores of its rows against its columns. -/
theorem tile_blk (n : ℕ) (q k : Fin 512) :
    tile (xblk xr n) (yblk yr n) q k = ((rscore xr yr (bOf n) (row (qiOf n) q) (row (kiOf n) k) : ℝ) : EReal) := by
  unfold tile xblk yblk rscore
  simp only [← EReal.coe_mul]
  rw [coe_sum]

/-! ### The row side -/

/-- Row i's streaming state over the first m column tiles. -/
def rowRun (b : Fin 8) (i : Fin 2048) (m : ℕ) : Acc (Fin 1024) :=
  Acc.run (fun j k => ((rscore xr yr b i (rowOf j k) : ℝ) : EReal)) (fun j k d => ((yr (ix3 b (rowOf j k) d) : ℝ) : EReal)) m

theorem rowAcc_body_false (ki : Fin 4) (c4 : Bool) (xb yb : Fin 512 → Fin 1024 → EReal) (p : PSt) (q : Fin 512) :
    rowAcc (body ki false c4 xb yb p) q = rowNext xb yb p q := rfl

/-- One step of the row side: from the state over the first n % 4 column tiles to the state over one more. -/
theorem rowNext_of (p : PSt) (n : ℕ) (q : Fin 512)
    (hp : rowAcc p q = rowRun xr yr (bOf n) (row (qiOf n) q) (n % 4)) :
    rowNext (xblk xr n) (yblk yr n) p q = rowRun xr yr (bOf n) (row (qiOf n) q) (n % 4 + 1) := by
  unfold rowNext
  rw [hp]
  show _ = (rowRun xr yr (bOf n) (row (qiOf n) q) (n % 4)).step
    (fun k => ((rscore xr yr (bOf n) (row (qiOf n) q) (rowOf (n % 4) k) : ℝ) : EReal))
    (fun k d => ((yr (ix3 (bOf n) (rowOf (n % 4) k) d) : ℝ) : EReal))
  congr 1
  · funext k
    rw [tile_blk, rowOf_ki]
  · funext k d
    rw [rowOf_ki]
    rfl

/-- The invariant of the row side: the statistics step n computes for row q, before the division, are the streaming
    state over the column tiles 0 .. n % 4. -/
theorem rowNext_eq (p0 : PSt) (n : ℕ) (q : Fin 512) :
    rowNext (xblk xr n) (yblk yr n) (pre xr yr p0 n) q = rowRun xr yr (bOf n) (row (qiOf n) q) (n % 4 + 1) := by
  induction n with
  | zero =>
    apply rowNext_of
    rfl
  | succ m ih =>
    apply rowNext_of
    by_cases h4 : (m + 1) % 4 = 0
    · have e : rowAcc (pre xr yr p0 (m + 1)) q = Acc.init := by
        unfold pre
        by_cases h16 : (m + 1) % 16 = 0
        · rw [if_pos h16]; rfl
        · rw [if_neg h16, if_pos h4]; rfl
      rw [e, h4]
      rfl
    · have h16 : (m + 1) % 16 ≠ 0 := by omega
      have e : pre xr yr p0 (m + 1) = pstAt xr yr p0 m := by
        unfold pre
        rw [if_neg h16, if_neg h4]
        rfl
      have hc : decide (m % 4 = 3) = false := decide_eq_false (by omega)
      rw [e, pstAt_eq, hc, rowAcc_body_false, ih]
      have hb : bOf (m + 1) = bOf m := Fin.ext (by show (m + 1) / 16 % 8 = m / 16 % 8; omega)
      have hq : qiOf (m + 1) = qiOf m := Fin.ext (by show (m + 1) / 4 % 4 = m / 4 % 4; omega)
      have hk : (m + 1) % 4 = m % 4 + 1 := by omega
      rw [hb, hq, hk]

/-- The softmax-weighted average over the pairs (tile, row in tile) is the one over the 2048 rows. -/
theorem soft_rows (sr vr : Fin 2048 → ℝ) :
    soft (ι := Fin 4 × Fin 512) (fun p => sr (rowOf p.1.val p.2)) (fun p => vr (rowOf p.1.val p.2)) = soft sr vr := by
  simp only [rowOf_val]
  exact soft_equiv rowEquiv sr vr

/-- After all four column tiles the division gives the softmax-weighted average over the pairs. -/
theorem rowRun_div (b : Fin 8) (i : Fin 2048) (d : Fin 1024) :
    Ideal.div ((rowRun xr yr b i 4).acc d) (rowRun xr yr b i 4).l
      = ((soft (ι := Fin 4 × Fin 512) (fun p => rscore xr yr b i (rowOf p.1.val p.2))
          (fun p => yr (ix3 b (rowOf p.1.val p.2) d)) : ℝ) : EReal) :=
  online_eq_soft 4 (fun j k => rscore xr yr b i (rowOf j k)) (fun j k d => yr (ix3 b (rowOf j k) d)) d

theorem final_o2 (p0 : PSt) (n : ℕ) (hn : n < 128) (h : n % 4 = 3) (q : Fin 512) (d : Fin 1024) :
    (pstAt xr yr p0 n).o2 q d
      = resA (fun i => (xr i : EReal)) (fun i => (yr i : EReal)) (bOf n) (row (qiOf n) q) d := by
  have _ := hn
  have hc : decide (n % 4 = 3) = true := decide_eq_true h
  have e1 : (pstAt xr yr p0 n).o2 q d
      = Ideal.div ((rowNext (xblk xr n) (yblk yr n) (pre xr yr p0 n) q).acc d)
          (rowNext (xblk xr n) (yblk yr n) (pre xr yr p0 n) q).l := by
    rw [pstAt_eq, hc]
    rfl
  have e2 : rowNext (xblk xr n) (yblk yr n) (pre xr yr p0 n) q = rowRun xr yr (bOf n) (row (qiOf n) q) 4 := by
    rw [rowNext_eq, h]
  rw [e1, e2, rowRun_div, Ref.resA_coe]
  exact congrArg (fun t : ℝ => (t : EReal))
    (soft_rows (fun r => rscore xr yr (bOf n) (row (qiOf n) q) r) (fun r => yr (ix3 (bOf n) r d)))

/-! ### The column side -/

/-- Column r's streaming state over the first m row tiles. -/
def colRun (b : Fin 8) (r : Fin 2048) (m : ℕ) : Acc (Fin 1024) :=
  Acc.run (fun i q => ((rscore xr yr b (rowOf i q) r : ℝ) : EReal)) (fun i q d => ((xr (ix3 b (rowOf i q) d) : ℝ) : EReal)) m

/-- How many row tiles the slice of column r has seen once step n is done: one more than the row tile's number if the
    slice's step in this row tile is done, the row tile's number if not. -/
def cnt (n : ℕ) (r : Fin 2048) : ℕ := if r.val / 512 ≤ n % 4 then n / 4 % 4 + 1 else n / 4 % 4

theorem row_div_mod (ki : Fin 4) (r : Fin 2048) (h : r.val / 512 = ki.val) :
    row ki ⟨r.val % 512, Nat.mod_lt _ (by norm_num)⟩ = r := by
  apply Fin.ext
  show 512 * ki.val + r.val % 512 = r.val
  omega

/-- A step leaves the columns of the other slices alone. -/
theorem colAcc_body_neg (ki : Fin 4) (c3 c4 : Bool) (xb yb : Fin 512 → Fin 1024 → EReal) (p : PSt) (r : Fin 2048)
    (h : ¬ r.val / 512 = ki.val) : colAcc (body ki c3 c4 xb yb p) r = colAcc p r := by
  unfold colAcc body
  simp only [dif_neg h]

theorem o3_body_neg (ki : Fin 4) (c3 c4 : Bool) (xb yb : Fin 512 → Fin 1024 → EReal) (p : PSt) (r : Fin 2048)
    (d : Fin 1024) (h : ¬ r.val / 512 = ki.val) : (body ki c3 c4 xb yb p).o3 r d = p.o3 r d := by
  unfold body
  simp only [dif_neg h]

/-- A step without division puts the slice's columns at their next statistics. -/
theorem colAcc_body_pos (ki : Fin 4) (c3 : Bool) (xb yb : Fin 512 → Fin 1024 → EReal) (p : PSt) (r : Fin 2048)
    (h : r.val / 512 = ki.val) :
    colAcc (body ki c3 false xb yb p) r = colNext xb yb p ki ⟨r.val % 512, Nat.mod_lt _ (by norm_num)⟩ := by
  unfold colAcc body
  simp only [dif_pos h, Bool.false_eq_true, if_false]

/-- A step with division puts the slice's accumulators at the next accumulator over the next sum. -/
theorem o3_body_pos (ki : Fin 4) (c3 : Bool) (xb yb : Fin 512 → Fin 1024 → EReal) (p : PSt) (r : Fin 2048)
    (d : Fin 1024) (h : r.val / 512 = ki.val) :
    (body ki c3 true xb yb p).o3 r d
      = Ideal.div ((colNext xb yb p ki ⟨r.val % 512, Nat.mod_lt _ (by norm_num)⟩).acc d)
          (colNext xb yb p ki ⟨r.val % 512, Nat.mod_lt _ (by norm_num)⟩).l := by
  unfold body
  simp only [dif_pos h, if_true]

/-- One step of the column side: from the state over the first n / 4 % 4 row tiles to the state over one more. -/
theorem colNext_of (p : PSt) (n : ℕ) (r : Fin 2048) (hr : r.val / 512 = n % 4)
    (hp : colAcc p r = colRun xr yr (bOf n) r (n / 4 % 4)) :
    colNext (xblk xr n) (yblk yr n) p (kiOf n) ⟨r.val % 512, Nat.mod_lt _ (by norm_num)⟩
      = colRun xr yr (bOf n) r (n / 4 % 4 + 1) := by
  have hrow : row (kiOf n) ⟨r.val % 512, Nat.mod_lt _ (by norm_num)⟩ = r := row_div_mod (kiOf n) r hr
  unfold colNext
  rw [hrow, hp]
  show _ = (colRun xr yr (bOf n) r (n / 4 % 4)).step
    (fun q => ((rscore xr yr (bOf n) (rowOf (n / 4 % 4) q) r : ℝ) : EReal))
    (fun q d => ((xr (ix3 (bOf n) (rowOf (n / 4 % 4) q) d) : ℝ) : EReal))
  congr 1
  · funext q
    rw [tile_blk, hrow, rowOf_qi]
  · funext q d
    rw [rowOf_qi]
    rfl

theorem cnt_pos (m : ℕ) (r : Fin 2048) (h16 : (m + 1) % 16 ≠ 0) (hr : r.val / 512 = (m + 1) % 4) :
    cnt m r = (m + 1) / 4 % 4 := by
  unfold cnt
  split_ifs <;> omega

theorem cnt_neg (m : ℕ) (r : Fin 2048) (h16 : (m + 1) % 16 ≠ 0) (hr : ¬ r.val / 512 = (m + 1) % 4) :
    cnt (m + 1) r = cnt m r := by
  have := r.isLt
  unfold cnt
  split_ifs <;> omega

/-- One step of the column side, from what is known of the state its body runs on. -/
theorem col_step (p : PSt) (n : ℕ) (r : Fin 2048)
    (hpos : r.val / 512 = n % 4 → colAcc p r = colRun xr yr (bOf n) r (n / 4 % 4))
    (hneg1 : ¬ r.val / 512 = n % 4 → cnt n r < 4 → colAcc p r = colRun xr yr (bOf n) r (cnt n r))
    (hneg2 : ¬ r.val / 512 = n % 4 → cnt n r = 4 → ∀ d, p.o3 r d
      = Ideal.div ((colRun xr yr (bOf n) r 4).acc d) (colRun xr yr (bOf n) r 4).l) :
    (cnt n r < 4 → colAcc (body (kiOf n) (decide (n % 4 = 3)) (decide (12 ≤ n % 16)) (xblk xr n) (yblk yr n) p) r
        = colRun xr yr (bOf n) r (cnt n r)) ∧
    (cnt n r = 4 → ∀ d, (body (kiOf n) (decide (n % 4 = 3)) (decide (12 ≤ n % 16)) (xblk xr n) (yblk yr n) p).o3 r d
        = Ideal.div ((colRun xr yr (bOf n) r 4).acc d) (colRun xr yr (bOf n) r 4).l) := by
  by_cases hr : r.val / 512 = n % 4
  · have hcnt : cnt n r = n / 4 % 4 + 1 := by
      unfold cnt
      rw [if_pos (le_of_eq hr)]
    have hnext := colNext_of xr yr p n r hr (hpos hr)
    by_cases h12 : 12 ≤ n % 16
    · have hc : decide (12 ≤ n % 16) = true := decide_eq_true h12
      have hq : n / 4 % 4 + 1 = 4 := by omega
      refine ⟨fun hlt => absurd hlt (by omega), fun _ d => ?_⟩
      rw [hc, o3_body_pos (kiOf n) _ _ _ p r d hr, hnext, hq]
    · have hc : decide (12 ≤ n % 16) = false := decide_eq_false h12
      refine ⟨fun _ => ?_, fun h4 => absurd h4 (by omega)⟩
      rw [hc, colAcc_body_pos (kiOf n) _ _ _ p r hr, hnext, hcnt]
  · refine ⟨fun hlt => ?_, fun h4 d => ?_⟩
    · rw [colAcc_body_neg (kiOf n) _ _ _ _ p r hr]
      exact hneg1 hr hlt
    · rw [o3_body_neg (kiOf n) _ _ _ _ p r d hr]
      exact hneg2 hr h4 d

/-- The invariant of the column side: once step n is done, a column whose slice has seen fewer than four row tiles
    is at the streaming state over them, and a column whose slice has seen all four has been divided. -/
theorem col_inv (p0 : PSt) (n : ℕ) (r : Fin 2048) :
    (cnt n r < 4 → colAcc (pstAt xr yr p0 n) r = colRun xr yr (bOf n) r (cnt n r)) ∧
    (cnt n r = 4 → ∀ d, (pstAt xr yr p0 n).o3 r d
        = Ideal.div ((colRun xr yr (bOf n) r 4).acc d) (colRun xr yr (bOf n) r 4).l) := by
  have hreset : ∀ n : ℕ, n % 16 = 0 →
      (cnt n r < 4 → colAcc (pstAt xr yr p0 n) r = colRun xr yr (bOf n) r (cnt n r)) ∧
      (cnt n r = 4 → ∀ d, (pstAt xr yr p0 n).o3 r d
          = Ideal.div ((colRun xr yr (bOf n) r 4).acc d) (colRun xr yr (bOf n) r 4).l) := by
    intro n h16
    have e : colAcc (pre xr yr p0 n) r = Acc.init := by
      unfold pre
      rw [if_pos h16]
      rfl
    have hq : n / 4 % 4 = 0 := by omega
    rw [pstAt_eq]
    refine col_step xr yr _ n r (fun _ => ?_) (fun hr _ => ?_) (fun hr h4 => absurd h4 ?_)
    · rw [e, hq]
      rfl
    · have hc : cnt n r = 0 := by
        unfold cnt
        rw [if_neg (by omega)]
        exact hq
      rw [e, hc]
      rfl
    · unfold cnt
      rw [if_neg (by omega)]
      omega
  induction n with
  | zero => exact hreset 0 rfl
  | succ m ih =>
    by_cases h16 : (m + 1) % 16 = 0
    · exact hreset (m + 1) h16
    · have e : colAcc (pre xr yr p0 (m + 1)) r = colAcc (pstAt xr yr p0 m) r := by
        unfold pre
        rw [if_neg h16]
        by_cases h4 : (m + 1) % 4 = 0
        · rw [if_pos h4]; rfl
        · rw [if_neg h4]; rfl
      have eo : ∀ d, (pre xr yr p0 (m + 1)).o3 r d = (pstAt xr yr p0 m).o3 r d := by
        intro d
        unfold pre
        rw [if_neg h16]
        by_cases h4 : (m + 1) % 4 = 0
        · rw [if_pos h4]; rfl
        · rw [if_neg h4]; rfl
      have hb : bOf (m + 1) = bOf m := Fin.ext (by show (m + 1) / 16 % 8 = m / 16 % 8; omega)
      rw [pstAt_eq]
      refine col_step xr yr _ (m + 1) r (fun hr => ?_) (fun hr hlt => ?_) (fun hr h4 d => ?_)
      · have hc := cnt_pos m r h16 hr
        rw [e, hb, ← hc]
        exact ih.1 (by rw [hc]; exact Nat.mod_lt _ (by norm_num))
      · have hc := cnt_neg m r h16 hr
        rw [e, hb, hc]
        exact ih.1 (by rw [← hc]; exact hlt)
      · have hc := cnt_neg m r h16 hr
        rw [eo, hb]
        exact ih.2 (by rw [← hc]; exact h4) d

/-- After all four row tiles the division gives the softmax-weighted average over the pairs. -/
theorem colRun_div (b : Fin 8) (r : Fin 2048) (d : Fin 1024) :
    Ideal.div ((colRun xr yr b r 4).acc d) (colRun xr yr b r 4).l
      = ((soft (ι := Fin 4 × Fin 512) (fun p => rscore xr yr b (rowOf p.1.val p.2) r)
          (fun p => xr (ix3 b (rowOf p.1.val p.2) d)) : ℝ) : EReal) :=
  online_eq_soft 4 (fun i q => rscore xr yr b (rowOf i q) r) (fun i q d => xr (ix3 b (rowOf i q) d)) d

theorem final_o3 (p0 : PSt) (n : ℕ) (hn : n < 128) (h : n % 16 = 15) (r : Fin 2048) (d : Fin 1024) :
    (pstAt xr yr p0 n).o3 r d
      = resB (fun i => (xr i : EReal)) (fun i => (yr i : EReal)) (bOf n) r d := by
  have _ := hn
  have hcnt : cnt n r = 4 := by
    have := r.isLt
    unfold cnt
    rw [if_pos (by omega)]
    omega
  rw [(col_inv xr yr p0 n r).2 hcnt d, colRun_div, Ref.resB_coe]
  exact congrArg (fun t : ℝ => (t : EReal))
    (soft_rows (fun i => rscore xr yr (bOf n) i r) (fun i => xr (ix3 (bOf n) i d)))

end Cert.CoAttn.Model

end
-- ==== Proof.KI.Final.lean ====
/-
  From the pipeline's proof data to the two result arrays.

  The six buffers the body carries, read index by index, follow the model's recurrence step by step (the hypothesis
  `hstep`, proved elsewhere), on the blocks of the two argument arrays, which under the precondition are arrays of real
  numbers. So after point n they are the model's state after step n, whatever they held before the first point. At a
  point that writes the row accumulator back (n % 4 = 3) its block is the first result's closed form on that block's
  rows, and at a point that writes the column accumulator back (n % 16 = 15) its block is the second result's closed
  form on that batch; the blocks written back cover the two result arrays, so the arrays end at the closed forms.
-/
import proofs.«118892_j1881195675895_2_alg».proof.Proof.KI.Sound
import proofs.«118892_j1881195675895_2_alg».proof.Proof.KI.Pst
import proofs.«118892_j1881195675895_2_alg».proof.Proof.KI.Blocks
import proofs.«118892_j1881195675895_2_alg».proof.Proof.ModelFinal

set_option maxRecDepth 16384

noncomputable section

namespace Cert.KernelIdeal.Final

open Cert.KernelIdeal Cert.KernelIdeal.Gen Cert.KernelIdeal.Body Cert.KernelIdeal.Blocks
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.CoAttn

local notation "𝕄" => MT nD τ sig Unit (Elt Ideal) ℕ (UR sig nD τ) ℕ

variable (m : (ℓ : Loc nD τ sig) → Buf (Elt Ideal) ℓ) (ρ : Dev nD → PrngReg)
variable (xr yr : SX.Idx → ℝ)

/-! ### The input blocks are the model's blocks -/

/-- Input window 0's block at point t is the model's x block of step t. -/
theorem blk0_model
    (hx : ∀ c : Dev nD, (m ((c.tc : Thread nD τ).loc main_arg0) : SX.Idx → EReal) = fun i => (xr i : EReal))
    (c : Dev nD) (t : Fin cfg0.N) : blkF (iblk m c 0 t) = Model.xblk xr t.val := by
  funext q f
  show iblk m c 0 t (ix3 0 q f) = _
  rw [blk0_apply, V_arr0, hx c]
  rfl

/-- Input window 1's block at point t is the model's y block of step t. -/
theorem blk1_model
    (hy : ∀ c : Dev nD, (m ((c.tc : Thread nD τ).loc main_arg1) : SX.Idx → EReal) = fun i => (yr i : EReal))
    (c : Dev nD) (t : Fin cfg0.N) : blkF (iblk m c 1 t) = Model.yblk yr t.val := by
  funext k f
  show iblk m c 1 t (ix3 0 k f) = _
  rw [blk1_apply, V_arr1, hy c]
  rfl

/-! ### The buffers follow the model -/

/-- After point n the six buffers, read index by index, are the model's state after step n. -/
theorem stAt_model
    (hstep : ∀ (c : Dev nD) (t : Fin cfg0.N) (p : St Ideal),
      pst (step m c t p) = Model.pstep t.val (blkF (iblk m c 0 t)) (blkF (iblk m c 1 t)) (pst p))
    (hx : ∀ c : Dev nD, (m ((c.tc : Thread nD τ).loc main_arg0) : SX.Idx → EReal) = fun i => (xr i : EReal))
    (hy : ∀ c : Dev nD, (m ((c.tc : Thread nD τ).loc main_arg1) : SX.Idx → EReal) = fun i => (yr i : EReal))
    (c : Dev nD) (n : ℕ) (hn : n < 128) :
    pst (stAt m c n) = Model.pstAt xr yr (pst (St.any : St Ideal)) n := by
  induction n with
  | zero =>
    have h0 : (0 : ℕ) < cfg0.N := by rw [show cfg0.N = 128 from N_0]; omega
    show pst (stepN m c 0 St.any) = Model.pstep 0 (Model.xblk xr 0) (Model.yblk yr 0) (pst St.any)
    unfold stepN
    rw [dif_pos h0, hstep c ⟨0, h0⟩ St.any, blk0_model m xr hx c ⟨0, h0⟩, blk1_model m yr hy c ⟨0, h0⟩]
  | succ k ih =>
    have hk : k + 1 < cfg0.N := by rw [show cfg0.N = 128 from N_0]; exact hn
    show pst (stepN m c (k + 1) (stAt m c k))
      = Model.pstep (k + 1) (Model.xblk xr (k + 1)) (Model.yblk yr (k + 1)) (Model.pstAt xr yr (pst St.any) k)
    unfold stepN
    rw [dif_pos hk, hstep c ⟨k + 1, hk⟩ (stAt m c k), blk0_model m xr hx c ⟨k + 1, hk⟩,
      blk1_model m yr hy c ⟨k + 1, hk⟩, ih (by omega)]

/-! ### What is written back, and the two result arrays -/

/-- An index of a 1 × 512 × 1024 block is (0, its row, its column). -/
theorem eq_ix3_512 (y : S1x512x1024.Idx) : y = ix3 (0 : Fin 1) (y 1) (y 2) := by
  funext a
  match a with
  | ⟨0, _⟩ =>
    have h : (y 0).val < 1 := (y 0).isLt
    exact Fin.ext (by show (y 0).val = 0; omega)
  | ⟨1, _⟩ => rfl
  | ⟨2, _⟩ => rfl

/-- An index of a 1 × 2048 × 1024 block is (0, its row, its column). -/
theorem eq_ix3_2048 (y : S1x2048x1024.Idx) : y = ix3 (0 : Fin 1) (y 1) (y 2) := by
  funext a
  match a with
  | ⟨0, _⟩ =>
    have h : (y 0).val < 1 := (y 0).isLt
    exact Fin.ext (by show (y 0).val = 0; omega)
  | ⟨1, _⟩ => rfl
  | ⟨2, _⟩ => rfl

/-- The first result's closed form, as an array. -/
abbrev GA : S8x2048x1024.Idx → EReal :=
  fun i => resA (fun i => (xr i : EReal)) (fun i => (yr i : EReal)) (i 0) (i 1) (i 2)

/-- The second result's closed form, as an array. -/
abbrev GB : S8x2048x1024.Idx → EReal :=
  fun i => resB (fun i => (xr i : EReal)) (fun i => (yr i : EReal)) (i 0) (i 1) (i 2)

/-- The row accumulator after a point that completes a row tile, at an element of its block: the first result's
    closed form at the element's place in the array. -/
theorem o2_at
    (hstep : ∀ (c : Dev nD) (t : Fin cfg0.N) (p : St Ideal),
      pst (step m c t p) = Model.pstep t.val (blkF (iblk m c 0 t)) (blkF (iblk m c 1 t)) (pst p))
    (hx : ∀ c : Dev nD, (m ((c.tc : Thread nD τ).loc main_arg0) : SX.Idx → EReal) = fun i => (xr i : EReal))
    (hy : ∀ c : Dev nD, (m ((c.tc : Thread nD τ).loc main_arg1) : SX.Idx → EReal) = fun i => (yr i : EReal))
    (c : Dev nD) (t : Fin cfg0.N) (h3 : t.val % 4 = 3) (y : S1x512x1024.Idx) :
    (stAt m c t.val).o2 y
      = resA (fun i => (xr i : EReal)) (fun i => (yr i : EReal)) (Model.bOf t.val) (Model.row (Model.qiOf t.val) (y 1)) (y 2) := by
  have ht : t.val < 128 := lt_of_lt_of_eq t.isLt N_0
  have e : (stAt m c t.val).o2 y = (pst (stAt m c t.val)).o2 (y 1) (y 2) :=
    congrArg (stAt m c t.val).o2 (eq_ix3_512 y)
  rw [e, stAt_model m xr yr hstep hx hy c t.val ht]
  exact Model.final_o2 xr yr _ t.val ht h3 (y 1) (y 2)

/-- The column accumulator after a point that completes a batch, at an element of its block: the second result's
    closed form at the element's place in the array. -/
theorem o3_at
    (hstep : ∀ (c : Dev nD) (t : Fin cfg0.N) (p : St Ideal),
      pst (step m c t p) = Model.pstep t.val (blkF (iblk m c 0 t)) (blkF (iblk m c 1 t)) (pst p))
    (hx : ∀ c : Dev nD, (m ((c.tc : Thread nD τ).loc main_arg0) : SX.Idx → EReal) = fun i => (xr i : EReal))
    (hy : ∀ c : Dev nD, (m ((c.tc : Thread nD τ).loc main_arg1) : SX.Idx → EReal) = fun i => (yr i : EReal))
    (c : Dev nD) (t : Fin cfg0.N) (h15 : t.val % 16 = 15) (y : S1x2048x1024.Idx) :
    (stAt m c t.val).o3 y
      = resB (fun i => (xr i : EReal)) (fun i => (yr i : EReal)) (Model.bOf t.val) (y 1) (y 2) := by
  have ht : t.val < 128 := lt_of_lt_of_eq t.isLt N_0
  have e : (stAt m c t.val).o3 y = (pst (stAt m c t.val)).o3 (y 1) (y 2) :=
    congrArg (stAt m c t.val).o3 (eq_ix3_2048 y)
  rw [e, stAt_model m xr yr hstep hx hy c t.val ht]
  exact Model.final_o3 xr yr _ t.val ht h15 (y 1) (y 2)

/-- The first result's closed form read through output window 2's block at point t. -/
theorem GA_blk (t : Fin cfg0.N) (y : S1x512x1024.Idx) :
    GA xr yr (((cfg0.win 2).blk t).view.emb y)
      = resA (fun i => (xr i : EReal)) (fun i => (yr i : EReal)) (Model.bOf t.val) (Model.row (Model.qiOf t.val) (y 1)) (y 2) := by
  rw [emb2 t y]

/-- The second result's closed form read through output window 3's block at point t. -/
theorem GB_blk (t : Fin cfg0.N) (y : S1x2048x1024.Idx) :
    GB xr yr (((cfg0.win 3).blk t).view.emb y)
      = resB (fun i => (xr i : EReal)) (fun i => (yr i : EReal)) (Model.bOf t.val) (y 1) (y 2) := by
  rw [emb3 t y]

/-- An index of output window 2's block at point t, as an index of the staging buffer: (0, its row, its column). -/
theorem xinj2 (t : Fin cfg0.N) (y : ((cfg0.win 2).xblock (grid0.coords t)).Idx) (h1 : (y 1).val < 512) (h2 : (y 2).val < 1024) :
    (cfg0.win 2).xinj (grid0.coords t) y = (ix3 (0 : Fin 1) (⟨(y 1).val, h1⟩ : Fin 512) (⟨(y 2).val, h2⟩ : Fin 1024) : S1x512x1024.Idx) := by
  funext a
  apply Fin.ext
  match a with
  | ⟨0, _⟩ =>
    have h0 : (y 0).val < 1 := (y 0).isLt
    show (y 0).val = 0
    omega
  | ⟨1, _⟩ => rfl
  | ⟨2, _⟩ => rfl

/-- The same index's place in the first result array. -/
theorem embd2 (t : Fin cfg0.N) (y : ((cfg0.win 2).xblock (grid0.coords t)).Idx) (h1 : (y 1).val < 512) (h2 : (y 2).val < 1024) :
    ((cfg0.win 2).blk t).view.emb y
      = (ix3 (Model.bOf t.val) (Model.row (Model.qiOf t.val) (⟨(y 1).val, h1⟩ : Fin 512)) (⟨(y 2).val, h2⟩ : Fin 1024) : S8x2048x1024.Idx) := by
  obtain ⟨e0, e1, e2, -, -, -⟩ := idx_out t
  funext a
  apply Fin.ext
  match a with
  | ⟨0, _⟩ =>
    have h0 : (y 0).val < 1 := (y 0).isLt
    show win0_2.index t (0 : Fin 3) * 1 + 1 * (y 0).val = t.val / 16 % 8
    omega
  | ⟨1, _⟩ =>
    show win0_2.index t (1 : Fin 3) * 512 + 1 * (y 1).val = 512 * (t.val / 4 % 4) + (y 1).val
    omega
  | ⟨2, _⟩ =>
    show win0_2.index t (2 : Fin 3) * 1024 + 1 * (y 2).val = (y 2).val
    omega

/-- An index of output window 3's block at point t, as an index of the staging buffer: (0, its row, its column). -/
theorem xinj3 (t : Fin cfg0.N) (y : ((cfg0.win 3).xblock (grid0.coords t)).Idx) (h1 : (y 1).val < 2048) (h2 : (y 2).val < 1024) :
    (cfg0.win 3).xinj (grid0.coords t) y = (ix3 (0 : Fin 1) (⟨(y 1).val, h1⟩ : Fin 2048) (⟨(y 2).val, h2⟩ : Fin 1024) : S1x2048x1024.Idx) := by
  funext a
  apply Fin.ext
  match a with
  | ⟨0, _⟩ =>
    have h0 : (y 0).val < 1 := (y 0).isLt
    show (y 0).val = 0
    omega
  | ⟨1, _⟩ => rfl
  | ⟨2, _⟩ => rfl

/-- The same index's place in the second result array. -/
theorem embd3 (t : Fin cfg0.N) (y : ((cfg0.win 3).xblock (grid0.coords t)).Idx) (h1 : (y 1).val < 2048) (h2 : (y 2).val < 1024) :
    ((cfg0.win 3).blk t).view.emb y
      = (ix3 (Model.bOf t.val) (⟨(y 1).val, h1⟩ : Fin 2048) (⟨(y 2).val, h2⟩ : Fin 1024) : S8x2048x1024.Idx) := by
  obtain ⟨-, -, -, e0, e1, e2⟩ := idx_out t
  funext a
  apply Fin.ext
  match a with
  | ⟨0, _⟩ =>
    have h0 : (y 0).val < 1 := (y 0).isLt
    show win0_3.index t (0 : Fin 3) * 1 + 1 * (y 0).val = t.val / 16 % 8
    omega
  | ⟨1, _⟩ =>
    show win0_3.index t (1 : Fin 3) * 2048 + 1 * (y 1).val = (y 1).val
    omega
  | ⟨2, _⟩ =>
    show win0_3.index t (2 : Fin 3) * 1024 + 1 * (y 2).val = (y 2).val
    omega

/-- Any array read through output window 2's block at point t, at a block index, is the array at the index's place
    (stated for an arbitrary array, so that nothing of the array is ever unfolded). -/
theorem read_blk2 (G : S8x2048x1024.Idx → EReal) (t : Fin cfg0.N) (y : ((cfg0.win 2).xblock (grid0.coords t)).Idx) :
    ((cfg0.win 2).blk t).view.read (Elt Ideal) G y = G (((cfg0.win 2).blk t).view.emb y) := rfl

/-- Any array read through output window 3's block at point t, at a block index, is the array at the index's place. -/
theorem read_blk3 (G : S8x2048x1024.Idx → EReal) (t : Fin cfg0.N) (y : ((cfg0.win 3).xblock (grid0.coords t)).Idx) :
    ((cfg0.win 3).blk t).view.read (Elt Ideal) G y = G (((cfg0.win 3).blk t).view.emb y) := rfl

/-- Any block contents cut for output window 2's write-back at point t, at a block index, is the contents at the index
    (stated for arbitrary contents). -/
theorem cut_blk2 (X : S1x512x1024.Idx → EReal) (t : Fin cfg0.N) (y : ((cfg0.win 2).xblock (grid0.coords t)).Idx) :
    (cfg0.win 2).cut (grid0.coords t) X y = X ((cfg0.win 2).xinj (grid0.coords t) y) := rfl

/-- Any block contents cut for output window 3's write-back at point t, at a block index, is the contents at the index. -/
theorem cut_blk3 (X : S1x2048x1024.Idx → EReal) (t : Fin cfg0.N) (y : ((cfg0.win 3).xblock (grid0.coords t)).Idx) :
    (cfg0.win 3).cut (grid0.coords t) X y = X ((cfg0.win 3).xinj (grid0.coords t) y) := rfl

/-- What a point that writes the row accumulator back writes is the first result's closed form on its block. -/
theorem flushed2_eq
    (hstep : ∀ (c : Dev nD) (t : Fin cfg0.N) (p : St Ideal),
      pst (step m c t p) = Model.pstep t.val (blkF (iblk m c 0 t)) (blkF (iblk m c 1 t)) (pst p))
    (hx : ∀ c : Dev nD, (m ((c.tc : Thread nD τ).loc main_arg0) : SX.Idx → EReal) = fun i => (xr i : EReal))
    (hy : ∀ c : Dev nD, (m ((c.tc : Thread nD τ).loc main_arg1) : SX.Idx → EReal) = fun i => (yr i : EReal))
    (c : Dev nD) (t : Fin cfg0.N) (hf : (cfg0.win 2).flush t = true) :
    (dats m 0 c).flushed 2 t = ((cfg0.win 2).blk t).view.read (Elt Ideal) (GA xr yr) := by
  have h3 : t.val % 4 = 3 := (flush0_2 t).mp hf
  show (cfg0.win 2).cut (grid0.coords t) ((dats m 0 c).after 2 t) = _
  rw [after2]
  funext y
  have h1 : (y 1).val < 512 := (y 1).isLt
  have h2 : (y 2).val < 1024 := (y 2).isLt
  rw [cut_blk2 (stAt m c t.val).o2 t y, read_blk2 (GA xr yr) t y, xinj2 t y h1 h2, embd2 t y h1 h2]
  exact o2_at m xr yr hstep hx hy c t h3 (ix3 (0 : Fin 1) (⟨(y 1).val, h1⟩ : Fin 512) (⟨(y 2).val, h2⟩ : Fin 1024))

/-- What a point that writes the column accumulator back writes is the second result's closed form on its block. -/
theorem flushed3_eq
    (hstep : ∀ (c : Dev nD) (t : Fin cfg0.N) (p : St Ideal),
      pst (step m c t p) = Model.pstep t.val (blkF (iblk m c 0 t)) (blkF (iblk m c 1 t)) (pst p))
    (hx : ∀ c : Dev nD, (m ((c.tc : Thread nD τ).loc main_arg0) : SX.Idx → EReal) = fun i => (xr i : EReal))
    (hy : ∀ c : Dev nD, (m ((c.tc : Thread nD τ).loc main_arg1) : SX.Idx → EReal) = fun i => (yr i : EReal))
    (c : Dev nD) (t : Fin cfg0.N) (hf : (cfg0.win 3).flush t = true) :
    (dats m 0 c).flushed 3 t = ((cfg0.win 3).blk t).view.read (Elt Ideal) (GB xr yr) := by
  have h15 : t.val % 16 = 15 := (flush0_3 t).mp hf
  show (cfg0.win 3).cut (grid0.coords t) ((dats m 0 c).after 3 t) = _
  rw [after3]
  funext y
  have h1 : (y 1).val < 2048 := (y 1).isLt
  have h2 : (y 2).val < 1024 := (y 2).isLt
  rw [cut_blk3 (stAt m c t.val).o3 t y, read_blk3 (GB xr yr) t y, xinj3 t y h1 h2, embd3 t y h1 h2]
  exact o3_at m xr yr hstep hx hy c t h15 (ix3 (0 : Fin 1) (⟨(y 1).val, h1⟩ : Fin 2048) (⟨(y 2).val, h2⟩ : Fin 1024))

/-- The first result array ends at its closed form. -/
theorem final2
    (hstep : ∀ (c : Dev nD) (t : Fin cfg0.N) (p : St Ideal),
      pst (step m c t p) = Model.pstep t.val (blkF (iblk m c 0 t)) (blkF (iblk m c 1 t)) (pst p))
    (hx : ∀ c : Dev nD, (m ((c.tc : Thread nD τ).loc main_arg0) : SX.Idx → EReal) = fun i => (xr i : EReal))
    (hy : ∀ c : Dev nD, (m ((c.tc : Thread nD τ).loc main_arg1) : SX.Idx → EReal) = fun i => (yr i : EReal))
    (c : Dev nD) :
    (dats m 0 c).arrAt 2 cfg0.N = fun i : S8x2048x1024.Idx =>
      resA (fun i => (xr i : EReal)) (fun i => (yr i : EReal)) (i 0) (i 1) (i 2) :=
  (dats m 0 c).arrAt_eq_of_cover 2 (GA xr yr) (fun t hf => flushed2_eq m xr yr hstep hx hy c t hf) cover2

/-- The second result array ends at its closed form. -/
theorem final3
    (hstep : ∀ (c : Dev nD) (t : Fin cfg0.N) (p : St Ideal),
      pst (step m c t p) = Model.pstep t.val (blkF (iblk m c 0 t)) (blkF (iblk m c 1 t)) (pst p))
    (hx : ∀ c : Dev nD, (m ((c.tc : Thread nD τ).loc main_arg0) : SX.Idx → EReal) = fun i => (xr i : EReal))
    (hy : ∀ c : Dev nD, (m ((c.tc : Thread nD τ).loc main_arg1) : SX.Idx → EReal) = fun i => (yr i : EReal))
    (c : Dev nD) :
    (dats m 0 c).arrAt 3 cfg0.N = fun i : S8x2048x1024.Idx =>
      resB (fun i => (xr i : EReal)) (fun i => (yr i : EReal)) (i 0) (i 1) (i 2) :=
  (dats m 0 c).arrAt_eq_of_cover 3 (GB xr yr) (fun t hf => flushed3_eq m xr yr hstep hx hy c t hf) cover3

/-! ### The run -/

/-- The kernel's run at the ideal values: both result arrays end at their closed forms of the argument arrays, and the
    argument arrays end as they began. -/
theorem run_value
    (hstep : ∀ (c : Dev nD) (t : Fin cfg0.N) (p : St Ideal),
      pst (step m c t p) = Model.pstep t.val (blkF (iblk m c 0 t)) (blkF (iblk m c 1 t)) (pst p))
    (h : Cert.Pre_KernelIdeal m) :
    θ_run defs (onTc (τ := τ) (main (F := Ideal))) ⟨m, fun _ => 0, ρ⟩ (fun r => ∀ c : Dev nD,
      r.2.mem ((c.tc : Thread nD τ).loc main_v0_0) = (fun i : S8x2048x1024.Idx =>
          resA (m ((c.tc : Thread nD τ).loc main_arg0)) (m ((c.tc : Thread nD τ).loc main_arg1)) (i 0) (i 1) (i 2))
      ∧ r.2.mem ((c.tc : Thread nD τ).loc main_v0_1) = (fun i : S8x2048x1024.Idx =>
          resB (m ((c.tc : Thread nD τ).loc main_arg0)) (m ((c.tc : Thread nD τ).loc main_arg1)) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  obtain ⟨xr, yr, hx, hy⟩ := finite_of_pre m h
  refine (θ_run defs _ _).mono (fun r hr c => ⟨?_, ?_, ?_, ?_⟩) (run_main m ρ)
  · rw [hx c, hy c]
    exact ((hr c).1 2).trans (final2 m xr yr hstep hx hy c)
  · rw [hx c, hy c]
    exact ((hr c).1 3).trans (final3 m xr yr hstep hx hy c)
  · exact ((hr c).2 main_arg0 (Pipeline.mem_restRefs_of main_arg0 (by decide) (by decide))).trans (V_main_arg0 m c)
  · exact ((hr c).2 main_arg1 (Pipeline.mem_restRefs_of main_arg1 (by decide) (by decide))).trans (V_main_arg1 m c)

end Cert.KernelIdeal.Final

end
-- ==== Proof.Ref.Closed.lean ====
/-
  The reference read index by index: each of its two results as one closed expression of the two argument arrays.
-/
import proofs.«118892_j1881195675895_2_alg».proof.Proof.Gen.ReferenceIdeal.Read
import proofs.«118892_j1881195675895_2_alg».proof.Proof.Spec
import Idealize.ShloMosaic.Lib.ValueIdx
import Idealize.ShloMosaic.Lib.Pipeline.Value
import Idealize.ShloMosaic.PureOps.Ideal.Laws

noncomputable section

namespace Cert.CoAttn.Ref

open Idealize.ShloMosaic Idealize.ShloMosaic.ValueIdx Idealize.ShloMosaic.StableHlo
open Cert.ReferenceIdeal Cert.ReferenceIdeal.Gen Cert.ReferenceIdeal.Read

/-- An argument or result array: 8 × 2048 × 1024 extended reals. -/
abbrev Arr : Type := (⟨S8x2048x1024, .f32⟩ : BufTy).Contents (Elt Ideal)

/-! ### The scores -/

/-- The first product, at (b, n, r), is the score of row n of x against row r of y. -/
theorem v0_eq_score (x y : Arr) (b : Fin 8) (n r : Fin 2048) :
    val_main_v0 (F := Ideal) x y (ix3 b n r) = score x y b n r := by
  rw [val_main_v0_apply]
  unfold score
  refine Finset.sum_congr rfl fun k _ => ?_
  have el : lidx_main_v0 (ix3 b n r) k = ix3 b n k :=
    funext fun a => Fin.ext (by match a with | ⟨0, _⟩ => rfl | ⟨1, _⟩ => rfl | ⟨2, _⟩ => rfl)
  have er : ridx_main_v0 (ix3 b n r) k = ix3 b r k :=
    funext fun a => Fin.ext (by match a with | ⟨0, _⟩ => rfl | ⟨1, _⟩ => rfl | ⟨2, _⟩ => rfl)
  rw [el, er]

/-! ### The constants -/

/-- The word of −∞ is ⊥. -/
theorem ofBits_neg_inf : Ideal.ofBits .f32 0xFF800000#32 = (⊥ : EReal) := by
  simp [Ideal.ofBits, Ideal.ieee]

/-! ### Softmax over the rows of y (axis 2 of the scores) -/

/-- The reduced index (b, n) with r put back on axis 2 is (b, n, r). -/
theorem lift_d2 (h : S8x2048x2048.Reduces [2] S8x2048) (b : Fin 8) (n : Fin 2048) (k : Fin (S8x2048x2048.size 2)) :
    h.lift (ix2 b n) k = ix3 b n (⟨k.val, k.isLt⟩ : Fin 2048) := by
  funext c; apply Fin.ext
  fin_cases c <;> rfl

/-- The maximum of row n's scores: the host's reduce from −∞, then the maximum with −∞ again. -/
theorem v3_eq_rowmax (x y : Arr) (b : Fin 8) (n : Fin 2048) :
    val_main_v3 (F := Ideal) x y (ix2 b n)
      = (Finset.univ : Finset (Fin 2048)).fold max ⊥ (fun r => score x y b n r) := by
  have h : S8x2048x2048.Reduces [2] S8x2048 := by decide
  rw [val_main_v3_apply, val_main_v2_apply, val_main_cst_0_apply]
  unfold val_main_v1
  rw [Host.reduce_eq_fold_single (FloatOps.maximumf (F := Ideal) (φ := .f32)) _ _ _ h h_S_, val_main_cst_apply]
  have hf : (val_main_v0 (F := Ideal) x y ∘ h.lift (ix2 b n)) = fun r : Fin 2048 => score x y b n r :=
    funext fun k => (congrArg (val_main_v0 (F := Ideal) x y) (lift_d2 h b n k)).trans (v0_eq_score x y b n _)
  rw [hf]
  show max (Ideal.ofBits .f32 0xFF800000#32)
    ((Finset.univ : Finset (Fin 2048)).fold max (Ideal.ofBits .f32 0xFF800000#32) (fun r => score x y b n r)) = _
  rw [ofBits_neg_inf, max_bot_left]

/-- The exponential of a score less its row's maximum. -/
theorem v7_eq (x y : Arr) (b : Fin 8) (n r : Fin 2048) :
    val_main_v7 (F := Ideal) x y (ix3 b n r)
      = Ideal.exp (score x y b n r - (Finset.univ : Finset (Fin 2048)).fold max ⊥ (fun r' => score x y b n r')) := by
  have e : idx_main_v4 (idx_main_v5 (ix3 b n r)) = ix2 b n :=
    funext fun a => Fin.ext (by match a with | ⟨0, _⟩ => rfl | ⟨1, _⟩ => rfl)
  rw [val_main_v7_apply, val_main_v6_apply, val_main_v5_apply, val_main_v4_apply, e, v3_eq_rowmax, v0_eq_score]
  rfl

/-- The sum of row n's exponentials, from the initial value 0. -/
theorem v8_eq (x y : Arr) (b : Fin 8) (n : Fin 2048) :
    val_main_v8 (F := Ideal) x y (ix2 b n)
      = 0 + ∑ r : Fin 2048, Ideal.exp (score x y b n r - (Finset.univ : Finset (Fin 2048)).fold max ⊥ (fun r' => score x y b n r')) := by
  have e : ∀ k : Fin 2048, idx_main_v8 (ix2 b n) k = ix3 b n k := fun k =>
    funext fun a => Fin.ext (by match a with | ⟨0, _⟩ => rfl | ⟨1, _⟩ => rfl | ⟨2, _⟩ => rfl)
  rw [val_main_v8_apply, val_main_cst_1_apply]
  simp only [e, v7_eq, Ideal.ofBits_def, Ideal.ofBits_zero_f32]

/-- Row n's softmax weight on row r of y. -/
theorem v11_eq (x y : Arr) (b : Fin 8) (n r : Fin 2048) :
    val_main_v11 (F := Ideal) x y (ix3 b n r)
      = Ideal.div (Ideal.exp (score x y b n r - (Finset.univ : Finset (Fin 2048)).fold max ⊥ (fun r' => score x y b n r')))
          (0 + ∑ r' : Fin 2048, Ideal.exp (score x y b n r' - (Finset.univ : Finset (Fin 2048)).fold max ⊥ (fun r'' => score x y b n r''))) := by
  have e : idx_main_v9 (idx_main_v10 (ix3 b n r)) = ix2 b n :=
    funext fun a => Fin.ext (by match a with | ⟨0, _⟩ => rfl | ⟨1, _⟩ => rfl)
  rw [val_main_v11_apply, val_main_v10_apply, val_main_v9_apply, e, v7_eq, v8_eq]
  rfl

/-- The reference's first result is resA of its two arguments. -/
theorem v23_eq_resA (x y : Arr) :
    val_main_v23 (F := Ideal) x y = fun i => resA x y (i 0) (i 1) (i 2) := by
  funext i
  obtain ⟨b, n, d, rfl⟩ : ∃ (b : Fin 8) (n : Fin 2048) (d : Fin 1024), i = ix3 b n d := ⟨i 0, i 1, i 2, eq_ix3 i⟩
  show val_main_v23 (F := Ideal) x y (ix3 b n d) = resA x y b n d
  rw [val_main_v23_apply]
  unfold resA
  refine Finset.sum_congr rfl fun r _ => ?_
  have el : lidx_main_v23 (ix3 b n d) r = ix3 b n r :=
    funext fun a => Fin.ext (by match a with | ⟨0, _⟩ => rfl | ⟨1, _⟩ => rfl | ⟨2, _⟩ => rfl)
  have er : ridx_main_v23 (ix3 b n d) r = ix3 b r d :=
    funext fun a => Fin.ext (by match a with | ⟨0, _⟩ => rfl | ⟨1, _⟩ => rfl | ⟨2, _⟩ => rfl)
  rw [el, er, v11_eq]

/-! ### Softmax over the rows of x (axis 1 of the scores) -/

/-- The reduced index (b, r) with n put back on axis 1 is (b, n, r). -/
theorem lift_d1 (h : S8x2048x2048.Reduces [1] S8x2048) (b : Fin 8) (r : Fin 2048) (k : Fin (S8x2048x2048.size 1)) :
    h.lift (ix2 b r) k = ix3 b (⟨k.val, k.isLt⟩ : Fin 2048) r := by
  funext c; apply Fin.ext
  fin_cases c <;> rfl

/-- The maximum of column r's scores: the host's reduce from −∞, then the maximum with −∞ again. -/
theorem v14_eq_colmax (x y : Arr) (b : Fin 8) (r : Fin 2048) :
    val_main_v14 (F := Ideal) x y (ix2 b r)
      = (Finset.univ : Finset (Fin 2048)).fold max ⊥ (fun n => score x y b n r) := by
  have h : S8x2048x2048.Reduces [1] S8x2048 := by decide
  rw [val_main_v14_apply, val_main_v13_apply, val_main_cst_3_apply]
  unfold val_main_v12
  rw [Host.reduce_eq_fold_single (FloatOps.maximumf (F := Ideal) (φ := .f32)) _ _ _ h h_S_, val_main_cst_2_apply]
  have hf : (val_main_v0 (F := Ideal) x y ∘ h.lift (ix2 b r)) = fun n : Fin 2048 => score x y b n r :=
    funext fun k => (congrArg (val_main_v0 (F := Ideal) x y) (lift_d1 h b r k)).trans (v0_eq_score x y b _ r)
  rw [hf]
  show max (Ideal.ofBits .f32 0xFF800000#32)
    ((Finset.univ : Finset (Fin 2048)).fold max (Ideal.ofBits .f32 0xFF800000#32) (fun n => score x y b n r)) = _
  rw [ofBits_neg_inf, max_bot_left]

/-- The exponential of a score less its column's maximum. -/
theorem v18_eq (x y : Arr) (b : Fin 8) (n r : Fin 2048) :
    val_main_v18 (F := Ideal) x y (ix3 b n r)
      = Ideal.exp (score x y b n r - (Finset.univ : Finset (Fin 2048)).fold max ⊥ (fun n' => score x y b n' r)) := by
  have e : idx_main_v15 (idx_main_v16 (ix3 b n r)) = ix2 b r :=
    funext fun a => Fin.ext (by match a with | ⟨0, _⟩ => rfl | ⟨1, _⟩ => rfl)
  rw [val_main_v18_apply, val_main_v17_apply, val_main_v16_apply, val_main_v15_apply, e, v14_eq_colmax, v0_eq_score]
  rfl

/-- The sum of column r's exponentials, from the initial value 0. -/
theorem v19_eq (x y : Arr) (b : Fin 8) (r : Fin 2048) :
    val_main_v19 (F := Ideal) x y (ix2 b r)
      = 0 + ∑ n : Fin 2048, Ideal.exp (score x y b n r - (Finset.univ : Finset (Fin 2048)).fold max ⊥ (fun n' => score x y b n' r)) := by
  have e : ∀ k : Fin 2048, idx_main_v19 (ix2 b r) k = ix3 b k r := fun k =>
    funext fun a => Fin.ext (by match a with | ⟨0, _⟩ => rfl | ⟨1, _⟩ => rfl | ⟨2, _⟩ => rfl)
  rw [val_main_v19_apply, val_main_cst_4_apply]
  simp only [e, v18_eq, Ideal.ofBits_def, Ideal.ofBits_zero_f32]

/-- Column r's softmax weight on row n of x. -/
theorem v22_eq (x y : Arr) (b : Fin 8) (n r : Fin 2048) :
    val_main_v22 (F := Ideal) x y (ix3 b n r)
      = Ideal.div (Ideal.exp (score x y b n r - (Finset.univ : Finset (Fin 2048)).fold max ⊥ (fun n' => score x y b n' r)))
          (0 + ∑ n' : Fin 2048, Ideal.exp (score x y b n' r - (Finset.univ : Finset (Fin 2048)).fold max ⊥ (fun n'' => score x y b n'' r))) := by
  have e : idx_main_v20 (idx_main_v21 (ix3 b n r)) = ix2 b r :=
    funext fun a => Fin.ext (by match a with | ⟨0, _⟩ => rfl | ⟨1, _⟩ => rfl)
  rw [val_main_v22_apply, val_main_v21_apply, val_main_v20_apply, e, v18_eq, v19_eq]
  rfl

/-- The reference's second result is resB of its two arguments. -/
theorem v24_eq_resB (x y : Arr) :
    val_main_v24 (F := Ideal) x y = fun i => resB x y (i 0) (i 1) (i 2) := by
  funext i
  obtain ⟨b, r, d, rfl⟩ : ∃ (b : Fin 8) (r : Fin 2048) (d : Fin 1024), i = ix3 b r d := ⟨i 0, i 1, i 2, eq_ix3 i⟩
  show val_main_v24 (F := Ideal) x y (ix3 b r d) = resB x y b r d
  rw [val_main_v24_apply]
  unfold resB
  refine Finset.sum_congr rfl fun n _ => ?_
  have el : lidx_main_v24 (ix3 b r d) n = ix3 b n r :=
    funext fun a => Fin.ext (by match a with | ⟨0, _⟩ => rfl | ⟨1, _⟩ => rfl | ⟨2, _⟩ => rfl)
  have er : ridx_main_v24 (ix3 b r d) n = ix3 b n d :=
    funext fun a => Fin.ext (by match a with | ⟨0, _⟩ => rfl | ⟨1, _⟩ => rfl | ⟨2, _⟩ => rfl)
  rw [el, er, v22_eq]

end Cert.CoAttn.Ref

end
-- ==== Proof.lean ====
/-
  The claim, assembled. Both kernels' frames come from the body's triple at every grid point (one run per control case);
  the reference's frame is its run with the results dropped; the idealisation rewrote nothing. The value claim: at the
  ideal instance the kernel's six buffers follow, index by index, a pure online-softmax recurrence — one step per grid
  point, the row statistics over the column tiles and the column statistics over the row tiles — whose state at the
  flushing points is the plain softmax-weighted sum the reference computes (the rescaling by the exponential of the
  difference of running maxima telescopes, and the final division distributes over the finite sum of finite terms,
  which is where the finiteness of the inputs is used).
-/
import proofs.«118892_j1881195675895_2_alg».proof.Defs
import proofs.«118892_j1881195675895_2_alg».proof.Proof.Gen.Kernel
import proofs.«118892_j1881195675895_2_alg».proof.Proof.Gen.KernelIdeal
import proofs.«118892_j1881195675895_2_alg».proof.Proof.Gen.ReferenceIdeal
import proofs.«118892_j1881195675895_2_alg».proof.Proof.Gen.Pre_finite_inputs
import proofs.«118892_j1881195675895_2_alg».proof.Proof.Gen.ReferenceIdeal.Run
import proofs.«118892_j1881195675895_2_alg».proof.Proof.Gen.ReferenceIdeal.Read
import proofs.«118892_j1881195675895_2_alg».proof.Proof.K.Sound
import proofs.«118892_j1881195675895_2_alg».proof.Proof.KI.Sound
import proofs.«118892_j1881195675895_2_alg».proof.Proof.KI.Step
import proofs.«118892_j1881195675895_2_alg».proof.Proof.KI.Final
import proofs.«118892_j1881195675895_2_alg».proof.Proof.Ref.Closed
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Body.frame m ρ

theorem frame_ki : Cert.frame_KernelIdeal (hKernelIdeal := Cert.KernelIdeal.Gen.facts) (hPre_finite_inputs := Cert.Pre_finite_inputs.Gen.facts) :=
  fun m ρ _ => Cert.KernelIdeal.Body.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨_, _, Cert.KernelIdeal.Final.run_value m ρ (Cert.KernelIdeal.Body.step_model m) hpre, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v23_eq, Cert.CoAttn.Ref.v23_eq_resA, (hagree c).1, (hagree c).2]
  · rw [Cert.ReferenceIdeal.Read.val_main_v24_eq, Cert.CoAttn.Ref.v24_eq_resB, (hagree c).1, (hagree c).2]

theorem claim : Cert.Claim :=
  ⟨Cert.Kernel.Gen.facts, Cert.KernelIdeal.Gen.facts, Cert.ReferenceIdeal.Gen.facts, Cert.Pre_finite_inputs.Gen.facts,
   frame_k, frame_ki, frame_ri, trivial, algebraic⟩

end Cert.Proof

end
